-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v311)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v311) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S320000 : Shape := ⟨1, ![320000]⟩
abbrev S100000 : Shape := ⟨1, ![100000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S4x256 : Shape := ⟨2, ![4, 256]⟩
abbrev S256x10 : Shape := ⟨2, ![256, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S4x256 : S_.BroadcastsInDim S4x256 (![] : Fin 0 → Fin S4x256.rank)
  reducesTo_S4x256_S_d0_1 : S4x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg10 : FVec F S4x256 .f32) (main_arg11 : FVec F S256x10 .f32) (main_arg12 : FVec F S10 .f32) (main_v33 : IVec S_ 1) : IVec S_ 1 :=
  let main_v34 : FVec F S4x256 .f32 := Host.absf main_arg10
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S256x10 .f32 := Host.absf main_arg11
  let main_cst_14 : FVec F S_ .f32 := constant S_ .f32 0x7F800000#32
  let main_v40 : FVec F S256x10 .f32 := broadcastInDim S256x10 ![] bcast_S_S256x10 main_cst_14
  let main_v41 : IVec S256x10 1 := cmpf .olt main_v39 main_v40
  let main_c_15 : IVec S_ 1 := constantI S_ 1 1#1
  let main_v42 : IVec S_ 1 := (fun x v => Host.reduce IntOp.andi x v reducesTo_S256x10_S_d0_1 h_S_) main_v41 main_c_15
  let main_v43 : IVec S_ 1 := andi main_v38 main_v42
  let main_v44 : FVec F S10 .f32 := Host.absf main_arg12
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg7 : FVec F S3x256 .f32) (main_arg8 : FVec F S4x256 .f32) (main_arg9 : FVec F S4x256 .f32) (main_arg10 : FVec F S4x256 .f32) (main_arg11 : FVec F S256x10 .f32) (main_arg12 : FVec F S10 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg7
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S4x256 .f32 := Host.absf main_arg8
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256 .f32 := Host.absf main_arg9
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg10 main_arg11 main_arg12 main_v33

def fn {F : FTy → Type} [FloatOps F] (main_arg0 : FVec F S100000x128 .f32) (main_arg1 : IVec S320000 32) (main_arg2 : IVec S320000 32) (main_arg3 : IVec S100000 32) (main_arg4 : FVec F S128x256 .f32) (main_arg5 : FVec F S256 .f32) (main_arg6 : FVec F S3x256x256 .f32) (main_arg7 : FVec F S3x256 .f32) (main_arg8 : FVec F S4x256 .f32) (main_arg9 : FVec F S4x256 .f32) (main_arg10 : FVec F S4x256 .f32) (main_arg11 : FVec F S256x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x256 .f32 := Host.absf main_arg6
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg7 main_arg8 main_arg9 main_arg10 main_arg11 main_arg12 main_v13 main_v16
-- ==== Kernel.lean ====
abbrev S100000x128 : Shape := ⟨2, ![100000, 128]⟩
abbrev S320000 : Shape := ⟨1, ![320000]⟩
abbrev S100000 : Shape := ⟨1, ![100000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S4x256 : Shape := ⟨2, ![4, 256]⟩
abbrev S256x10 : Shape := ⟨2, ![256, 10]⟩
abbrev S10 : Shape := ⟨1, ![10]⟩
abbrev S_ : Shape := ⟨0, ![]⟩
abbrev S320000x1 : Shape := ⟨2, ![320000, 1]⟩
abbrev S128 : Shape := ⟨1, ![128]⟩
abbrev S100000x1 : Shape := ⟨2, ![100000, 1]⟩
abbrev S320000x128 : Shape := ⟨2, ![320000, 128]⟩
abbrev S1x256 : Shape := ⟨2, ![1, 256]⟩
abbrev S100000x256 : Shape := ⟨2, ![100000, 256]⟩
abbrev S1000x128 : Shape := ⟨2, ![1000, 128]⟩
abbrev S1000x256 : Shape := ⟨2, ![1000, 256]⟩
abbrev S128x1 : Shape := ⟨2, ![128, 1]⟩
abbrev S1x256x256 : Shape := ⟨3, ![1, 256, 256]⟩
abbrev S256x256 : Shape := ⟨2, ![256, 256]⟩
abbrev S320000x256 : Shape := ⟨2, ![320000, 256]⟩
abbrev S1x10 : Shape := ⟨2, ![1, 10]⟩
abbrev S128x10 : Shape := ⟨2, ![128, 10]⟩

abbrev nBuf : Space → Nat
  | .hbm => 374
  | .vmem => 66
  | .smem => 0
  | _ => 0

abbrev hbmTy0_0 (i : Nat) : BufTy := match i % 128 with
  | 0 => ⟨S100000x128, .f32⟩
  | 1 => ⟨S320000, .i32⟩
  | 2 => ⟨S320000, .i32⟩
  | 3 => ⟨S100000, .i32⟩
  | 4 => ⟨S128x256, .f32⟩
  | 5 => ⟨S256, .f32⟩
  | 6 => ⟨S3x256x256, .f32⟩
  | 7 => ⟨S3x256, .f32⟩
  | 8 => ⟨S4x256, .f32⟩
  | 9 => ⟨S4x256, .f32⟩
  | 10 => ⟨S4x256, .f32⟩
  | 11 => ⟨S256x10, .f32⟩
  | 12 => ⟨S10, .f32⟩
  | 13 => ⟨S_, .f32⟩
  | 14 => ⟨S320000, .f32⟩
  | 15 => ⟨S_, .f32⟩
  | 16 => ⟨S100000, .f32⟩
  | 17 => ⟨S320000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S320000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S100000, .f32⟩
  | 31 => ⟨S_, .f32⟩
  | 32 => ⟨S100000, .f32⟩
  | 33 => ⟨S_, .f32⟩
  | 34 => ⟨S128, .f32⟩
  | 35 => ⟨S100000x1, .i32⟩
  | 36 => ⟨S128, .f32⟩
  | 37 => ⟨S_, .f32⟩
  | 38 => ⟨S128, .f32⟩
  | 39 => ⟨S128, .f32⟩
  | 40 => ⟨S100000x1, .f32⟩
  | 41 => ⟨S100000x128, .f32⟩
  | 42 => ⟨S100000x128, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000x128, .f32⟩
  | 52 => ⟨S_, .f32⟩
  | 53 => ⟨S100000x128, .f32⟩
  | 54 => ⟨S320000x1, .i32⟩
  | 55 => ⟨S100000x128, .f32⟩
  | 56 => ⟨S100000x1, .f32⟩
  | 57 => ⟨S100000x128, .f32⟩
  | 58 => ⟨S100000x128, .f32⟩
  | 59 => ⟨S1x256, .f32⟩
  | 60 => ⟨S100000x256, .f32⟩
  | 61 => ⟨S_, .f32⟩
  | 62 => ⟨S128x256, .f32⟩
  | 63 => ⟨S100000x1, .i32⟩
  | 64 => ⟨S128x256, .f32⟩
  | 65 => ⟨S128x1, .f32⟩
  | 66 => ⟨S128x256, .f32⟩
  | 67 => ⟨S128x256, .f32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000x256, .f32⟩
  | 77 => ⟨S1x256, .f32⟩
  | 78 => ⟨S256, .f32⟩
  | 79 => ⟨S1x256, .f32⟩
  | 80 => ⟨S100000x256, .f32⟩
  | 81 => ⟨S100000x256, .f32⟩
  | 82 => ⟨S100000x256, .f32⟩
  | 83 => ⟨S100000x256, .f32⟩
  | 84 => ⟨S_, .f32⟩
  | 85 => ⟨S128x256, .f32⟩
  | 86 => ⟨S100000x1, .i32⟩
  | 87 => ⟨S128x256, .f32⟩
  | 88 => ⟨S128x1, .f32⟩
  | 89 => ⟨S128x256, .f32⟩
  | 90 => ⟨S128x256, .f32⟩
  | 91 => ⟨S_, .f32⟩
  | 92 => ⟨S128x256, .f32⟩
  | 93 => ⟨S128x256, .f32⟩
  | 94 => ⟨S128x256, .f32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S100000x256, .f32⟩
  | 104 => ⟨S1x256, .f32⟩
  | 105 => ⟨S256, .f32⟩
  | 106 => ⟨S1x256, .f32⟩
  | 107 => ⟨S256, .f32⟩
  | 108 => ⟨S1x256, .f32⟩
  | 109 => ⟨S100000x256, .f32⟩
  | 110 => ⟨S100000x256, .f32⟩
  | 111 => ⟨S1x256, .f32⟩
  | 112 => ⟨S100000x256, .f32⟩
  | 113 => ⟨S1x256, .f32⟩
  | 114 => ⟨S100000x256, .f32⟩
  | 115 => ⟨S100000x256, .f32⟩
  | 116 => ⟨S100000x256, .f32⟩
  | 117 => ⟨S100000x256, .f32⟩
  | 118 => ⟨S100000x256, .f32⟩
  | 119 => ⟨S1x256x256, .f32⟩
  | 120 => ⟨S256x256, .f32⟩
  | 121 => ⟨S1x256, .f32⟩
  | 122 => ⟨S256, .f32⟩
  | 123 => ⟨S100000x1, .f32⟩
  | 124 => ⟨S100000x256, .f32⟩
  | 125 => ⟨S100000x256, .f32⟩
  | 126 => ⟨S_, .i32⟩
  | 127 => ⟨S320000, .i32⟩
  | _ => ⟨S100000x128, .f32⟩

abbrev hbmTy0_1 (i : Nat) : BufTy := match i % 128 with
  | 0 => ⟨S320000, .i1⟩
  | 1 => ⟨S_, .i32⟩
  | 2 => ⟨S320000, .i32⟩
  | 3 => ⟨S320000, .i32⟩
  | 4 => ⟨S320000, .i32⟩
  | 5 => ⟨S320000x1, .i32⟩
  | 6 => ⟨S320000x256, .f32⟩
  | 7 => ⟨S_, .f32⟩
  | 8 => ⟨S100000x256, .f32⟩
  | 9 => ⟨S320000x1, .i32⟩
  | 10 => ⟨S100000x256, .f32⟩
  | 11 => ⟨S100000x1, .f32⟩
  | 12 => ⟨S100000x256, .f32⟩
  | 13 => ⟨S100000x256, .f32⟩
  | 14 => ⟨S1x256, .f32⟩
  | 15 => ⟨S100000x256, .f32⟩
  | 16 => ⟨S_, .f32⟩
  | 17 => ⟨S128x256, .f32⟩
  | 18 => ⟨S100000x1, .i32⟩
  | 19 => ⟨S128x256, .f32⟩
  | 20 => ⟨S128x1, .f32⟩
  | 21 => ⟨S128x256, .f32⟩
  | 22 => ⟨S128x256, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x256, .f32⟩
  | 32 => ⟨S1x256, .f32⟩
  | 33 => ⟨S256, .f32⟩
  | 34 => ⟨S1x256, .f32⟩
  | 35 => ⟨S100000x256, .f32⟩
  | 36 => ⟨S100000x256, .f32⟩
  | 37 => ⟨S100000x256, .f32⟩
  | 38 => ⟨S100000x256, .f32⟩
  | 39 => ⟨S_, .f32⟩
  | 40 => ⟨S128x256, .f32⟩
  | 41 => ⟨S100000x1, .i32⟩
  | 42 => ⟨S128x256, .f32⟩
  | 43 => ⟨S128x1, .f32⟩
  | 44 => ⟨S128x256, .f32⟩
  | 45 => ⟨S128x256, .f32⟩
  | 46 => ⟨S_, .f32⟩
  | 47 => ⟨S128x256, .f32⟩
  | 48 => ⟨S128x256, .f32⟩
  | 49 => ⟨S128x256, .f32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x256, .f32⟩
  | 59 => ⟨S1x256, .f32⟩
  | 60 => ⟨S256, .f32⟩
  | 61 => ⟨S1x256, .f32⟩
  | 62 => ⟨S256, .f32⟩
  | 63 => ⟨S1x256, .f32⟩
  | 64 => ⟨S100000x256, .f32⟩
  | 65 => ⟨S100000x256, .f32⟩
  | 66 => ⟨S1x256, .f32⟩
  | 67 => ⟨S100000x256, .f32⟩
  | 68 => ⟨S1x256, .f32⟩
  | 69 => ⟨S100000x256, .f32⟩
  | 70 => ⟨S100000x256, .f32⟩
  | 71 => ⟨S100000x256, .f32⟩
  | 72 => ⟨S100000x256, .f32⟩
  | 73 => ⟨S100000x256, .f32⟩
  | 74 => ⟨S1x256x256, .f32⟩
  | 75 => ⟨S256x256, .f32⟩
  | 76 => ⟨S1x256, .f32⟩
  | 77 => ⟨S256, .f32⟩
  | 78 => ⟨S100000x1, .f32⟩
  | 79 => ⟨S100000x256, .f32⟩
  | 80 => ⟨S100000x256, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x256, .f32⟩
  | 90 => ⟨S_, .f32⟩
  | 91 => ⟨S100000x256, .f32⟩
  | 92 => ⟨S320000x1, .i32⟩
  | 93 => ⟨S100000x256, .f32⟩
  | 94 => ⟨S100000x1, .f32⟩
  | 95 => ⟨S100000x256, .f32⟩
  | 96 => ⟨S100000x256, .f32⟩
  | 97 => ⟨S1x256, .f32⟩
  | 98 => ⟨S100000x256, .f32⟩
  | 99 => ⟨S_, .f32⟩
  | 100 => ⟨S128x256, .f32⟩
  | 101 => ⟨S100000x1, .i32⟩
  | 102 => ⟨S128x256, .f32⟩
  | 103 => ⟨S128x1, .f32⟩
  | 104 => ⟨S128x256, .f32⟩
  | 105 => ⟨S128x256, .f32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x256, .f32⟩
  | 115 => ⟨S1x256, .f32⟩
  | 116 => ⟨S256, .f32⟩
  | 117 => ⟨S1x256, .f32⟩
  | 118 => ⟨S100000x256, .f32⟩
  | 119 => ⟨S100000x256, .f32⟩
  | 120 => ⟨S100000x256, .f32⟩
  | 121 => ⟨S100000x256, .f32⟩
  | 122 => ⟨S_, .f32⟩
  | 123 => ⟨S128x256, .f32⟩
  | 124 => ⟨S100000x1, .i32⟩
  | 125 => ⟨S128x256, .f32⟩
  | 126 => ⟨S128x1, .f32⟩
  | 127 => ⟨S128x256, .f32⟩
  | _ => ⟨S100000x128, .f32⟩

abbrev hbmTy0_2 (i : Nat) : BufTy := match i % 128 with
  | 0 => ⟨S128x256, .f32⟩
  | 1 => ⟨S_, .f32⟩
  | 2 => ⟨S128x256, .f32⟩
  | 3 => ⟨S128x256, .f32⟩
  | 4 => ⟨S128x256, .f32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S100000x256, .f32⟩
  | 14 => ⟨S1x256, .f32⟩
  | 15 => ⟨S256, .f32⟩
  | 16 => ⟨S1x256, .f32⟩
  | 17 => ⟨S256, .f32⟩
  | 18 => ⟨S1x256, .f32⟩
  | 19 => ⟨S100000x256, .f32⟩
  | 20 => ⟨S100000x256, .f32⟩
  | 21 => ⟨S1x256, .f32⟩
  | 22 => ⟨S100000x256, .f32⟩
  | 23 => ⟨S1x256, .f32⟩
  | 24 => ⟨S100000x256, .f32⟩
  | 25 => ⟨S100000x256, .f32⟩
  | 26 => ⟨S100000x256, .f32⟩
  | 27 => ⟨S100000x256, .f32⟩
  | 28 => ⟨S100000x256, .f32⟩
  | 29 => ⟨S1x256x256, .f32⟩
  | 30 => ⟨S256x256, .f32⟩
  | 31 => ⟨S1x256, .f32⟩
  | 32 => ⟨S256, .f32⟩
  | 33 => ⟨S100000x1, .f32⟩
  | 34 => ⟨S100000x256, .f32⟩
  | 35 => ⟨S100000x256, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x256, .f32⟩
  | 45 => ⟨S_, .f32⟩
  | 46 => ⟨S100000x256, .f32⟩
  | 47 => ⟨S320000x1, .i32⟩
  | 48 => ⟨S100000x256, .f32⟩
  | 49 => ⟨S100000x1, .f32⟩
  | 50 => ⟨S100000x256, .f32⟩
  | 51 => ⟨S100000x256, .f32⟩
  | 52 => ⟨S1x256, .f32⟩
  | 53 => ⟨S100000x256, .f32⟩
  | 54 => ⟨S_, .f32⟩
  | 55 => ⟨S128x256, .f32⟩
  | 56 => ⟨S100000x1, .i32⟩
  | 57 => ⟨S128x256, .f32⟩
  | 58 => ⟨S128x1, .f32⟩
  | 59 => ⟨S128x256, .f32⟩
  | 60 => ⟨S128x256, .f32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x256, .f32⟩
  | 70 => ⟨S1x256, .f32⟩
  | 71 => ⟨S256, .f32⟩
  | 72 => ⟨S1x256, .f32⟩
  | 73 => ⟨S100000x256, .f32⟩
  | 74 => ⟨S100000x256, .f32⟩
  | 75 => ⟨S100000x256, .f32⟩
  | 76 => ⟨S100000x256, .f32⟩
  | 77 => ⟨S_, .f32⟩
  | 78 => ⟨S128x256, .f32⟩
  | 79 => ⟨S100000x1, .i32⟩
  | 80 => ⟨S128x256, .f32⟩
  | 81 => ⟨S128x1, .f32⟩
  | 82 => ⟨S128x256, .f32⟩
  | 83 => ⟨S128x256, .f32⟩
  | 84 => ⟨S_, .f32⟩
  | 85 => ⟨S128x256, .f32⟩
  | 86 => ⟨S128x256, .f32⟩
  | 87 => ⟨S128x256, .f32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000x256, .f32⟩
  | 97 => ⟨S1x256, .f32⟩
  | 98 => ⟨S256, .f32⟩
  | 99 => ⟨S1x256, .f32⟩
  | 100 => ⟨S256, .f32⟩
  | 101 => ⟨S1x256, .f32⟩
  | 102 => ⟨S100000x256, .f32⟩
  | 103 => ⟨S100000x256, .f32⟩
  | 104 => ⟨S1x256, .f32⟩
  | 105 => ⟨S100000x256, .f32⟩
  | 106 => ⟨S1x256, .f32⟩
  | 107 => ⟨S100000x256, .f32⟩
  | 108 => ⟨S100000x256, .f32⟩
  | 109 => ⟨S100000x256, .f32⟩
  | 110 => ⟨S100000x256, .f32⟩
  | 111 => ⟨S100000x256, .f32⟩
  | 112 => ⟨S_, .f32⟩
  | 113 => ⟨S128x256, .f32⟩
  | 114 => ⟨S100000x1, .i32⟩
  | 115 => ⟨S128x256, .f32⟩
  | 116 => ⟨S1x10, .f32⟩
  | 117 => ⟨S128x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S256x256, .f32⟩
  | .local _ .vmem, ⟨17, _⟩ => ⟨S1x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S1000x256, .f32⟩
  | .local _ .vmem, ⟨23, _⟩ => ⟨S1000x256, .f32⟩
  | .local _ .vmem, ⟨24, _⟩ => ⟨S1000x256, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S256x256, .f32⟩
  | .local _ .vmem, ⟨33, _⟩ => ⟨S1x256, .f32⟩
  | .local _ .vmem, ⟨34, _⟩ => ⟨S1000x256, .f32⟩
  | .local _ .vmem, ⟨35, _⟩ => ⟨S1000x256, .f32⟩
  | .local _ .vmem, ⟨36, _⟩ => ⟨S1000x256, .f32⟩
  | .local _ .vmem, ⟨37, _⟩ => ⟨S1000x256, .f32⟩
  | .local _ .vmem, ⟨38, _⟩ => ⟨S1000x256, .f32⟩
  | .local _ .vmem, ⟨39, _⟩ => ⟨S1000x256, .f32⟩
  | .local _ .vmem, ⟨40, _⟩ => ⟨S1000x256, .f32⟩
  | .local _ .vmem, ⟨41, _⟩ => ⟨S1000x256, .f32⟩
  | .local _ .vmem, ⟨42, _⟩ => ⟨S1000x256, .f32⟩
  | .local _ .vmem, ⟨43, _⟩ => ⟨S1000x256, .f32⟩
  | .local _ .vmem, ⟨44, _⟩ => ⟨S1000x256, .f32⟩
  | .local _ .vmem, ⟨45, _⟩ => ⟨S1000x256, .f32⟩
  | .local _ .vmem, ⟨46, _⟩ => ⟨S1000x256, .f32⟩
  | .local _ .vmem, ⟨47, _⟩ => ⟨S1000x256, .f32⟩
  | .local _ .vmem, ⟨48, _⟩ => ⟨S256x256, .f32⟩
  | .local _ .vmem, ⟨49, _⟩ => ⟨S1x256, .f32⟩
  | .local _ .vmem, ⟨50, _⟩ => ⟨S1000x256, .f32⟩
  | .local _ .vmem, ⟨51, _⟩ => ⟨S1000x256, .f32⟩
  | .local _ .vmem, ⟨52, _⟩ => ⟨S1000x256, .f32⟩
  | .local _ .vmem, ⟨53, _⟩ => ⟨S1000x256, .f32⟩
  | .local _ .vmem, ⟨54, _⟩ => ⟨S1000x256, .f32⟩
  | .local _ .vmem, ⟨55, _⟩ => ⟨S1000x256, .f32⟩
  | .local _ .vmem, ⟨56, _⟩ => ⟨S1000x256, .f32⟩
  | .local _ .vmem, ⟨57, _⟩ => ⟨S1000x256, .f32⟩
  | .local _ .vmem, ⟨58, _⟩ => ⟨S1000x256, .f32⟩
  | .local _ .vmem, ⟨59, _⟩ => ⟨S1000x256, .f32⟩
  | .local _ .vmem, ⟨60, _⟩ => ⟨S1000x256, .f32⟩
  | .local _ .vmem, ⟨61, _⟩ => ⟨S1000x256, .f32⟩
  | .local _ .vmem, ⟨62, _⟩ => ⟨S128x256, .f32⟩
  | .local _ .vmem, ⟨63, _⟩ => ⟨S256x10, .f32⟩
  | .local _ .vmem, ⟨64, _⟩ => ⟨S1x10, .f32⟩
  | .local _ .vmem, ⟨65, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_cst_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_16 : Ref sig .tc := ⟨.hbm, 126, rfl⟩
abbrev main_v95 : Ref sig .tc := ⟨.hbm, 127, rfl⟩
abbrev main_v96 : Ref sig .tc := ⟨.hbm, 128, rfl⟩
abbrev main_c_17 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_18 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_19 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_c_20 : Ref sig .tc := ⟨.hbm, 151, rfl⟩
abbrev main_v116 : Ref sig .tc := ⟨.hbm, 152, rfl⟩
abbrev main_v117 : Ref sig .tc := ⟨.hbm, 153, rfl⟩
abbrev main_c_21 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_22 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_23 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_c_24 : Ref sig .tc := ⟨.hbm, 178, rfl⟩
abbrev main_v139 : Ref sig .tc := ⟨.hbm, 179, rfl⟩
abbrev main_v140 : Ref sig .tc := ⟨.hbm, 180, rfl⟩
abbrev main_c_25 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_c_26 : Ref sig .tc := ⟨.hbm, 209, rfl⟩
abbrev main_v168 : Ref sig .tc := ⟨.hbm, 210, rfl⟩
abbrev main_v169 : Ref sig .tc := ⟨.hbm, 211, rfl⟩
abbrev main_c_27 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_cst_28 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_cst_29 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_c_30 : Ref sig .tc := ⟨.hbm, 234, rfl⟩
abbrev main_v189 : Ref sig .tc := ⟨.hbm, 235, rfl⟩
abbrev main_v190 : Ref sig .tc := ⟨.hbm, 236, rfl⟩
abbrev main_c_31 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_cst_32 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_cst_33 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_c_34 : Ref sig .tc := ⟨.hbm, 261, rfl⟩
abbrev main_v212 : Ref sig .tc := ⟨.hbm, 262, rfl⟩
abbrev main_v213 : Ref sig .tc := ⟨.hbm, 263, rfl⟩
abbrev main_c_35 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_c_36 : Ref sig .tc := ⟨.hbm, 292, rfl⟩
abbrev main_v241 : Ref sig .tc := ⟨.hbm, 293, rfl⟩
abbrev main_v242 : Ref sig .tc := ⟨.hbm, 294, rfl⟩
abbrev main_c_37 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_cst_38 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_cst_39 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_c_40 : Ref sig .tc := ⟨.hbm, 317, rfl⟩
abbrev main_v262 : Ref sig .tc := ⟨.hbm, 318, rfl⟩
abbrev main_v263 : Ref sig .tc := ⟨.hbm, 319, rfl⟩
abbrev main_c_41 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_cst_42 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_cst_43 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_c_44 : Ref sig .tc := ⟨.hbm, 344, rfl⟩
abbrev main_v285 : Ref sig .tc := ⟨.hbm, 345, rfl⟩
abbrev main_v286 : Ref sig .tc := ⟨.hbm, 346, rfl⟩
abbrev main_c_45 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_cst_46 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_v310 : Ref sig .tc := ⟨.hbm, 372, rfl⟩
abbrev main_v311 : Ref sig .tc := ⟨.hbm, 373, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg3_1 : Ref sig .tc := ⟨.vmem, 59, rfl⟩
abbrev cc7_stg4_0 : Ref sig .tc := ⟨.vmem, 60, rfl⟩
abbrev cc7_stg4_1 : Ref sig .tc := ⟨.vmem, 61, rfl⟩
abbrev cc8_stg0_0 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg3_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem3_1 : DmaSem sig := 43
abbrev cc5_sem4_0 : DmaSem sig := 44
abbrev cc5_sem4_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59
abbrev cc7_sem4_0 : DmaSem sig := 60
abbrev cc7_sem4_1 : DmaSem sig := 61
abbrev cc8_sem0_0 : DmaSem sig := 62
abbrev cc8_sem1_0 : DmaSem sig := 63
abbrev cc8_sem2_0 : DmaSem sig := 64
abbrev cc8_sem3_0 : DmaSem sig := 65

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1000x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1000x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S128x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S256x10 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x10 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

class Facts₀ : Prop where
  bcast_S_S320000 : S_.BroadcastsInDim S320000 (![] : Fin 0 → Fin S320000.rank)
  bcast_S_S100000 : S_.BroadcastsInDim S100000 (![] : Fin 0 → Fin S100000.rank)
  bcast_S320000_S320000x1_0 : S320000.BroadcastsInDim S320000x1 (![0] : Fin 1 → Fin S320000x1.rank)
  bcast_S_S128 : S_.BroadcastsInDim S128 (![] : Fin 0 → Fin S128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S128x256 : S_.BroadcastsInDim S128x256 (![] : Fin 0 → Fin S128x256.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S1000x256_S1000x256 : S1000x256.ShapeCasts S1000x256
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S4x256_S1x256_1_0 : S4x256.Slices ![1, 0] S1x256
  slices_S3x256x256_S1x256x256_1_0_0 : S3x256x256.Slices ![1, 0, 0] S1x256x256
  slices_S3x256_S1x256_1_0 : S3x256.Slices ![1, 0] S1x256
  slices_S4x256_S1x256_2_0 : S4x256.Slices ![2, 0] S1x256
  slices_S3x256x256_S1x256x256_2_0_0 : S3x256x256.Slices ![2, 0, 0] S1x256x256
  slices_S3x256_S1x256_2_0 : S3x256.Slices ![2, 0] S1x256
  slices_S4x256_S1x256_3_0 : S4x256.Slices ![3, 0] S1x256
  shapeCasts_S10_S1x10 : S10.ShapeCasts S1x10
  shapeCasts_S128x256_S128x256 : S128x256.ShapeCasts S128x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  scatter_S100000_S320000x1_S320000_n_0_0_1_wf : ScatterDims.WF S100000 S320000x1 S320000 [] [0] [0] 1
  scatter_S128_S100000x1_S100000_n_0_0_1_wf : ScatterDims.WF S128 S100000x1 S100000 [] [0] [0] 1
  gather_S100000x128_S320000x1_S320000x128_1_0_n_n_0_1_1128_wf : GatherDims.WF S100000x128 S320000x1 S320000x128 [1] [0] [] [0] [] 1 ![1, 128]
  scatter_S100000x128_S320000x1_S320000x128_1_0_0_1_wf : ScatterDims.WF S100000x128 S320000x1 S320000x128 [1] [0] [0] 1
  dot_S1000x128_S128x256_S1000x256_1_0_0_1_n_n_wf : DotDims.WF S1000x128 S128x256 S1000x256 [1] [0] [0] [1] [] []
  scatter_S128x256_S100000x1_S100000x256_1_0_0_1_wf : ScatterDims.WF S128x256 S100000x1 S100000x256 [1] [0] [0] 1
  gather_S128x256_S100000x1_S100000x256_1_0_n_n_0_1_1256_wf : GatherDims.WF S128x256 S100000x1 S100000x256 [1] [0] [] [0] [] 1 ![1, 256]
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S1000x256_S256x256_S1000x256_1_0_0_1_n_n_wf : DotDims.WF S1000x256 S256x256 S1000x256 [1] [0] [0] [1] [] []
  dot_S128x256_S256x10_S128x10_1_0_0_1_n_n_wf : DotDims.WF S128x256 S256x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S100000x256.size a
  hwx0_3 : ∀ i : grid0.Coords, EltTy.bits .f32 = 32 ∨ (Rect.block (s := S100000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S100000x256.size a
  hwx1_0 : ∀ i : grid1.Coords, EltTy.bits .f32 = 32 ∨ (Rect.block (s := S100000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S100000x256.size a
  hwx1_1 : ∀ i : grid1.Coords, EltTy.bits .f32 = 32 ∨ (Rect.block (s := S100000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S100000x256.size a
  hwx1_2 : ∀ i : grid1.Coords, EltTy.bits .f32 = 32 ∨ (Rect.block (s := S100000x256) S1000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S100000x256.size a
  hwx1_3 : ∀ i : grid1.Coords, EltTy.bits .f32 = 32 ∨ (Rect.block (s := S100000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S100000x256.size a
  hwx2_0 : ∀ i : grid2.Coords, EltTy.bits .f32 = 32 ∨ (Rect.block (s := S100000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S100000x256.size a
  hwx2_3 : ∀ i : grid2.Coords, EltTy.bits .f32 = 32 ∨ (Rect.block (s := S100000x256) S1000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S100000x256.size a
  hwx3_0 : ∀ i : grid3.Coords, EltTy.bits .f32 = 32 ∨ (Rect.block (s := S100000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S100000x256.size a
  hwx3_1 : ∀ i : grid3.Coords, EltTy.bits .f32 = 32 ∨ (Rect.block (s := S100000x256) S1000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S100000x256.size a
  hwx3_2 : ∀ i : grid3.Coords, EltTy.bits .f32 = 32 ∨ (Rect.block (s := S100000x256) S1000x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x256.size a ≤ S100000x256.size a
  hwx3_3 : ∀ i : grid3.Coords, EltTy.bits .f32 = 32 ∨ (Rect.block (s := S100000x256) S1000x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x256.size a ≤ S100000x256.size a
  hwx3_4 : ∀ i : grid3.Coords, EltTy.bits .f32 = 32 ∨ (Rect.block (s := S100000x256) S1000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S100000x256.size a
  hwx4_0 : ∀ i : grid4.Coords, EltTy.bits .f32 = 32 ∨ (Rect.block (s := S100000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x256.size a ≤ S100000x256.size a
  hwx4_3 : ∀ i : grid4.Coords, EltTy.bits .f32 = 32 ∨ (Rect.block (s := S100000x256) S1000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S100000x256.size a
  hwx5_0 : ∀ i : grid5.Coords, EltTy.bits .f32 = 32 ∨ (Rect.block (s := S100000x256) S1000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x256.size a ≤ S100000x256.size a
  hwx5_1 : ∀ i : grid5.Coords, EltTy.bits .f32 = 32 ∨ (Rect.block (s := S100000x256) S1000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x256.size a ≤ S100000x256.size a
  hwx5_2 : ∀ i : grid5.Coords, EltTy.bits .f32 = 32 ∨ (Rect.block (s := S100000x256) S1000x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x256.size a ≤ S100000x256.size a
  hwx5_3 : ∀ i : grid5.Coords, EltTy.bits .f32 = 32 ∨ (Rect.block (s := S100000x256) S1000x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x256.size a ≤ S100000x256.size a
  hwx5_4 : ∀ i : grid5.Coords, EltTy.bits .f32 = 32 ∨ (Rect.block (s := S100000x256) S1000x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x256.size a ≤ S100000x256.size a
  hwx6_0 : ∀ i : grid6.Coords, EltTy.bits .f32 = 32 ∨ (Rect.block (s := S100000x256) S1000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x256.size a ≤ S100000x256.size a
  hwx6_3 : ∀ i : grid6.Coords, EltTy.bits .f32 = 32 ∨ (Rect.block (s := S100000x256) S1000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x256.size a ≤ S100000x256.size a
  hwx7_0 : ∀ i : grid7.Coords, EltTy.bits .f32 = 32 ∨ (Rect.block (s := S100000x256) S1000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x256.size a ≤ S100000x256.size a
  hwx7_1 : ∀ i : grid7.Coords, EltTy.bits .f32 = 32 ∨ (Rect.block (s := S100000x256) S1000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x256.size a ≤ S100000x256.size a
  hwx7_2 : ∀ i : grid7.Coords, EltTy.bits .f32 = 32 ∨ (Rect.block (s := S100000x256) S1000x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x256.size a ≤ S100000x256.size a
  hwx7_3 : ∀ i : grid7.Coords, EltTy.bits .f32 = 32 ∨ (Rect.block (s := S100000x256) S1000x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1000x256.size a ≤ S100000x256.size a
  hwx7_4 : ∀ i : grid7.Coords, EltTy.bits .f32 = 32 ∨ (Rect.block (s := S100000x256) S1000x256.size (cc7_transform_4 i) (hinb7_4 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S128x256.size a ≤ S128x256.size a
  hwx8_0 : ∀ i : grid8.Coords, EltTy.bits .f32 = 32 ∨ (Rect.block (s := S128x256) S128x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x10.size a ≤ S256x10.size a
  hwx8_1 : ∀ i : grid8.Coords, EltTy.bits .f32 = 32 ∨ (Rect.block (s := S256x10) S256x10.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x10.size a ≤ S1x10.size a
  hwx8_2 : ∀ i : grid8.Coords, EltTy.bits .f32 = 32 ∨ (Rect.block (s := S1x10) S1x10.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S128x10.size a ≤ S128x10.size a
  hwx8_3 : ∀ i : grid8.Coords, EltTy.bits .f32 = 32 ∨ (Rect.block (s := S128x10) S128x10.size (cc8_transform_3 i) (hinb8_3 i)).WholeWords (EltTy.packing .f32)

variable [Facts₀]

def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def gather_S100000x128_S320000x1_S320000x128_1_0_n_n_0_1_1128 : GatherDims S100000x128 S320000x1 S320000x128 where
  offsetDims := [1]
  collapsedSliceDims := [0]
  operandBatchingDims := []
  startIndicesBatchingDims := []
  startIndexMap := [0]
  indexVectorDim := 1
  sliceSizes := ![1, 128]
  wf := gather_S100000x128_S320000x1_S320000x128_1_0_n_n_0_1_1128_wf
def scatter_S100000x128_S320000x1_S320000x128_1_0_0_1 : ScatterDims S100000x128 S320000x1 S320000x128 where
  updateWindowDims := [1]
  insertedWindowDims := [0]
  scatterDimsToOperandDims := [0]
  indexVectorDim := 1
  wf := scatter_S100000x128_S320000x1_S320000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def scatter_S128x256_S100000x1_S100000x256_1_0_0_1 : ScatterDims S128x256 S100000x1 S100000x256 where
  updateWindowDims := [1]
  insertedWindowDims := [0]
  scatterDimsToOperandDims := [0]
  indexVectorDim := 1
  wf := scatter_S128x256_S100000x1_S100000x256_1_0_0_1_wf
def gather_S128x256_S100000x1_S100000x256_1_0_n_n_0_1_1256 : GatherDims S128x256 S100000x1 S100000x256 where
  offsetDims := [1]
  collapsedSliceDims := [0]
  operandBatchingDims := []
  startIndicesBatchingDims := []
  startIndexMap := [0]
  indexVectorDim := 1
  sliceSizes := ![1, 256]
  wf := gather_S128x256_S100000x1_S100000x256_1_0_n_n_0_1_1256_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

abbrev win0_0 : Pipeline.Window sig grid0 :=
  Pipeline.Window.ofSpec (Memref.whole main_v34) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v86) S1000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v87) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v107) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v108) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v109) S1000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v109) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v152) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v159) S1000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v87) S1000x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v160) S1000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v180) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v162) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v181) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v182) S1000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v182) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v225) S1000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v232) S1000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v160) S1000x256.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v233) S1000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v253) S1000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v235) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v254) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v255) S1000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v255) S1000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v298) S1000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v305) S1000x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v233) S1000x256.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v306) S1000x256.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v309) S128x256.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S256x10.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v310) S1x10.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v311) S128x10.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S320000 : Shape := ⟨1, ![320000]⟩
abbrev S100000 : Shape := ⟨1, ![100000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S4x256 : Shape := ⟨2, ![4, 256]⟩
abbrev S256x10 : Shape := ⟨2, ![256, 10]⟩
abbrev S10 : Shape := ⟨1, ![10]⟩
abbrev S_ : Shape := ⟨0, ![]⟩
abbrev S320000x1 : Shape := ⟨2, ![320000, 1]⟩
abbrev S128 : Shape := ⟨1, ![128]⟩
abbrev S100000x1 : Shape := ⟨2, ![100000, 1]⟩
abbrev S320000x128 : Shape := ⟨2, ![320000, 128]⟩
abbrev S100000x256 : Shape := ⟨2, ![100000, 256]⟩
abbrev S1x256 : Shape := ⟨2, ![1, 256]⟩
abbrev S128x1 : Shape := ⟨2, ![128, 1]⟩
abbrev S1x256x256 : Shape := ⟨3, ![1, 256, 256]⟩
abbrev S256x256 : Shape := ⟨2, ![256, 256]⟩
abbrev S320000x256 : Shape := ⟨2, ![320000, 256]⟩
abbrev S128x10 : Shape := ⟨2, ![128, 10]⟩
abbrev S1x10 : Shape := ⟨2, ![1, 10]⟩

abbrev nBuf : Space → Nat
  | .hbm => 383
  | .vmem => 0
  | .smem => 0
  | _ => 0

abbrev hbmTy0_0 (i : Nat) : BufTy := match i % 128 with
  | 0 => ⟨S100000x128, .f32⟩
  | 1 => ⟨S320000, .i32⟩
  | 2 => ⟨S320000, .i32⟩
  | 3 => ⟨S100000, .i32⟩
  | 4 => ⟨S128x256, .f32⟩
  | 5 => ⟨S256, .f32⟩
  | 6 => ⟨S3x256x256, .f32⟩
  | 7 => ⟨S3x256, .f32⟩
  | 8 => ⟨S4x256, .f32⟩
  | 9 => ⟨S4x256, .f32⟩
  | 10 => ⟨S4x256, .f32⟩
  | 11 => ⟨S256x10, .f32⟩
  | 12 => ⟨S10, .f32⟩
  | 13 => ⟨S_, .f32⟩
  | 14 => ⟨S320000, .f32⟩
  | 15 => ⟨S_, .f32⟩
  | 16 => ⟨S100000, .f32⟩
  | 17 => ⟨S320000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S320000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S100000, .f32⟩
  | 31 => ⟨S_, .f32⟩
  | 32 => ⟨S100000, .f32⟩
  | 33 => ⟨S_, .f32⟩
  | 34 => ⟨S128, .f32⟩
  | 35 => ⟨S100000x1, .i32⟩
  | 36 => ⟨S128, .f32⟩
  | 37 => ⟨S_, .f32⟩
  | 38 => ⟨S128, .f32⟩
  | 39 => ⟨S128, .f32⟩
  | 40 => ⟨S100000x1, .f32⟩
  | 41 => ⟨S100000x128, .f32⟩
  | 42 => ⟨S100000x128, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000x128, .f32⟩
  | 52 => ⟨S_, .f32⟩
  | 53 => ⟨S100000x128, .f32⟩
  | 54 => ⟨S320000x1, .i32⟩
  | 55 => ⟨S100000x128, .f32⟩
  | 56 => ⟨S100000x1, .f32⟩
  | 57 => ⟨S100000x128, .f32⟩
  | 58 => ⟨S100000x128, .f32⟩
  | 59 => ⟨S100000x256, .f32⟩
  | 60 => ⟨S1x256, .f32⟩
  | 61 => ⟨S100000x256, .f32⟩
  | 62 => ⟨S100000x256, .f32⟩
  | 63 => ⟨S1x256, .f32⟩
  | 64 => ⟨S256, .f32⟩
  | 65 => ⟨S1x256, .f32⟩
  | 66 => ⟨S256, .f32⟩
  | 67 => ⟨S1x256, .f32⟩
  | 68 => ⟨S256, .f32⟩
  | 69 => ⟨S_, .f32⟩
  | 70 => ⟨S128x256, .f32⟩
  | 71 => ⟨S100000x1, .i32⟩
  | 72 => ⟨S128x256, .f32⟩
  | 73 => ⟨S128x1, .f32⟩
  | 74 => ⟨S128x256, .f32⟩
  | 75 => ⟨S128x256, .f32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S100000x256, .f32⟩
  | 85 => ⟨S1x256, .f32⟩
  | 86 => ⟨S100000x256, .f32⟩
  | 87 => ⟨S100000x256, .f32⟩
  | 88 => ⟨S100000x256, .f32⟩
  | 89 => ⟨S100000x256, .f32⟩
  | 90 => ⟨S_, .f32⟩
  | 91 => ⟨S128x256, .f32⟩
  | 92 => ⟨S100000x1, .i32⟩
  | 93 => ⟨S128x256, .f32⟩
  | 94 => ⟨S128x1, .f32⟩
  | 95 => ⟨S128x256, .f32⟩
  | 96 => ⟨S128x256, .f32⟩
  | 97 => ⟨S_, .f32⟩
  | 98 => ⟨S128x256, .f32⟩
  | 99 => ⟨S128x256, .f32⟩
  | 100 => ⟨S128x256, .f32⟩
  | 101 => ⟨S1x256, .f32⟩
  | 102 => ⟨S100000x256, .f32⟩
  | 103 => ⟨S100000x256, .f32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000x256, .f32⟩
  | 113 => ⟨S100000x256, .f32⟩
  | 114 => ⟨S1x256, .f32⟩
  | 115 => ⟨S100000x256, .f32⟩
  | 116 => ⟨S100000x256, .f32⟩
  | 117 => ⟨S_, .f32⟩
  | 118 => ⟨S100000x256, .f32⟩
  | 119 => ⟨S100000x256, .f32⟩
  | 120 => ⟨S1x256x256, .f32⟩
  | 121 => ⟨S256x256, .f32⟩
  | 122 => ⟨S1x256, .f32⟩
  | 123 => ⟨S256, .f32⟩
  | 124 => ⟨S100000x1, .f32⟩
  | 125 => ⟨S100000x256, .f32⟩
  | 126 => ⟨S100000x256, .f32⟩
  | 127 => ⟨S_, .i32⟩
  | _ => ⟨S100000x128, .f32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000x256, .f32⟩
  | 8 => ⟨S_, .f32⟩
  | 9 => ⟨S100000x256, .f32⟩
  | 10 => ⟨S320000x1, .i32⟩
  | 11 => ⟨S100000x256, .f32⟩
  | 12 => ⟨S100000x1, .f32⟩
  | 13 => ⟨S100000x256, .f32⟩
  | 14 => ⟨S100000x256, .f32⟩
  | 15 => ⟨S100000x256, .f32⟩
  | 16 => ⟨S1x256, .f32⟩
  | 17 => ⟨S100000x256, .f32⟩
  | 18 => ⟨S100000x256, .f32⟩
  | 19 => ⟨S1x256, .f32⟩
  | 20 => ⟨S256, .f32⟩
  | 21 => ⟨S1x256, .f32⟩
  | 22 => ⟨S256, .f32⟩
  | 23 => ⟨S1x256, .f32⟩
  | 24 => ⟨S256, .f32⟩
  | 25 => ⟨S_, .f32⟩
  | 26 => ⟨S128x256, .f32⟩
  | 27 => ⟨S100000x1, .i32⟩
  | 28 => ⟨S128x256, .f32⟩
  | 29 => ⟨S128x1, .f32⟩
  | 30 => ⟨S128x256, .f32⟩
  | 31 => ⟨S128x256, .f32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S100000x256, .f32⟩
  | 41 => ⟨S1x256, .f32⟩
  | 42 => ⟨S100000x256, .f32⟩
  | 43 => ⟨S100000x256, .f32⟩
  | 44 => ⟨S100000x256, .f32⟩
  | 45 => ⟨S100000x256, .f32⟩
  | 46 => ⟨S_, .f32⟩
  | 47 => ⟨S128x256, .f32⟩
  | 48 => ⟨S100000x1, .i32⟩
  | 49 => ⟨S128x256, .f32⟩
  | 50 => ⟨S128x1, .f32⟩
  | 51 => ⟨S128x256, .f32⟩
  | 52 => ⟨S128x256, .f32⟩
  | 53 => ⟨S_, .f32⟩
  | 54 => ⟨S128x256, .f32⟩
  | 55 => ⟨S128x256, .f32⟩
  | 56 => ⟨S128x256, .f32⟩
  | 57 => ⟨S1x256, .f32⟩
  | 58 => ⟨S100000x256, .f32⟩
  | 59 => ⟨S100000x256, .f32⟩
  | 60 => ⟨S_, .i32⟩
  | 61 => ⟨S100000, .i32⟩
  | 62 => ⟨S100000, .i1⟩
  | 63 => ⟨S_, .i32⟩
  | 64 => ⟨S100000, .i32⟩
  | 65 => ⟨S100000, .i32⟩
  | 66 => ⟨S100000, .i32⟩
  | 67 => ⟨S100000x1, .i32⟩
  | 68 => ⟨S100000x256, .f32⟩
  | 69 => ⟨S100000x256, .f32⟩
  | 70 => ⟨S1x256, .f32⟩
  | 71 => ⟨S100000x256, .f32⟩
  | 72 => ⟨S100000x256, .f32⟩
  | 73 => ⟨S_, .f32⟩
  | 74 => ⟨S100000x256, .f32⟩
  | 75 => ⟨S100000x256, .f32⟩
  | 76 => ⟨S100000x256, .f32⟩
  | 77 => ⟨S1x256x256, .f32⟩
  | 78 => ⟨S256x256, .f32⟩
  | 79 => ⟨S1x256, .f32⟩
  | 80 => ⟨S256, .f32⟩
  | 81 => ⟨S100000x1, .f32⟩
  | 82 => ⟨S100000x256, .f32⟩
  | 83 => ⟨S100000x256, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000x256, .f32⟩
  | 93 => ⟨S_, .f32⟩
  | 94 => ⟨S100000x256, .f32⟩
  | 95 => ⟨S320000x1, .i32⟩
  | 96 => ⟨S100000x256, .f32⟩
  | 97 => ⟨S100000x1, .f32⟩
  | 98 => ⟨S100000x256, .f32⟩
  | 99 => ⟨S100000x256, .f32⟩
  | 100 => ⟨S100000x256, .f32⟩
  | 101 => ⟨S1x256, .f32⟩
  | 102 => ⟨S100000x256, .f32⟩
  | 103 => ⟨S100000x256, .f32⟩
  | 104 => ⟨S1x256, .f32⟩
  | 105 => ⟨S256, .f32⟩
  | 106 => ⟨S1x256, .f32⟩
  | 107 => ⟨S256, .f32⟩
  | 108 => ⟨S1x256, .f32⟩
  | 109 => ⟨S256, .f32⟩
  | 110 => ⟨S_, .f32⟩
  | 111 => ⟨S128x256, .f32⟩
  | 112 => ⟨S100000x1, .i32⟩
  | 113 => ⟨S128x256, .f32⟩
  | 114 => ⟨S128x1, .f32⟩
  | 115 => ⟨S128x256, .f32⟩
  | 116 => ⟨S128x256, .f32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000x256, .f32⟩
  | 126 => ⟨S1x256, .f32⟩
  | 127 => ⟨S100000x256, .f32⟩
  | _ => ⟨S100000x128, .f32⟩

abbrev hbmTy0_2 (i : Nat) : BufTy := match i % 128 with
  | 0 => ⟨S100000x256, .f32⟩
  | 1 => ⟨S100000x256, .f32⟩
  | 2 => ⟨S100000x256, .f32⟩
  | 3 => ⟨S_, .f32⟩
  | 4 => ⟨S128x256, .f32⟩
  | 5 => ⟨S100000x1, .i32⟩
  | 6 => ⟨S128x256, .f32⟩
  | 7 => ⟨S128x1, .f32⟩
  | 8 => ⟨S128x256, .f32⟩
  | 9 => ⟨S128x256, .f32⟩
  | 10 => ⟨S_, .f32⟩
  | 11 => ⟨S128x256, .f32⟩
  | 12 => ⟨S128x256, .f32⟩
  | 13 => ⟨S128x256, .f32⟩
  | 14 => ⟨S1x256, .f32⟩
  | 15 => ⟨S100000x256, .f32⟩
  | 16 => ⟨S100000x256, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x256, .f32⟩
  | 26 => ⟨S100000x256, .f32⟩
  | 27 => ⟨S1x256, .f32⟩
  | 28 => ⟨S100000x256, .f32⟩
  | 29 => ⟨S100000x256, .f32⟩
  | 30 => ⟨S_, .f32⟩
  | 31 => ⟨S100000x256, .f32⟩
  | 32 => ⟨S100000x256, .f32⟩
  | 33 => ⟨S100000x256, .f32⟩
  | 34 => ⟨S1x256x256, .f32⟩
  | 35 => ⟨S256x256, .f32⟩
  | 36 => ⟨S1x256, .f32⟩
  | 37 => ⟨S256, .f32⟩
  | 38 => ⟨S100000x1, .f32⟩
  | 39 => ⟨S100000x256, .f32⟩
  | 40 => ⟨S100000x256, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x256, .f32⟩
  | 50 => ⟨S_, .f32⟩
  | 51 => ⟨S100000x256, .f32⟩
  | 52 => ⟨S320000x1, .i32⟩
  | 53 => ⟨S100000x256, .f32⟩
  | 54 => ⟨S100000x1, .f32⟩
  | 55 => ⟨S100000x256, .f32⟩
  | 56 => ⟨S100000x256, .f32⟩
  | 57 => ⟨S100000x256, .f32⟩
  | 58 => ⟨S1x256, .f32⟩
  | 59 => ⟨S100000x256, .f32⟩
  | 60 => ⟨S100000x256, .f32⟩
  | 61 => ⟨S1x256, .f32⟩
  | 62 => ⟨S256, .f32⟩
  | 63 => ⟨S1x256, .f32⟩
  | 64 => ⟨S256, .f32⟩
  | 65 => ⟨S1x256, .f32⟩
  | 66 => ⟨S256, .f32⟩
  | 67 => ⟨S_, .f32⟩
  | 68 => ⟨S128x256, .f32⟩
  | 69 => ⟨S100000x1, .i32⟩
  | 70 => ⟨S128x256, .f32⟩
  | 71 => ⟨S128x1, .f32⟩
  | 72 => ⟨S128x256, .f32⟩
  | 73 => ⟨S128x256, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x256, .f32⟩
  | 83 => ⟨S1x256, .f32⟩
  | 84 => ⟨S100000x256, .f32⟩
  | 85 => ⟨S100000x256, .f32⟩
  | 86 => ⟨S100000x256, .f32⟩
  | 87 => ⟨S100000x256, .f32⟩
  | 88 => ⟨S_, .f32⟩
  | 89 => ⟨S128x256, .f32⟩
  | 90 => ⟨S100000x1, .i32⟩
  | 91 => ⟨S128x256, .f32⟩
  | 92 => ⟨S128x1, .f32⟩
  | 93 => ⟨S128x256, .f32⟩
  | 94 => ⟨S128x256, .f32⟩
  | 95 => ⟨S_, .f32⟩
  | 96 => ⟨S128x256, .f32⟩
  | 97 => ⟨S128x256, .f32⟩
  | 98 => ⟨S128x256, .f32⟩
  | 99 => ⟨S1x256, .f32⟩
  | 100 => ⟨S100000x256, .f32⟩
  | 101 => ⟨S100000x256, .f32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000x256, .f32⟩
  | 111 => ⟨S100000x256, .f32⟩
  | 112 => ⟨S1x256, .f32⟩
  | 113 => ⟨S100000x256, .f32⟩
  | 114 => ⟨S100000x256, .f32⟩
  | 115 => ⟨S_, .f32⟩
  | 116 => ⟨S100000x256, .f32⟩
  | 117 => ⟨S100000x256, .f32⟩
  | 118 => ⟨S100000x256, .f32⟩
  | 119 => ⟨S_, .f32⟩
  | 120 => ⟨S128x256, .f32⟩
  | 121 => ⟨S100000x1, .i32⟩
  | 122 => ⟨S128x256, .f32⟩
  | 123 => ⟨S128x10, .f32⟩
  | 124 => ⟨S1x10, .f32⟩
  | 125 => ⟨S128x10, .f32⟩
  | 126 => ⟨S128x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_cst_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_14 : Ref sig .tc := ⟨.hbm, 104, rfl⟩
abbrev main_v75 : Ref sig .tc := ⟨.hbm, 105, rfl⟩
abbrev main_v76 : Ref sig .tc := ⟨.hbm, 106, rfl⟩
abbrev main_c_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call0_cst : Ref sig .tc := ⟨.hbm, 117, rfl⟩
abbrev main_call0_v0 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_16 : Ref sig .tc := ⟨.hbm, 127, rfl⟩
abbrev main_v94 : Ref sig .tc := ⟨.hbm, 128, rfl⟩
abbrev main_v95 : Ref sig .tc := ⟨.hbm, 129, rfl⟩
abbrev main_c_17 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_18 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_19 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_20 : Ref sig .tc := ⟨.hbm, 160, rfl⟩
abbrev main_v123 : Ref sig .tc := ⟨.hbm, 161, rfl⟩
abbrev main_v124 : Ref sig .tc := ⟨.hbm, 162, rfl⟩
abbrev main_c_21 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_22 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_23 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_c_24 : Ref sig .tc := ⟨.hbm, 188, rfl⟩
abbrev main_v147 : Ref sig .tc := ⟨.hbm, 189, rfl⟩
abbrev main_v148 : Ref sig .tc := ⟨.hbm, 190, rfl⟩
abbrev main_c_25 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_call1_cst : Ref sig .tc := ⟨.hbm, 201, rfl⟩
abbrev main_call1_v0 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_c_26 : Ref sig .tc := ⟨.hbm, 212, rfl⟩
abbrev main_v167 : Ref sig .tc := ⟨.hbm, 213, rfl⟩
abbrev main_v168 : Ref sig .tc := ⟨.hbm, 214, rfl⟩
abbrev main_c_27 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_28 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_cst_29 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_c_30 : Ref sig .tc := ⟨.hbm, 245, rfl⟩
abbrev main_v196 : Ref sig .tc := ⟨.hbm, 246, rfl⟩
abbrev main_v197 : Ref sig .tc := ⟨.hbm, 247, rfl⟩
abbrev main_c_31 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_cst_32 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_cst_33 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_c_34 : Ref sig .tc := ⟨.hbm, 273, rfl⟩
abbrev main_v220 : Ref sig .tc := ⟨.hbm, 274, rfl⟩
abbrev main_v221 : Ref sig .tc := ⟨.hbm, 275, rfl⟩
abbrev main_c_35 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_call2_cst : Ref sig .tc := ⟨.hbm, 286, rfl⟩
abbrev main_call2_v0 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_c_36 : Ref sig .tc := ⟨.hbm, 297, rfl⟩
abbrev main_v240 : Ref sig .tc := ⟨.hbm, 298, rfl⟩
abbrev main_v241 : Ref sig .tc := ⟨.hbm, 299, rfl⟩
abbrev main_c_37 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_cst_38 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_cst_39 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_c_40 : Ref sig .tc := ⟨.hbm, 330, rfl⟩
abbrev main_v269 : Ref sig .tc := ⟨.hbm, 331, rfl⟩
abbrev main_v270 : Ref sig .tc := ⟨.hbm, 332, rfl⟩
abbrev main_c_41 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_cst_42 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_cst_43 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_c_44 : Ref sig .tc := ⟨.hbm, 358, rfl⟩
abbrev main_v293 : Ref sig .tc := ⟨.hbm, 359, rfl⟩
abbrev main_v294 : Ref sig .tc := ⟨.hbm, 360, rfl⟩
abbrev main_c_45 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_call3_cst : Ref sig .tc := ⟨.hbm, 371, rfl⟩
abbrev main_call3_v0 : Ref sig .tc := ⟨.hbm, 372, rfl⟩
abbrev main_v304 : Ref sig .tc := ⟨.hbm, 373, rfl⟩
abbrev main_v305 : Ref sig .tc := ⟨.hbm, 374, rfl⟩
abbrev main_cst_46 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S100000 : S_.BroadcastsInDim S100000 (![] : Fin 0 → Fin S100000.rank)
  bcast_S320000_S320000x1_0 : S320000.BroadcastsInDim S320000x1 (![0] : Fin 1 → Fin S320000x1.rank)
  bcast_S_S128 : S_.BroadcastsInDim S128 (![] : Fin 0 → Fin S128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S4x256_S1x256_0_0 : S4x256.Slices ![0, 0] S1x256
  shapeCasts_S1x256_S256 : S1x256.ShapeCasts S256
  bcast_S_S128x256 : S_.BroadcastsInDim S128x256 (![] : Fin 0 → Fin S128x256.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S_S100000x256 : S_.BroadcastsInDim S100000x256 (![] : Fin 0 → Fin S100000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  bcast_S100000x1_S100000x256_0_1 : S100000x1.BroadcastsInDim S100000x256 (![0, 1] : Fin 2 → Fin S100000x256.rank)
  slices_S4x256_S1x256_1_0 : S4x256.Slices ![1, 0] S1x256
  slices_S3x256x256_S1x256x256_1_0_0 : S3x256x256.Slices ![1, 0, 0] S1x256x256
  slices_S3x256_S1x256_1_0 : S3x256.Slices ![1, 0] S1x256
  slices_S4x256_S1x256_2_0 : S4x256.Slices ![2, 0] S1x256
  slices_S3x256x256_S1x256x256_2_0_0 : S3x256x256.Slices ![2, 0, 0] S1x256x256
  slices_S3x256_S1x256_2_0 : S3x256.Slices ![2, 0] S1x256
  slices_S4x256_S1x256_3_0 : S4x256.Slices ![3, 0] S1x256
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S320000x1_S320000_n_0_0_1_wf : ScatterDims.WF S100000 S320000x1 S320000 [] [0] [0] 1
  scatter_S128_S100000x1_S100000_n_0_0_1_wf : ScatterDims.WF S128 S100000x1 S100000 [] [0] [0] 1
  gather_S100000x128_S320000x1_S320000x128_1_0_n_n_0_1_1128_wf : GatherDims.WF S100000x128 S320000x1 S320000x128 [1] [0] [] [0] [] 1 ![1, 128]
  scatter_S100000x128_S320000x1_S320000x128_1_0_0_1_wf : ScatterDims.WF S100000x128 S320000x1 S320000x128 [1] [0] [0] 1
  dot_S100000x128_S128x256_S100000x256_1_0_0_1_n_n_wf : DotDims.WF S100000x128 S128x256 S100000x256 [1] [0] [0] [1] [] []
  scatter_S128x256_S100000x1_S100000x256_1_0_0_1_wf : ScatterDims.WF S128x256 S100000x1 S100000x256 [1] [0] [0] 1
  gather_S128x256_S100000x1_S100000x256_1_0_n_n_0_1_1256_wf : GatherDims.WF S128x256 S100000x1 S100000x256 [1] [0] [] [0] [] 1 ![1, 256]
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S100000x256_S256x256_S100000x256_1_0_0_1_n_n_wf : DotDims.WF S100000x256 S256x256 S100000x256 [1] [0] [0] [1] [] []
  dot_S128x256_S256x10_S128x10_1_0_0_1_n_n_wf : DotDims.WF S128x256 S256x10 S128x10 [1] [0] [0] [1] [] []

variable [Facts₀]

def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def gather_S100000x128_S320000x1_S320000x128_1_0_n_n_0_1_1128 : GatherDims S100000x128 S320000x1 S320000x128 where
  offsetDims := [1]
  collapsedSliceDims := [0]
  operandBatchingDims := []
  startIndicesBatchingDims := []
  startIndexMap := [0]
  indexVectorDim := 1
  sliceSizes := ![1, 128]
  wf := gather_S100000x128_S320000x1_S320000x128_1_0_n_n_0_1_1128_wf
def scatter_S100000x128_S320000x1_S320000x128_1_0_0_1 : ScatterDims S100000x128 S320000x1 S320000x128 where
  updateWindowDims := [1]
  insertedWindowDims := [0]
  scatterDimsToOperandDims := [0]
  indexVectorDim := 1
  wf := scatter_S100000x128_S320000x1_S320000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S128x256_S100000x1_S100000x256_1_0_0_1 : ScatterDims S128x256 S100000x1 S100000x256 where
  updateWindowDims := [1]
  insertedWindowDims := [0]
  scatterDimsToOperandDims := [0]
  indexVectorDim := 1
  wf := scatter_S128x256_S100000x1_S100000x256_1_0_0_1_wf
def gather_S128x256_S100000x1_S100000x256_1_0_n_n_0_1_1256 : GatherDims S128x256 S100000x1 S100000x256 where
  offsetDims := [1]
  collapsedSliceDims := [0]
  operandBatchingDims := []
  startIndicesBatchingDims := []
  startIndexMap := [0]
  indexVectorDim := 1
  sliceSizes := ![1, 256]
  wf := gather_S128x256_S100000x1_S100000x256_1_0_n_n_0_1_1256_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

class Facts : Prop extends Facts₀ where

variable [Facts]
-- ==== Proof.KernelRun.lean ====
/-
  The idealized kernel's run with its result named. Every weakly fair execution of the program (nine kernel
  regions among stretches of host operations) terminates without a fault; the argument arrays end unchanged and
  the result array ends at what the last region leaves in it: the contents `W18` of the segment-boundary fold
  (each host stretch applied to the contents before it, each region's arrays replaced by what its write-backs
  leave). This is the multi-region launch theorem applied to the program's segments, with the final thread
  state read at the result buffer as well as at the arguments.
-/
import proofs.«107967_j28716151341434_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v311) = W18 m ρ c (Proc.devRef .tc main_v311)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v311 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.KernelIdeal.RunValue

end
-- ==== Proof.Stages.lean ====
/-
  The reference network, stage by stage, as functions of arrays over the extended reals.

  The network is four graph-convolution layers followed by a per-graph sum and a final linear map. Writing
  D_s, D_d for the diagonal matrices of `1 / sqrt (max (degree, 1))` (out-degrees by `src`, in-degrees by `dst`):
    * `agg`    : h ↦ D_d · A · D_s · h, the edge sum a gather along `src` followed by a scatter-add along `dst`;
    * `lin`    : m ↦ m · W + b;
    * the graph normalisation of `x = lin …`: with `μ` the per-graph mean of `x` (segment sum over `batch`
      divided by `max (graph size, 1)`) read back per node, `c = x − μ · ms` the centred value, `σ² ` the per-graph
      mean of `c²`, `s = 1 / sqrt (σ² + ε)` read back per node:  `normed = γ · c · s + β`;
    * `relu`, and for layers 1–3 the residual `+ h`.
  The kernel computes the same normalisation through `scale = γ · s` and `shift = β − scale · μ · ms`
  (`scaleK`, `shiftK`), applied as `x · scale + shift`.
-/
import proofs.«107967_j28716151341434_1_alg».proof.ReferenceIdeal
import Idealize.ShloMosaic.PureOps.Ideal

noncomputable section

namespace Cert.ReferenceIdeal.Stage

open Cert.ReferenceIdeal Idealize.ShloMosaic

variable [Facts₀]
open Facts₀

/-! ## Degrees and graph sizes -/

/-- `1 / sqrt (max (number of edges whose endpoint index is the node, 1))`. -/
def dinv (idx : IVec S320000 32) : FVec Ideal S100000 .f32 :=
  Host.rsqrt (maximumf (Host.scatterAdd scatter_S100000_S320000x1_S320000_n_0_0_1 (broadcastInDim S100000 ![] bcast_S_S100000 (constant S_ .f32 0x00000000#32))
    (broadcastInDim S320000x1 ![0] bcast_S320000_S320000x1_0 idx) (broadcastInDim S320000 ![] bcast_S_S320000 (constant S_ .f32 0x3F800000#32))) (broadcastInDim S100000 ![] bcast_S_S100000 (constant S_ .f32 0x3F800000#32)))

/-- `max (number of nodes of the graph, 1)`. -/
def counts (b : IVec S100000 32) : FVec Ideal S128 .f32 :=
  maximumf (Host.scatterAdd scatter_S128_S100000x1_S100000_n_0_0_1 (broadcastInDim S128 ![] bcast_S_S128 (constant S_ .f32 0x00000000#32))
    (broadcastInDim S100000x1 ![0] bcast_S100000_S100000x1_0 b) (broadcastInDim S100000 ![] bcast_S_S100000 (constant S_ .f32 0x3F800000#32))) (broadcastInDim S128 ![] bcast_S_S128 (constant S_ .f32 0x3F800000#32))

/-! ## Index columns -/

/-- The edge endpoints as gather indices: a negative index counts from the end. -/
def wrapSrc (src : IVec S320000 32) : IVec S320000x1 32 :=
  broadcastInDim S320000x1 ![0] bcast_S320000_S320000x1_0
    (select (cmpi .slt src (broadcastInDim S320000 ![] bcast_S_S320000 (constantI S_ 32 0#32)))
      (addi src (broadcastInDim S320000 ![] bcast_S_S320000 (constantI S_ 32 100000#32))) src)

/-- The graph ids as gather indices: a negative id counts from the end. -/
def wrapB (b : IVec S100000 32) : IVec S100000x1 32 :=
  broadcastInDim S100000x1 ![0] bcast_S100000_S100000x1_0
    (select (cmpi .slt b (broadcastInDim S100000 ![] bcast_S_S100000 (constantI S_ 32 0#32)))
      (addi b (broadcastInDim S100000 ![] bcast_S_S100000 (constantI S_ 32 128#32))) b)

/-! ## Aggregation over the edges -/

/-- `D_d · A · D_s · h` for 128 features. -/
def agg128 (h : FVec Ideal S100000x128 .f32) (ds dd : FVec Ideal S100000 .f32) (src dst : IVec S320000 32) :
    FVec Ideal S100000x128 .f32 :=
  mulf (Host.scatterAdd scatter_S100000x128_S320000x1_S320000x128_1_0_0_1 (broadcastInDim S100000x128 ![] bcast_S_S100000x128 (constant S_ .f32 0x00000000#32))
      (broadcastInDim S320000x1 ![0] bcast_S320000_S320000x1_0 dst)
      (Host.gather gather_S100000x128_S320000x1_S320000x128_1_0_n_n_0_1_1128
        (mulf h (broadcastInDim S100000x128 ![0, 1] bcast_S100000x1_S100000x128_0_1 (broadcastInDim S100000x1 ![0] bcast_S100000_S100000x1_0 ds)))
        (wrapSrc src)))
    (broadcastInDim S100000x128 ![0, 1] bcast_S100000x1_S100000x128_0_1 (broadcastInDim S100000x1 ![0] bcast_S100000_S100000x1_0 dd))

/-- `D_d · A · D_s · h` for 256 features. -/
def agg256 (h : FVec Ideal S100000x256 .f32) (ds dd : FVec Ideal S100000 .f32) (src dst : IVec S320000 32) :
    FVec Ideal S100000x256 .f32 :=
  mulf (Host.scatterAdd scatter_S100000x256_S320000x1_S320000x256_1_0_0_1 (broadcastInDim S100000x256 ![] bcast_S_S100000x256 (constant S_ .f32 0x00000000#32))
      (broadcastInDim S320000x1 ![0] bcast_S320000_S320000x1_0 dst)
      (Host.gather gather_S100000x256_S320000x1_S320000x256_1_0_n_n_0_1_1256
        (mulf h (broadcastInDim S100000x256 ![0, 1] bcast_S100000x1_S100000x256_0_1 (broadcastInDim S100000x1 ![0] bcast_S100000_S100000x1_0 ds)))
        (wrapSrc src)))
    (broadcastInDim S100000x256 ![0, 1] bcast_S100000x1_S100000x256_0_1 (broadcastInDim S100000x1 ![0] bcast_S100000_S100000x1_0 dd))

/-! ## The linear maps -/

/-- A row of 256 entries repeated on every node. -/
def rowB (r : FVec Ideal S256 .f32) : FVec Ideal S100000x256 .f32 :=
  broadcastInDim S100000x256 ![0, 1] bcast_S1x256_S100000x256_0_1 (broadcastInDim S1x256 ![1] bcast_S256_S1x256_1 r)

/-- `m · W + b`, 128 features in. -/
def lin128 (m : FVec Ideal S100000x128 .f32) (W : FVec Ideal S128x256 .f32) (b : FVec Ideal S256 .f32) : FVec Ideal S100000x256 .f32 :=
  addf (Host.dotGeneral dot_S100000x128_S128x256_S100000x256_1_0_0_1_n_n none m W) (rowB b)

/-- `m · W + b`, 256 features in. -/
def lin256 (m : FVec Ideal S100000x256 .f32) (W : FVec Ideal S256x256 .f32) (b : FVec Ideal S256 .f32) : FVec Ideal S100000x256 .f32 :=
  addf (Host.dotGeneral dot_S100000x256_S256x256_S100000x256_1_0_0_1_n_n none m W) (rowB b)

/-! ## The graph normalisation -/

/-- The graph sizes repeated on every feature. -/
def cntB (cnt : FVec Ideal S128 .f32) : FVec Ideal S128x256 .f32 :=
  broadcastInDim S128x256 ![0, 1] bcast_S128x1_S128x256_0_1 (broadcastInDim S128x1 ![0] bcast_S128_S128x1_0 cnt)

/-- The per-graph sum of the rows of `x`. -/
def segSum (x : FVec Ideal S100000x256 .f32) (b : IVec S100000 32) : FVec Ideal S128x256 .f32 :=
  Host.scatterAdd scatter_S128x256_S100000x1_S100000x256_1_0_0_1 (broadcastInDim S128x256 ![] bcast_S_S128x256 (constant S_ .f32 0x00000000#32))
    (broadcastInDim S100000x1 ![0] bcast_S100000_S100000x1_0 b) x

/-- The per-graph mean of the rows of `x`. -/
def segMean (x : FVec Ideal S100000x256 .f32) (cnt : FVec Ideal S128 .f32) (b : IVec S100000 32) : FVec Ideal S128x256 .f32 :=
  Host.divf (segSum x b) (cntB cnt)

/-- A per-graph table read back at every node's graph. -/
def perNode (t : FVec Ideal S128x256 .f32) (b : IVec S100000 32) : FVec Ideal S100000x256 .f32 :=
  Host.gather gather_S128x256_S100000x1_S100000x256_1_0_n_n_0_1_1256 t (wrapB b)

/-- `x − μ · ms`. -/
def centred (x : FVec Ideal S100000x256 .f32) (cnt : FVec Ideal S128 .f32) (b : IVec S100000 32) (ms : FVec Ideal S256 .f32) :
    FVec Ideal S100000x256 .f32 :=
  subf x (mulf (perNode (segMean x cnt b) b) (rowB ms))

/-- `1 / sqrt (σ² + ε)` per graph. -/
def invStd (x : FVec Ideal S100000x256 .f32) (cnt : FVec Ideal S128 .f32) (b : IVec S100000 32) (ms : FVec Ideal S256 .f32) :
    FVec Ideal S128x256 .f32 :=
  Host.rsqrt (addf (segMean (mulf (centred x cnt b ms) (centred x cnt b ms)) cnt b)
    (broadcastInDim S128x256 ![] bcast_S_S128x256 (constant S_ .f32 0x358637BD#32)))

/-- `γ · c · s + β`. -/
def normed (x : FVec Ideal S100000x256 .f32) (cnt : FVec Ideal S128 .f32) (b : IVec S100000 32) (gam bet ms : FVec Ideal S256 .f32) :
    FVec Ideal S100000x256 .f32 :=
  addf (mulf (mulf (rowB gam) (centred x cnt b ms)) (perNode (invStd x cnt b ms) b)) (rowB bet)

/-- The positive part. -/
def relu (x : FVec Ideal S100000x256 .f32) : FVec Ideal S100000x256 .f32 :=
  maximumf x (broadcastInDim S100000x256 ![] bcast_S_S100000x256 (constant S_ .f32 0x00000000#32))

/-- The kernel's scale `γ · s`. -/
def scaleK (x : FVec Ideal S100000x256 .f32) (cnt : FVec Ideal S128 .f32) (b : IVec S100000 32) (gam ms : FVec Ideal S256 .f32) :
    FVec Ideal S100000x256 .f32 :=
  mulf (rowB gam) (perNode (invStd x cnt b ms) b)

/-- The kernel's shift `β − scale · μ · ms`. -/
def shiftK (x : FVec Ideal S100000x256 .f32) (cnt : FVec Ideal S128 .f32) (b : IVec S100000 32) (gam bet ms : FVec Ideal S256 .f32) :
    FVec Ideal S100000x256 .f32 :=
  subf (rowB bet) (mulf (mulf (scaleK x cnt b gam ms) (perNode (segMean x cnt b) b)) (rowB ms))

/-! ## Rows of the stacked parameters -/

def row4_0 (a : FVec Ideal S4x256 .f32) : FVec Ideal S256 .f32 := shapeCast _ (extractStridedSlice S1x256 ![0, 0] a slices_S4x256_S1x256_0_0) shapeCasts_S1x256_S256
def row4_1 (a : FVec Ideal S4x256 .f32) : FVec Ideal S256 .f32 := shapeCast _ (extractStridedSlice S1x256 ![1, 0] a slices_S4x256_S1x256_1_0) shapeCasts_S1x256_S256
def row4_2 (a : FVec Ideal S4x256 .f32) : FVec Ideal S256 .f32 := shapeCast _ (extractStridedSlice S1x256 ![2, 0] a slices_S4x256_S1x256_2_0) shapeCasts_S1x256_S256
def row4_3 (a : FVec Ideal S4x256 .f32) : FVec Ideal S256 .f32 := shapeCast _ (extractStridedSlice S1x256 ![3, 0] a slices_S4x256_S1x256_3_0) shapeCasts_S1x256_S256
def row3_0 (a : FVec Ideal S3x256 .f32) : FVec Ideal S256 .f32 := shapeCast _ (extractStridedSlice S1x256 ![0, 0] a slices_S3x256_S1x256_0_0) shapeCasts_S1x256_S256
def row3_1 (a : FVec Ideal S3x256 .f32) : FVec Ideal S256 .f32 := shapeCast _ (extractStridedSlice S1x256 ![1, 0] a slices_S3x256_S1x256_1_0) shapeCasts_S1x256_S256
def row3_2 (a : FVec Ideal S3x256 .f32) : FVec Ideal S256 .f32 := shapeCast _ (extractStridedSlice S1x256 ![2, 0] a slices_S3x256_S1x256_2_0) shapeCasts_S1x256_S256
def mat3_0 (a : FVec Ideal S3x256x256 .f32) : FVec Ideal S256x256 .f32 := shapeCast _ (extractStridedSlice S1x256x256 ![0, 0, 0] a slices_S3x256x256_S1x256x256_0_0_0) shapeCasts_S1x256x256_S256x256
def mat3_1 (a : FVec Ideal S3x256x256 .f32) : FVec Ideal S256x256 .f32 := shapeCast _ (extractStridedSlice S1x256x256 ![1, 0, 0] a slices_S3x256x256_S1x256x256_1_0_0) shapeCasts_S1x256x256_S256x256
def mat3_2 (a : FVec Ideal S3x256x256 .f32) : FVec Ideal S256x256 .f32 := shapeCast _ (extractStridedSlice S1x256x256 ![2, 0, 0] a slices_S3x256x256_S1x256x256_2_0_0) shapeCasts_S1x256x256_S256x256

/-! ## The layers and the read-out -/

/-- Layer 0: no residual, 128 features in. -/
def layer0 (h : FVec Ideal S100000x128 .f32) (src dst : IVec S320000 32) (b : IVec S100000 32) (W : FVec Ideal S128x256 .f32)
    (bias gam bet ms : FVec Ideal S256 .f32) : FVec Ideal S100000x256 .f32 :=
  relu (normed (lin128 (agg128 h (dinv src) (dinv dst) src dst) W bias) (counts b) b gam bet ms)

/-- Layers 1–3: with the residual. -/
def layerR (h : FVec Ideal S100000x256 .f32) (src dst : IVec S320000 32) (b : IVec S100000 32) (W : FVec Ideal S256x256 .f32)
    (bias gam bet ms : FVec Ideal S256 .f32) : FVec Ideal S100000x256 .f32 :=
  addf (relu (normed (lin256 (agg256 h (dinv src) (dinv dst) src dst) W bias) (counts b) b gam bet ms)) h

/-- The per-graph sum followed by the final linear map. -/
def readout (h : FVec Ideal S100000x256 .f32) (b : IVec S100000 32) (W : FVec Ideal S256x10 .f32) (bias : FVec Ideal S10 .f32) :
    FVec Ideal S128x10 .f32 :=
  addf (Host.dotGeneral dot_S128x256_S256x10_S128x10_1_0_0_1_n_n none (segSum h b) W)
    (broadcastInDim S128x10 ![0, 1] bcast_S1x10_S128x10_0_1 (broadcastInDim S1x10 ![1] bcast_S10_S1x10_1 bias))

/-- The whole reference network. -/
def network (x0 : FVec Ideal S100000x128 .f32) (src dst : IVec S320000 32) (b : IVec S100000 32) (x4 : FVec Ideal S128x256 .f32)
    (x5 : FVec Ideal S256 .f32) (x6 : FVec Ideal S3x256x256 .f32) (x7 : FVec Ideal S3x256 .f32) (x8 x9 x10 : FVec Ideal S4x256 .f32)
    (x11 : FVec Ideal S256x10 .f32) (x12 : FVec Ideal S10 .f32) : FVec Ideal S128x10 .f32 :=
  readout
    (layerR (layerR (layerR (layer0 x0 src dst b x4 x5 (row4_0 x8) (row4_0 x9) (row4_0 x10))
      src dst b (mat3_0 x6) (row3_0 x7) (row4_1 x8) (row4_1 x9) (row4_1 x10))
      src dst b (mat3_1 x6) (row3_1 x7) (row4_2 x8) (row4_2 x9) (row4_2 x10))
      src dst b (mat3_2 x6) (row3_2 x7) (row4_3 x8) (row4_3 x9) (row4_3 x10))
    b x11 x12

end Cert.ReferenceIdeal.Stage

end
-- ==== Proof.Spec.lean ====
/-
  The whole-array functions the kernel's regions compute, index by index over the extended reals.

  * `linear M K N x w b`: the matrix product of `x` (M rows, K columns) with `w` (K rows, N columns), a sum
    over the inner index, plus the bias row `b` (one row of N entries) added to every row of the product.
  * `affRelu h sc sh`: the elementwise affine map `h * sc + sh` followed by the positive part (the maximum with the
    float word `+0.0`, kept as a word: both programs spell the same word, so its value is never needed).
  * `affReluRes h sc sh x`: the same, plus the elementwise residual `x`.
-/
import Idealize.ShloMosaic.PureOps.Ideal
import Idealize.ShloMosaic.Lib.ValueIdx

noncomputable section

namespace Cert.Spec

open Idealize.ShloMosaic

/-- Row `r`, column `c` of a rank-two index, from plain bounded numbers. -/
abbrev rc {A B : Nat} (r c : Nat) (hr : r < A) (hc : c < B) : (⟨2, ![A, B]⟩ : Shape).Idx := fun a => match a with
  | ⟨0, _⟩ => ⟨r, hr⟩
  | ⟨1, _⟩ => ⟨c, hc⟩

/-- `(x · w)[r, c] + b[0, c]`, the product a sum over the inner index `k`. -/
def linear (M K N : Nat) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (rc (i 0).val k.val (i 0).isLt k.isLt) * w (rc k.val (i 1).val k.isLt (i 1).isLt))
    + b (rc 0 (i 1).val Nat.one_pos (i 1).isLt)

/-- The positive part of `h * sc + sh`, elementwise. -/
def affRelu {s : Shape} (h sc sh : s.Idx → EReal) : s.Idx → EReal :=
  fun i => max (h i * sc i + sh i) (Ideal.ofBits .f32 0x00000000#32)

/-- The positive part of `h * sc + sh` plus the residual `x`, elementwise. -/
def affReluRes {s : Shape} (h sc sh x : s.Idx → EReal) : s.Idx → EReal :=
  fun i => max (h i * sc i + sh i) (Ideal.ofBits .f32 0x00000000#32) + x i

/-- Every entry of the array is a real number: neither infinity occurs. -/
def AllReal {s : Shape} (x : s.Idx → EReal) : Prop := ∀ i, ∃ r : ℝ, x i = (r : EReal)

end Cert.Spec

end
-- ==== Proof.RegionLinear.lean ====
/-
  The five matrix-product regions of the idealized kernel, each in closed form: after the region, its output array
  is the product of the two arrays it read (a sum over the inner index) plus the bias row added to every row
  (`Cert.Spec.linear`), whatever the buffers held when the region was entered.

  Per region: the body's payload on a block is the same closed form on the blocks (the roundings to the half-width
  type are the identity on ideal values; the product into a zero accumulator is the sum over the contraction index);
  the left operand's block at a grid point is the same rows of its array as the output's block, the right operand and
  the bias row are read whole at every point; the output's blocks cover its array, row `r` lying in block
  `r / rows-per-block`.
-/
import proofs.«107967_j28716151341434_1_alg».proof.Proof.Gen.KernelIdeal.Frame
import proofs.«107967_j28716151341434_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Cert.Spec (rc linear)
open Idealize.ShloMosaic.ValueIdx (addf_apply truncf_apply contrEquiv1 contrEquiv1_symm_val)

/-- The zero offsets of a whole-block access, as the constant function. -/
theorem zero_offsets : (![0, 0] : Fin 2 → Nat) = fun _ => 0 := funext fun a => by fin_cases a <;> rfl

/-- A block of the product is the product of the blocks: when the block's row of the left operand is the array's row,
    the right operand and the bias row are the arrays' own, the two closed forms agree at corresponding indices. -/
theorem linear_block {M K N m : Nat}
    (X : (⟨2, ![M, K]⟩ : Shape).Idx → EReal) (W : (⟨2, ![K, N]⟩ : Shape).Idx → EReal) (B : (⟨2, ![1, N]⟩ : Shape).Idx → EReal)
    (x0 : (⟨2, ![m, K]⟩ : Shape).Idx → EReal) (x1 : (⟨2, ![K, N]⟩ : Shape).Idx → EReal) (x2 : (⟨2, ![1, N]⟩ : Shape).Idx → EReal)
    (j : (⟨2, ![m, N]⟩ : Shape).Idx) (i : (⟨2, ![M, N]⟩ : Shape).Idx)
    (h0 : ∀ k : Fin K, x0 (rc (j 0).val k.val (j 0).isLt k.isLt) = X (rc (i 0).val k.val (i 0).isLt k.isLt))
    (h1 : ∀ k : Fin K, x1 (rc k.val (j 1).val k.isLt (j 1).isLt) = W (rc k.val (i 1).val k.isLt (i 1).isLt))
    (h2 : x2 (rc 0 (j 1).val Nat.one_pos (j 1).isLt) = B (rc 0 (i 1).val Nat.one_pos (i 1).isLt)) :
    linear m K N x0 x1 x2 j = linear M K N X W B i := by
  unfold linear
  rw [h2]
  exact congrArg (· + _) (Finset.sum_congr rfl fun k _ => by rw [h0 k, h1 k])

/-! ### The contraction `dot_S1000x128_S128x256_S1000x256_1_0_0_1_n_n`: rows times columns, summed over the inner axis -/

theorem lhsA_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
theorem lhsA_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
theorem rhsA_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
theorem rhsA_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- The product into a zero accumulator, read at an index: the sum over the inner index of the left operand's row entry
    times the right operand's column entry. -/
theorem matmulA_apply (lhs : FVec Ideal S1000x128 .bf16) (rhs : FVec Ideal S128x256 .bf16) (j : S1000x256.Idx) :
    matmul dot_S1000x128_S128x256_S1000x256_1_0_0_1_n_n none lhs rhs (constant (F := Ideal) S1000x256 .f32 0x00000000#32) j
      = ∑ k : Fin 128, lhs (rc (j 0).val k.val (j 0).isLt k.isLt) * rhs (rc k.val (j 1).val k.isLt (j 1).isLt) := by
  refine (Ideal.matmul_constant_zero_apply dot_S1000x128_S128x256_S1000x256_1_0_0_1_n_n none lhs rhs j).trans ?_
  rw [← Equiv.sum_comp (contrEquiv1 dot_S1000x128_S128x256_S1000x256_1_0_0_1_n_n 128 rfl rfl).symm]
  refine Finset.sum_congr rfl fun k _ => ?_
  have hk := contrEquiv1_symm_val dot_S1000x128_S128x256_S1000x256_1_0_0_1_n_n 128 rfl rfl k
  have el : dot_S1000x128_S128x256_S1000x256_1_0_0_1_n_n.lhsIdx j ((contrEquiv1 dot_S1000x128_S128x256_S1000x256_1_0_0_1_n_n 128 rfl rfl).symm k) = rc (j 0).val k.val (j 0).isLt k.isLt := funext fun a => Fin.ext (by
    match a with
    | ⟨0, _⟩ => exact lhsA_0 _ _
    | ⟨1, _⟩ => exact (lhsA_1 _ _).trans hk)
  have er : dot_S1000x128_S128x256_S1000x256_1_0_0_1_n_n.rhsIdx j ((contrEquiv1 dot_S1000x128_S128x256_S1000x256_1_0_0_1_n_n 128 rfl rfl).symm k) = rc k.val (j 1).val k.isLt (j 1).isLt := funext fun a => Fin.ext (by
    match a with
    | ⟨0, _⟩ => exact (rhsA_0 _ _).trans hk
    | ⟨1, _⟩ => exact rhsA_1 _ _)
  rw [el, er]
  rfl

/-! ### The contraction `dot_S1000x256_S256x256_S1000x256_1_0_0_1_n_n`: rows times columns, summed over the inner axis -/

theorem lhsB_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhsB_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhsB_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhsB_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The product into a zero accumulator, read at an index: the sum over the inner index of the left operand's row entry
    times the right operand's column entry. -/
theorem matmulB_apply (lhs : FVec Ideal S1000x256 .bf16) (rhs : FVec Ideal S256x256 .bf16) (j : S1000x256.Idx) :
    matmul dot_S1000x256_S256x256_S1000x256_1_0_0_1_n_n none lhs rhs (constant (F := Ideal) S1000x256 .f32 0x00000000#32) j
      = ∑ k : Fin 256, lhs (rc (j 0).val k.val (j 0).isLt k.isLt) * rhs (rc k.val (j 1).val k.isLt (j 1).isLt) := by
  refine (Ideal.matmul_constant_zero_apply dot_S1000x256_S256x256_S1000x256_1_0_0_1_n_n none lhs rhs j).trans ?_
  rw [← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx j ((contrEquiv1 dot_S1000x256_S256x256_S1000x256_1_0_0_1_n_n 256 rfl rfl).symm k) = rc (j 0).val k.val (j 0).isLt k.isLt := funext fun a => Fin.ext (by
    match a with
    | ⟨0, _⟩ => exact lhsB_0 _ _
    | ⟨1, _⟩ => exact (lhsB_1 _ _).trans hk)
  have er : dot_S1000x256_S256x256_S1000x256_1_0_0_1_n_n.rhsIdx j ((contrEquiv1 dot_S1000x256_S256x256_S1000x256_1_0_0_1_n_n 256 rfl rfl).symm k) = rc k.val (j 1).val k.isLt (j 1).isLt := funext fun a => Fin.ext (by
    match a with
    | ⟨0, _⟩ => exact (rhsB_0 _ _).trans hk
    | ⟨1, _⟩ => exact rhsB_1 _ _)
  rw [el, er]
  rfl

/-! ### The contraction `dot_S128x256_S256x10_S128x10_1_0_0_1_n_n`: rows times columns, summed over the inner axis -/

theorem lhsC_0 (i : S128x10.Idx) (q : dot_S128x256_S256x10_S128x10_1_0_0_1_n_n.contr.Idx) :
    (dot_S128x256_S256x10_S128x10_1_0_0_1_n_n.lhsIdx i q 0).val = (i 0).val := by
  unfold DotDims.lhsIdx
  rw [dif_neg (show ¬(0 : Fin S128x256.rank) ∈ dot_S128x256_S256x10_S128x10_1_0_0_1_n_n.lhsBatch by decide), dif_pos (show (0 : Fin S128x256.rank) ∈ dot_S128x256_S256x10_S128x10_1_0_0_1_n_n.lhsNonContracting by decide)]
  rfl
theorem lhsC_1 (i : S128x10.Idx) (q : dot_S128x256_S256x10_S128x10_1_0_0_1_n_n.contr.Idx) :
    (dot_S128x256_S256x10_S128x10_1_0_0_1_n_n.lhsIdx i q 1).val = (q ⟨0, by decide⟩).val :=
  dot_S128x256_S256x10_S128x10_1_0_0_1_n_n.lhsIdx_val_of_single rfl i q
theorem rhsC_0 (i : S128x10.Idx) (q : dot_S128x256_S256x10_S128x10_1_0_0_1_n_n.contr.Idx) :
    (dot_S128x256_S256x10_S128x10_1_0_0_1_n_n.rhsIdx i q 0).val = (q ⟨0, by decide⟩).val :=
  dot_S128x256_S256x10_S128x10_1_0_0_1_n_n.rhsIdx_val_of_single rfl i q
theorem rhsC_1 (i : S128x10.Idx) (q : dot_S128x256_S256x10_S128x10_1_0_0_1_n_n.contr.Idx) :
    (dot_S128x256_S256x10_S128x10_1_0_0_1_n_n.rhsIdx i q 1).val = (i 1).val := by
  unfold DotDims.rhsIdx
  rw [dif_neg (show ¬(1 : Fin S256x10.rank) ∈ dot_S128x256_S256x10_S128x10_1_0_0_1_n_n.rhsBatch by decide), dif_pos (show (1 : Fin S256x10.rank) ∈ dot_S128x256_S256x10_S128x10_1_0_0_1_n_n.rhsNonContracting by decide)]
  rfl

/-- The product into a zero accumulator, read at an index: the sum over the inner index of the left operand's row entry
    times the right operand's column entry. -/
theorem matmulC_apply (lhs : FVec Ideal S128x256 .bf16) (rhs : FVec Ideal S256x10 .bf16) (j : S128x10.Idx) :
    matmul dot_S128x256_S256x10_S128x10_1_0_0_1_n_n none lhs rhs (constant (F := Ideal) S128x10 .f32 0x00000000#32) j
      = ∑ k : Fin 256, lhs (rc (j 0).val k.val (j 0).isLt k.isLt) * rhs (rc k.val (j 1).val k.isLt (j 1).isLt) := by
  refine (Ideal.matmul_constant_zero_apply dot_S128x256_S256x10_S128x10_1_0_0_1_n_n none lhs rhs j).trans ?_
  rw [← Equiv.sum_comp (contrEquiv1 dot_S128x256_S256x10_S128x10_1_0_0_1_n_n 256 rfl rfl).symm]
  refine Finset.sum_congr rfl fun k _ => ?_
  have hk := contrEquiv1_symm_val dot_S128x256_S256x10_S128x10_1_0_0_1_n_n 256 rfl rfl k
  have el : dot_S128x256_S256x10_S128x10_1_0_0_1_n_n.lhsIdx j ((contrEquiv1 dot_S128x256_S256x10_S128x10_1_0_0_1_n_n 256 rfl rfl).symm k) = rc (j 0).val k.val (j 0).isLt k.isLt := funext fun a => Fin.ext (by
    match a with
    | ⟨0, _⟩ => exact lhsC_0 _ _
    | ⟨1, _⟩ => exact (lhsC_1 _ _).trans hk)
  have er : dot_S128x256_S256x10_S128x10_1_0_0_1_n_n.rhsIdx j ((contrEquiv1 dot_S128x256_S256x10_S128x10_1_0_0_1_n_n 256 rfl rfl).symm k) = rc k.val (j 1).val k.isLt (j 1).isLt := funext fun a => Fin.ext (by
    match a with
    | ⟨0, _⟩ => exact (rhsC_0 _ _).trans hk
    | ⟨1, _⟩ => exact rhsC_1 _ _)
  rw [el, er]
  rfl

/-! ## The payloads -/

/-- The body's payload is the product of its loaded blocks plus the bias row: the roundings to the half-width type are
    the identity on ideal values, and the shape casts are between equal shapes. -/
theorem pay0_eq (x0 : Vec Ideal S1000x128 .f32) (x1 : Vec Ideal S128x256 .f32) (x2 : Vec Ideal S1x256 .f32) :
    k0_pay1 (F := Ideal) x0 x1 x2 = linear 1000 128 256 x0 x1 x2 := by
  funext j
  unfold k0_pay1 linear
  simp only [shapeCast_self]
  refine congrArg₂ (· + ·) (matmulA_apply _ _ j) ?_
  exact broadcastTo_apply x2 _ j _ (fun a => by
    match a with
    | ⟨0, _⟩ => rfl
    | ⟨1, _⟩ => rfl)

/-- The body's payload is the product of its loaded blocks plus the bias row: the roundings to the half-width type are
    the identity on ideal values, and the shape casts are between equal shapes. -/
theorem pay2_eq (x0 : Vec Ideal S1000x256 .f32) (x1 : Vec Ideal S256x256 .f32) (x2 : Vec Ideal S1x256 .f32) :
    k2_pay1 (F := Ideal) x0 x1 x2 = linear 1000 256 256 x0 x1 x2 := by
  funext j
  unfold k2_pay1 linear
  simp only [shapeCast_self]
  refine congrArg₂ (· + ·) (matmulB_apply _ _ j) ?_
  exact broadcastTo_apply x2 _ j _ (fun a => by
    match a with
    | ⟨0, _⟩ => rfl
    | ⟨1, _⟩ => rfl)

/-- The body's payload is the product of its loaded blocks plus the bias row: the roundings to the half-width type are
    the identity on ideal values, and the shape casts are between equal shapes. -/
theorem pay4_eq (x0 : Vec Ideal S1000x256 .f32) (x1 : Vec Ideal S256x256 .f32) (x2 : Vec Ideal S1x256 .f32) :
    k4_pay1 (F := Ideal) x0 x1 x2 = linear 1000 256 256 x0 x1 x2 := by
  funext j
  unfold k4_pay1 linear
  simp only [shapeCast_self]
  refine congrArg₂ (· + ·) (matmulB_apply _ _ j) ?_
  exact broadcastTo_apply x2 _ j _ (fun a => by
    match a with
    | ⟨0, _⟩ => rfl
    | ⟨1, _⟩ => rfl)

/-- The body's payload is the product of its loaded blocks plus the bias row: the roundings to the half-width type are
    the identity on ideal values, and the shape casts are between equal shapes. -/
theorem pay6_eq (x0 : Vec Ideal S1000x256 .f32) (x1 : Vec Ideal S256x256 .f32) (x2 : Vec Ideal S1x256 .f32) :
    k6_pay1 (F := Ideal) x0 x1 x2 = linear 1000 256 256 x0 x1 x2 := by
  funext j
  unfold k6_pay1 linear
  simp only [shapeCast_self]
  refine congrArg₂ (· + ·) (matmulB_apply _ _ j) ?_
  exact broadcastTo_apply x2 _ j _ (fun a => by
    match a with
    | ⟨0, _⟩ => rfl
    | ⟨1, _⟩ => rfl)

/-- The body's payload is the product of its loaded blocks plus the bias row: the roundings to the half-width type are
    the identity on ideal values, and the shape casts are between equal shapes. -/
theorem pay8_eq (x0 : Vec Ideal S128x256 .f32) (x1 : Vec Ideal S256x10 .f32) (x2 : Vec Ideal S1x10 .f32) :
    k8_pay1 (F := Ideal) x0 x1 x2 = linear 128 256 10 x0 x1 x2 := by
  funext j
  unfold k8_pay1 linear
  simp only [shapeCast_self]
  refine congrArg₂ (· + ·) (matmulC_apply _ _ j) ?_
  exact broadcastTo_apply x2 _ j _ (fun a => by
    match a with
    | ⟨0, _⟩ => rfl
    | ⟨1, _⟩ => rfl)

/-! ## From blocks to arrays, at any contents of the buffers when the region is entered -/

variable (V : (c : Dev nD) → (b : Ref sig .tc) → Buf (Elt Ideal) ((c : Thread nD τ).loc b))

/-! ## Region 0: the array the product's blocks fill -/

/-- The printed index maps, decided over the grid: the left operand's block moves with the output's along the rows,
    the other windows stay at block zero, and the output's row block at point `t` is block `t`. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What point `t` writes back is block `t` of the product of the arrays as the region finds them, plus the bias row. -/
theorem flushed0_eq (c : Dev nD) (t : Fin cfg0.N) :
    (dat0 (F := Ideal) V c).flushed 3 t
      = ((cfg0.win 3).blk t).view.read (Elt Ideal) (linear 100000 128 256 (V c main_v34) (V c main_arg4) (V c main_v35)) := by
  show (cfg0.win 3).cut (grid0.coords t) ((dat0 V c).after 3 t) = _
  rw [after0_3]
  unfold out0_3
  rw [View.canon_unit_zero zero_offsets]
  simp only [View.ld_unit_zero (S := S1000x128) zero_offsets, View.ld_unit_zero (S := S128x256) zero_offsets, View.ld_unit_zero (S := S1x256) zero_offsets]
  obtain ⟨e0, e1, e2, e3, e4, e5, e6, e7⟩ := idx_facts0 t
  funext j
  refine (congrFun (pay0_eq (iblk0 V c 0 t) (iblk0 V c 1 t) (iblk0 V c 2 t)) j).trans ?_
  refine linear_block (M := 100000) (K := 128) (N := 256) (m := 1000) (V c main_v34) (V c main_arg4) (V c main_v35) _ _ _ j (((cfg0.win 3).blk t).view.emb j)
    (fun k => ?_) (fun k => ?_) ?_
  · show V c main_v34 (((cfg0.win 0).blk t).view.emb (rc (j 0).val k.val (j 0).isLt k.isLt)) = V c main_v34 _
    refine congrArg (V c main_v34) (funext fun a => Fin.ext ?_)
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 128 + 1 * k.val = k.val; omega
  · show V c main_arg4 (((cfg0.win 1).blk t).view.emb (rc k.val (j 1).val k.isLt (j 1).isLt)) = V c main_arg4 _
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 256 + 1 * (j 1).val = win0_3.index t (1 : Fin 2) * 256 + 1 * (j 1).val; omega
  · show V c main_v35 (((cfg0.win 2).blk t).view.emb (rc 0 (j 1).val Nat.one_pos (j 1).isLt)) = V c main_v35 _
    refine congrArg (V c main_v35) (funext fun a => Fin.ext ?_)
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega

/-- An index of the array is in point `t`'s block iff each coordinate is in the block's range on its axis. -/
theorem mem_blk0 (t : Fin cfg0.N) (i : S100000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v36).slice (win0_3.rect t)).set ↔ _
  rw [View.set_slice_whole, Rect.mem_set_unit]
  exact Iff.rfl

/-- Every index of the array is in some point's block: row `r` is in the block of point `r / 1000`. -/
theorem cover0 (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ : ∃ t : Fin cfg0.N, t.val = (i 0).val / 1000 := ⟨⟨(i 0).val / 1000, by show _ < 100; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 256 ≤ (i 1).val ∧ (i 1).val < win0_3.index t (1 : Fin 2) * 256 + 256; omega

/-- The array after the region: the product of the arrays the region found, plus the bias row, at every index. -/
theorem final0 (c : Dev nD) :
    (dat0 (F := Ideal) V c).arrAt 3 cfg0.N = linear 100000 128 256 (V c main_v34) (V c main_arg4) (V c main_v35) :=
  (dat0 V c).arrAt_eq_of_cover 3 _ (fun t _ => flushed0_eq V c t) cover0

/-! ## Region 2: the array the product's blocks fill -/

/-- The printed index maps, decided over the grid: the left operand's block moves with the output's along the rows,
    the other windows stay at block zero, and the output's row block at point `t` is block `t`. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

/-- What point `t` writes back is block `t` of the product of the arrays as the region finds them, plus the bias row. -/
theorem flushed2_eq (c : Dev nD) (t : Fin cfg2.N) :
    (dat2 (F := Ideal) V c).flushed 3 t
      = ((cfg2.win 3).blk t).view.read (Elt Ideal) (linear 100000 256 256 (V c main_v107) (V c main_v89) (V c main_v108)) := by
  show (cfg2.win 3).cut (grid2.coords t) ((dat2 V c).after 3 t) = _
  rw [after2_3]
  unfold out2_3
  rw [View.canon_unit_zero zero_offsets]
  simp only [View.ld_unit_zero (S := S1000x256) zero_offsets, View.ld_unit_zero (S := S256x256) zero_offsets, View.ld_unit_zero (S := S1x256) zero_offsets]
  obtain ⟨e0, e1, e2, e3, e4, e5, e6, e7⟩ := idx_facts2 t
  funext j
  refine (congrFun (pay2_eq (iblk2 V c 0 t) (iblk2 V c 1 t) (iblk2 V c 2 t)) j).trans ?_
  refine linear_block (M := 100000) (K := 256) (N := 256) (m := 1000) (V c main_v107) (V c main_v89) (V c main_v108) _ _ _ j (((cfg2.win 3).blk t).view.emb j)
    (fun k => ?_) (fun k => ?_) ?_
  · show V c main_v107 (((cfg2.win 0).blk t).view.emb (rc (j 0).val k.val (j 0).isLt k.isLt)) = V c main_v107 _
    refine congrArg (V c main_v107) (funext fun a => Fin.ext ?_)
    match a with
    | ⟨0, _⟩ => show win2_0.index t (0 : Fin 2) * 1000 + 1 * (j 0).val = win2_3.index t (0 : Fin 2) * 1000 + 1 * (j 0).val; omega
    | ⟨1, _⟩ => show win2_0.index t (1 : Fin 2) * 256 + 1 * k.val = k.val; omega
  · show V c main_v89 (((cfg2.win 1).blk t).view.emb (rc k.val (j 1).val k.isLt (j 1).isLt)) = V c main_v89 _
    refine congrArg (V c main_v89) (funext fun a => Fin.ext ?_)
    match a with
    | ⟨0, _⟩ => show win2_1.index t (0 : Fin 2) * 256 + 1 * k.val = k.val; omega
    | ⟨1, _⟩ => show win2_1.index t (1 : Fin 2) * 256 + 1 * (j 1).val = win2_3.index t (1 : Fin 2) * 256 + 1 * (j 1).val; omega
  · show V c main_v108 (((cfg2.win 2).blk t).view.emb (rc 0 (j 1).val Nat.one_pos (j 1).isLt)) = V c main_v108 _
    refine congrArg (V c main_v108) (funext fun a => Fin.ext ?_)
    match a with
    | ⟨0, _⟩ => show win2_2.index t (0 : Fin 2) * 1 + 1 * 0 = 0; omega
    | ⟨1, _⟩ => show win2_2.index t (1 : Fin 2) * 256 + 1 * (j 1).val = win2_3.index t (1 : Fin 2) * 256 + 1 * (j 1).val; omega

/-- An index of the array is in point `t`'s block iff each coordinate is in the block's range on its axis. -/
theorem mem_blk2 (t : Fin cfg2.N) (i : S100000x256.Idx) :
    i ∈ ((cfg2.win 3).blk t).view.set ↔ ∀ a : Fin 2, win2_3.index t a * S1000x256.size a ≤ (i a).val ∧ (i a).val < win2_3.index t a * S1000x256.size a + S1000x256.size a := by
  show i ∈ ((View.whole main_v109).slice (win2_3.rect t)).set ↔ _
  rw [View.set_slice_whole, Rect.mem_set_unit]
  exact Iff.rfl

/-- Every index of the array is in some point's block: row `r` is in the block of point `r / 1000`. -/
theorem cover2 (i : S100000x256.Idx) : ∃ t : Fin cfg2.N, (cfg2.win 3).flush t = true ∧ i ∈ ((cfg2.win 3).blk t).view.set := by
  have hi0 : (i 0).val < 100000 := (i 0).isLt
  have hi1 : (i 1).val < 256 := (i 1).isLt
  obtain ⟨t, ht⟩ : ∃ t : Fin cfg2.N, t.val = (i 0).val / 1000 := ⟨⟨(i 0).val / 1000, by show _ < 100; omega⟩, rfl⟩
  obtain ⟨-, -, -, -, -, -, e6, e7⟩ := idx_facts2 t
  refine ⟨t, flush2_3 t, ?_⟩
  rw [mem_blk2]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 256 ≤ (i 1).val ∧ (i 1).val < win2_3.index t (1 : Fin 2) * 256 + 256; omega

/-- The array after the region: the product of the arrays the region found, plus the bias row, at every index. -/
theorem final2 (c : Dev nD) :
    (dat2 (F := Ideal) V c).arrAt 3 cfg2.N = linear 100000 256 256 (V c main_v107) (V c main_v89) (V c main_v108) :=
  (dat2 V c).arrAt_eq_of_cover 3 _ (fun t _ => flushed2_eq V c t) cover2

/-! ## Region 4: the array the product's blocks fill -/

/-- The printed index maps, decided over the grid: the left operand's block moves with the output's along the rows,
    the other windows stay at block zero, and the output's row block at point `t` is block `t`. -/
theorem idx_facts4 : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) = t.val :=
  (by decide +kernel : ∀ t : Fin grid4.N, _)

/-- What point `t` writes back is block `t` of the product of the arrays as the region finds them, plus the bias row. -/
theorem flushed4_eq (c : Dev nD) (t : Fin cfg4.N) :
    (dat4 (F := Ideal) V c).flushed 3 t
      = ((cfg4.win 3).blk t).view.read (Elt Ideal) (linear 100000 256 256 (V c main_v180) (V c main_v162) (V c main_v181)) := by
  show (cfg4.win 3).cut (grid4.coords t) ((dat4 V c).after 3 t) = _
  rw [after4_3]
  unfold out4_3
  rw [View.canon_unit_zero zero_offsets]
  simp only [View.ld_unit_zero (S := S1000x256) zero_offsets, View.ld_unit_zero (S := S256x256) zero_offsets, View.ld_unit_zero (S := S1x256) zero_offsets]
  obtain ⟨e0, e1, e2, e3, e4, e5, e6, e7⟩ := idx_facts4 t
  funext j
  refine (congrFun (pay4_eq (iblk4 V c 0 t) (iblk4 V c 1 t) (iblk4 V c 2 t)) j).trans ?_
  refine linear_block (M := 100000) (K := 256) (N := 256) (m := 1000) (V c main_v180) (V c main_v162) (V c main_v181) _ _ _ j (((cfg4.win 3).blk t).view.emb j)
    (fun k => ?_) (fun k => ?_) ?_
  · show V c main_v180 (((cfg4.win 0).blk t).view.emb (rc (j 0).val k.val (j 0).isLt k.isLt)) = V c main_v180 _
    refine congrArg (V c main_v180) (funext fun a => Fin.ext ?_)
    match a with
    | ⟨0, _⟩ => show win4_0.index t (0 : Fin 2) * 1000 + 1 * (j 0).val = win4_3.index t (0 : Fin 2) * 1000 + 1 * (j 0).val; omega
    | ⟨1, _⟩ => show win4_0.index t (1 : Fin 2) * 256 + 1 * k.val = k.val; omega
  · show V c main_v162 (((cfg4.win 1).blk t).view.emb (rc k.val (j 1).val k.isLt (j 1).isLt)) = V c main_v162 _
    refine congrArg (V c main_v162) (funext fun a => Fin.ext ?_)
    match a with
    | ⟨0, _⟩ => show win4_1.index t (0 : Fin 2) * 256 + 1 * k.val = k.val; omega
    | ⟨1, _⟩ => show win4_1.index t (1 : Fin 2) * 256 + 1 * (j 1).val = win4_3.index t (1 : Fin 2) * 256 + 1 * (j 1).val; omega
  · show V c main_v181 (((cfg4.win 2).blk t).view.emb (rc 0 (j 1).val Nat.one_pos (j 1).isLt)) = V c main_v181 _
    refine congrArg (V c main_v181) (funext fun a => Fin.ext ?_)
    match a with
    | ⟨0, _⟩ => show win4_2.index t (0 : Fin 2) * 1 + 1 * 0 = 0; omega
    | ⟨1, _⟩ => show win4_2.index t (1 : Fin 2) * 256 + 1 * (j 1).val = win4_3.index t (1 : Fin 2) * 256 + 1 * (j 1).val; omega

/-- An index of the array is in point `t`'s block iff each coordinate is in the block's range on its axis. -/
theorem mem_blk4 (t : Fin cfg4.N) (i : S100000x256.Idx) :
    i ∈ ((cfg4.win 3).blk t).view.set ↔ ∀ a : Fin 2, win4_3.index t a * S1000x256.size a ≤ (i a).val ∧ (i a).val < win4_3.index t a * S1000x256.size a + S1000x256.size a := by
  show i ∈ ((View.whole main_v182).slice (win4_3.rect t)).set ↔ _
  rw [View.set_slice_whole, Rect.mem_set_unit]
  exact Iff.rfl

/-- Every index of the array is in some point's block: row `r` is in the block of point `r / 1000`. -/
theorem cover4 (i : S100000x256.Idx) : ∃ t : Fin cfg4.N, (cfg4.win 3).flush t = true ∧ i ∈ ((cfg4.win 3).blk t).view.set := by
  have hi0 : (i 0).val < 100000 := (i 0).isLt
  have hi1 : (i 1).val < 256 := (i 1).isLt
  obtain ⟨t, ht⟩ : ∃ t : Fin cfg4.N, t.val = (i 0).val / 1000 := ⟨⟨(i 0).val / 1000, by show _ < 100; omega⟩, rfl⟩
  obtain ⟨-, -, -, -, -, -, e6, e7⟩ := idx_facts4 t
  refine ⟨t, flush4_3 t, ?_⟩
  rw [mem_blk4]
  intro a
  match a with
  | ⟨0, _⟩ => show win4_3.index t (0 : Fin 2) * 1000 ≤ (i 0).val ∧ (i 0).val < win4_3.index t (0 : Fin 2) * 1000 + 1000; omega
  | ⟨1, _⟩ => show win4_3.index t (1 : Fin 2) * 256 ≤ (i 1).val ∧ (i 1).val < win4_3.index t (1 : Fin 2) * 256 + 256; omega

/-- The array after the region: the product of the arrays the region found, plus the bias row, at every index. -/
theorem final4 (c : Dev nD) :
    (dat4 (F := Ideal) V c).arrAt 3 cfg4.N = linear 100000 256 256 (V c main_v180) (V c main_v162) (V c main_v181) :=
  (dat4 V c).arrAt_eq_of_cover 3 _ (fun t _ => flushed4_eq V c t) cover4

/-! ## Region 6: the array the product's blocks fill -/

/-- The printed index maps, decided over the grid: the left operand's block moves with the output's along the rows,
    the other windows stay at block zero, and the output's row block at point `t` is block `t`. -/
theorem idx_facts6 : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) = t.val :=
  (by decide +kernel : ∀ t : Fin grid6.N, _)

/-- What point `t` writes back is block `t` of the product of the arrays as the region finds them, plus the bias row. -/
theorem flushed6_eq (c : Dev nD) (t : Fin cfg6.N) :
    (dat6 (F := Ideal) V c).flushed 3 t
      = ((cfg6.win 3).blk t).view.read (Elt Ideal) (linear 100000 256 256 (V c main_v253) (V c main_v235) (V c main_v254)) := by
  show (cfg6.win 3).cut (grid6.coords t) ((dat6 V c).after 3 t) = _
  rw [after6_3]
  unfold out6_3
  rw [View.canon_unit_zero zero_offsets]
  simp only [View.ld_unit_zero (S := S1000x256) zero_offsets, View.ld_unit_zero (S := S256x256) zero_offsets, View.ld_unit_zero (S := S1x256) zero_offsets]
  obtain ⟨e0, e1, e2, e3, e4, e5, e6, e7⟩ := idx_facts6 t
  funext j
  refine (congrFun (pay6_eq (iblk6 V c 0 t) (iblk6 V c 1 t) (iblk6 V c 2 t)) j).trans ?_
  refine linear_block (M := 100000) (K := 256) (N := 256) (m := 1000) (V c main_v253) (V c main_v235) (V c main_v254) _ _ _ j (((cfg6.win 3).blk t).view.emb j)
    (fun k => ?_) (fun k => ?_) ?_
  · show V c main_v253 (((cfg6.win 0).blk t).view.emb (rc (j 0).val k.val (j 0).isLt k.isLt)) = V c main_v253 _
    refine congrArg (V c main_v253) (funext fun a => Fin.ext ?_)
    match a with
    | ⟨0, _⟩ => show win6_0.index t (0 : Fin 2) * 1000 + 1 * (j 0).val = win6_3.index t (0 : Fin 2) * 1000 + 1 * (j 0).val; omega
    | ⟨1, _⟩ => show win6_0.index t (1 : Fin 2) * 256 + 1 * k.val = k.val; omega
  · show V c main_v235 (((cfg6.win 1).blk t).view.emb (rc k.val (j 1).val k.isLt (j 1).isLt)) = V c main_v235 _
    refine congrArg (V c main_v235) (funext fun a => Fin.ext ?_)
    match a with
    | ⟨0, _⟩ => show win6_1.index t (0 : Fin 2) * 256 + 1 * k.val = k.val; omega
    | ⟨1, _⟩ => show win6_1.index t (1 : Fin 2) * 256 + 1 * (j 1).val = win6_3.index t (1 : Fin 2) * 256 + 1 * (j 1).val; omega
  · show V c main_v254 (((cfg6.win 2).blk t).view.emb (rc 0 (j 1).val Nat.one_pos (j 1).isLt)) = V c main_v254 _
    refine congrArg (V c main_v254) (funext fun a => Fin.ext ?_)
    match a with
    | ⟨0, _⟩ => show win6_2.index t (0 : Fin 2) * 1 + 1 * 0 = 0; omega
    | ⟨1, _⟩ => show win6_2.index t (1 : Fin 2) * 256 + 1 * (j 1).val = win6_3.index t (1 : Fin 2) * 256 + 1 * (j 1).val; omega

/-- An index of the array is in point `t`'s block iff each coordinate is in the block's range on its axis. -/
theorem mem_blk6 (t : Fin cfg6.N) (i : S100000x256.Idx) :
    i ∈ ((cfg6.win 3).blk t).view.set ↔ ∀ a : Fin 2, win6_3.index t a * S1000x256.size a ≤ (i a).val ∧ (i a).val < win6_3.index t a * S1000x256.size a + S1000x256.size a := by
  show i ∈ ((View.whole main_v255).slice (win6_3.rect t)).set ↔ _
  rw [View.set_slice_whole, Rect.mem_set_unit]
  exact Iff.rfl

/-- Every index of the array is in some point's block: row `r` is in the block of point `r / 1000`. -/
theorem cover6 (i : S100000x256.Idx) : ∃ t : Fin cfg6.N, (cfg6.win 3).flush t = true ∧ i ∈ ((cfg6.win 3).blk t).view.set := by
  have hi0 : (i 0).val < 100000 := (i 0).isLt
  have hi1 : (i 1).val < 256 := (i 1).isLt
  obtain ⟨t, ht⟩ : ∃ t : Fin cfg6.N, t.val = (i 0).val / 1000 := ⟨⟨(i 0).val / 1000, by show _ < 100; omega⟩, rfl⟩
  obtain ⟨-, -, -, -, -, -, e6, e7⟩ := idx_facts6 t
  refine ⟨t, flush6_3 t, ?_⟩
  rw [mem_blk6]
  intro a
  match a with
  | ⟨0, _⟩ => show win6_3.index t (0 : Fin 2) * 1000 ≤ (i 0).val ∧ (i 0).val < win6_3.index t (0 : Fin 2) * 1000 + 1000; omega
  | ⟨1, _⟩ => show win6_3.index t (1 : Fin 2) * 256 ≤ (i 1).val ∧ (i 1).val < win6_3.index t (1 : Fin 2) * 256 + 256; omega

/-- The array after the region: the product of the arrays the region found, plus the bias row, at every index. -/
theorem final6 (c : Dev nD) :
    (dat6 (F := Ideal) V c).arrAt 3 cfg6.N = linear 100000 256 256 (V c main_v253) (V c main_v235) (V c main_v254) :=
  (dat6 V c).arrAt_eq_of_cover 3 _ (fun t _ => flushed6_eq V c t) cover6

/-! ## Region 8: the array the product's blocks fill -/

/-- The printed index maps, decided over the grid: the left operand's block moves with the output's along the rows,
    the other windows stay at block zero, and the output's row block at point `t` is block `t`. -/
theorem idx_facts8 : ∀ t : Fin cfg8.N, win8_0.index t (0 : Fin 2) = win8_3.index t (0 : Fin 2)
    ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (1 : Fin 2) = 0 ∧ win8_3.index t (0 : Fin 2) = t.val :=
  (by decide +kernel : ∀ t : Fin grid8.N, _)

/-- What point `t` writes back is block `t` of the product of the arrays as the region finds them, plus the bias row. -/
theorem flushed8_eq (c : Dev nD) (t : Fin cfg8.N) :
    (dat8 (F := Ideal) V c).flushed 3 t
      = ((cfg8.win 3).blk t).view.read (Elt Ideal) (linear 128 256 10 (V c main_v309) (V c main_arg11) (V c main_v310)) := by
  show (cfg8.win 3).cut (grid8.coords t) ((dat8 V c).after 3 t) = _
  rw [after8_3]
  unfold out8_3
  rw [View.canon_unit_zero zero_offsets]
  simp only [View.ld_unit_zero (S := S128x256) zero_offsets, View.ld_unit_zero (S := S256x10) zero_offsets, View.ld_unit_zero (S := S1x10) zero_offsets]
  obtain ⟨e0, e1, e2, e3, e4, e5, e6, e7⟩ := idx_facts8 t
  funext j
  refine (congrFun (pay8_eq (iblk8 V c 0 t) (iblk8 V c 1 t) (iblk8 V c 2 t)) j).trans ?_
  refine linear_block (M := 128) (K := 256) (N := 10) (m := 128) (V c main_v309) (V c main_arg11) (V c main_v310) _ _ _ j (((cfg8.win 3).blk t).view.emb j)
    (fun k => ?_) (fun k => ?_) ?_
  · show V c main_v309 (((cfg8.win 0).blk t).view.emb (rc (j 0).val k.val (j 0).isLt k.isLt)) = V c main_v309 _
    refine congrArg (V c main_v309) (funext fun a => Fin.ext ?_)
    match a with
    | ⟨0, _⟩ => show win8_0.index t (0 : Fin 2) * 128 + 1 * (j 0).val = win8_3.index t (0 : Fin 2) * 128 + 1 * (j 0).val; omega
    | ⟨1, _⟩ => show win8_0.index t (1 : Fin 2) * 256 + 1 * k.val = k.val; omega
  · show V c main_arg11 (((cfg8.win 1).blk t).view.emb (rc k.val (j 1).val k.isLt (j 1).isLt)) = V c main_arg11 _
    refine congrArg (V c main_arg11) (funext fun a => Fin.ext ?_)
    match a with
    | ⟨0, _⟩ => show win8_1.index t (0 : Fin 2) * 256 + 1 * k.val = k.val; omega
    | ⟨1, _⟩ => show win8_1.index t (1 : Fin 2) * 10 + 1 * (j 1).val = win8_3.index t (1 : Fin 2) * 10 + 1 * (j 1).val; omega
  · show V c main_v310 (((cfg8.win 2).blk t).view.emb (rc 0 (j 1).val Nat.one_pos (j 1).isLt)) = V c main_v310 _
    refine congrArg (V c main_v310) (funext fun a => Fin.ext ?_)
    match a with
    | ⟨0, _⟩ => show win8_2.index t (0 : Fin 2) * 1 + 1 * 0 = 0; omega
    | ⟨1, _⟩ => show win8_2.index t (1 : Fin 2) * 10 + 1 * (j 1).val = win8_3.index t (1 : Fin 2) * 10 + 1 * (j 1).val; omega

/-- An index of the array is in point `t`'s block iff each coordinate is in the block's range on its axis. -/
theorem mem_blk8 (t : Fin cfg8.N) (i : S128x10.Idx) :
    i ∈ ((cfg8.win 3).blk t).view.set ↔ ∀ a : Fin 2, win8_3.index t a * S128x10.size a ≤ (i a).val ∧ (i a).val < win8_3.index t a * S128x10.size a + S128x10.size a := by
  show i ∈ ((View.whole main_v311).slice (win8_3.rect t)).set ↔ _
  rw [View.set_slice_whole, Rect.mem_set_unit]
  exact Iff.rfl

/-- Every index of the array is in some point's block: row `r` is in the block of point `r / 128`. -/
theorem cover8 (i : S128x10.Idx) : ∃ t : Fin cfg8.N, (cfg8.win 3).flush t = true ∧ i ∈ ((cfg8.win 3).blk t).view.set := by
  have hi0 : (i 0).val < 128 := (i 0).isLt
  have hi1 : (i 1).val < 10 := (i 1).isLt
  obtain ⟨t, ht⟩ : ∃ t : Fin cfg8.N, t.val = (i 0).val / 128 := ⟨⟨(i 0).val / 128, by show _ < 1; omega⟩, rfl⟩
  obtain ⟨-, -, -, -, -, -, e6, e7⟩ := idx_facts8 t
  refine ⟨t, flush8_3 t, ?_⟩
  rw [mem_blk8]
  intro a
  match a with
  | ⟨0, _⟩ => show win8_3.index t (0 : Fin 2) * 128 ≤ (i 0).val ∧ (i 0).val < win8_3.index t (0 : Fin 2) * 128 + 128; omega
  | ⟨1, _⟩ => show win8_3.index t (1 : Fin 2) * 10 ≤ (i 1).val ∧ (i 1).val < win8_3.index t (1 : Fin 2) * 10 + 10; omega

/-- The array after the region: the product of the arrays the region found, plus the bias row, at every index. -/
theorem final8 (c : Dev nD) :
    (dat8 (F := Ideal) V c).arrAt 3 cfg8.N = linear 128 256 10 (V c main_v309) (V c main_arg11) (V c main_v310) :=
  (dat8 V c).arrAt_eq_of_cover 3 _ (fun t _ => flushed8_eq V c t) cover8

end Cert.KernelIdeal.RegionValue

end
-- ==== Proof.RegionAffine.lean ====
/-
  The four elementwise regions of the idealized kernel, each read as one whole-array function.

  Every window of these regions cuts its array of 100000 rows into 100 blocks of 1000 rows, the block of grid
  point `t` starting at row `1000 * t`, and the body computes, entry by entry of a block, the positive part of
  `h * sc + sh` (regions 3, 5 and 7 add a residual entry). Hence what point `t` writes back is block `t` of the
  whole-array function, the blocks cover every row (row `r` lies in block `r / 1000`), and the output array ends
  holding that function of the input arrays as the region finds them.
-/
import proofs.«107967_j28716151341434_1_alg».proof.Proof.Gen.KernelIdeal.Frame
import proofs.«107967_j28716151341434_1_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The origin of a rank-two block, as the constant function. -/
theorem origin2 : (![0, 0] : Fin 2 → Nat) = fun _ => 0 := funext fun a => by fin_cases a <;> rfl

/-! ## The bodies' payloads, entry by entry -/

/-- The affine map followed by the positive part, at an entry of a block. -/
theorem pay1_apply (x0 x1 x2 : Vec Ideal S1000x256 .f32) (j : S1000x256.Idx) :
    k1_pay1 x0 x1 x2 j = max (x0 j * x1 j + x2 j) (Ideal.ofBits .f32 0x00000000#32) := by
  unfold k1_pay1
  simp only [shapeCast_self]
  rfl

/-- An entry of a block of the affine map's positive part, from the entries of the input blocks: when each input
    block's entry is the input array's at index `i`, the payload's entry is the whole-array function's at `i`. -/
theorem pay1_eq_affRelu (a0 a1 a2 : S100000x256.Idx → EReal) (x0 x1 x2 : Vec Ideal S1000x256 .f32) (j : S1000x256.Idx)
    (i : S100000x256.Idx) (h0 : x0 j = a0 i) (h1 : x1 j = a1 i) (h2 : x2 j = a2 i) :
    k1_pay1 x0 x1 x2 j = Cert.Spec.affRelu a0 a1 a2 i := by
  rw [pay1_apply, h0, h1, h2]
  rfl

/-! ## Region 1 -/

/-- Every window of region 1 has its block of point `t` at block index `(t, 0)`. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array function. -/
theorem flushed1_eq (c : Dev nD) (t : Fin cfg1.N) :
    (dat1 (F := Ideal) V c).flushed 3 t
      = ((cfg1.win 3).blk t).view.read (Elt Ideal) (Cert.Spec.affRelu (s := S100000x256) (V c main_v36) (V c main_v79) (V c main_v86)) := by
  show (cfg1.win 3).cut (grid1.coords t) ((dat1 V c).after 3 t) = _
  rw [after1_3]
  unfold out1_3
  rw [View.canon_unit_zero origin2]
  simp only [View.ld_unit_zero (S := S1000x256) origin2]
  obtain ⟨e0, e1, e2, e3, e4, e5, e6, e7⟩ := index1 t
  funext j
  show k1_pay1 (iblk1 V c 0 t) (iblk1 V c 1 t) (iblk1 V c 2 t) j
    = Cert.Spec.affRelu (s := S100000x256) (V c main_v36) (V c main_v79) (V c main_v86) (((cfg1.win 3).blk t).view.emb j)
  refine pay1_eq_affRelu _ _ _ _ _ _ j _ ?_ ?_ ?_
  · show V c main_v36 (((cfg1.win 0).blk t).view.emb j) = V c main_v36 (((cfg1.win 3).blk t).view.emb j)
    refine congrArg _ ?_
    funext a; apply Fin.ext
    match a with
    | ⟨0, _⟩ => show win1_0.index t (0 : Fin 2) * 1000 + 1 * (j 0).val = win1_3.index t (0 : Fin 2) * 1000 + 1 * (j 0).val; omega
    | ⟨1, _⟩ => show win1_0.index t (1 : Fin 2) * 256 + 1 * (j 1).val = win1_3.index t (1 : Fin 2) * 256 + 1 * (j 1).val; omega
  · show V c main_v79 (((cfg1.win 1).blk t).view.emb j) = V c main_v79 (((cfg1.win 3).blk t).view.emb j)
    refine congrArg _ ?_
    funext a; apply Fin.ext
    match a with
    | ⟨0, _⟩ => show win1_1.index t (0 : Fin 2) * 1000 + 1 * (j 0).val = win1_3.index t (0 : Fin 2) * 1000 + 1 * (j 0).val; omega
    | ⟨1, _⟩ => show win1_1.index t (1 : Fin 2) * 256 + 1 * (j 1).val = win1_3.index t (1 : Fin 2) * 256 + 1 * (j 1).val; omega
  · show V c main_v86 (((cfg1.win 2).blk t).view.emb j) = V c main_v86 (((cfg1.win 3).blk t).view.emb j)
    refine congrArg _ ?_
    funext a; apply Fin.ext
    match a with
    | ⟨0, _⟩ => show win1_2.index t (0 : Fin 2) * 1000 + 1 * (j 0).val = win1_3.index t (0 : Fin 2) * 1000 + 1 * (j 0).val; omega
    | ⟨1, _⟩ => show win1_2.index t (1 : Fin 2) * 256 + 1 * (j 1).val = win1_3.index t (1 : Fin 2) * 256 + 1 * (j 1).val; omega

/-- An index of the array is in point `t`'s block iff each coordinate is in the block's range on its axis. -/
theorem mem_blk1 (t : Fin cfg1.N) (i : S100000x256.Idx) :
    i ∈ ((cfg1.win 3).blk t).view.set ↔ ∀ a : Fin 2, win1_3.index t a * S1000x256.size a ≤ (i a).val ∧ (i a).val < win1_3.index t a * S1000x256.size a + S1000x256.size a := by
  show i ∈ ((View.whole main_v87).slice (win1_3.rect t)).set ↔ _
  rw [View.set_slice_whole, Rect.mem_set_unit]
  exact Iff.rfl

/-- Every index is in some point's block: row `r` is in the block of point `r / 1000`. -/
theorem cover1 (i : S100000x256.Idx) : ∃ t : Fin cfg1.N, (cfg1.win 3).flush t = true ∧ i ∈ ((cfg1.win 3).blk t).view.set := by
  have hi0 : (i 0).val < 100000 := (i 0).isLt
  have hi1 : (i 1).val < 256 := (i 1).isLt
  have hN : (i 0).val / 1000 < cfg1.N := by show _ < grid1.N; rw [N_1]; omega
  obtain ⟨-, -, -, -, -, -, e6, e7⟩ := index1 ⟨(i 0).val / 1000, hN⟩
  have e6' : win1_3.index ⟨(i 0).val / 1000, hN⟩ (0 : Fin 2) = (i 0).val / 1000 := e6
  refine ⟨⟨(i 0).val / 1000, hN⟩, flush1_3 _, ?_⟩
  rw [mem_blk1]
  intro a
  match a with
  | ⟨0, _⟩ => show win1_3.index ⟨(i 0).val / 1000, hN⟩ (0 : Fin 2) * 1000 ≤ (i 0).val ∧ (i 0).val < win1_3.index ⟨(i 0).val / 1000, hN⟩ (0 : Fin 2) * 1000 + 1000; omega
  | ⟨1, _⟩ => show win1_3.index ⟨(i 0).val / 1000, hN⟩ (1 : Fin 2) * 256 ≤ (i 1).val ∧ (i 1).val < win1_3.index ⟨(i 0).val / 1000, hN⟩ (1 : Fin 2) * 256 + 256; omega

/-- The output array of region 1 after the region: the positive part of `h * sc + sh`, entry by entry. -/
theorem final1 (c : Dev nD) : (dat1 (F := Ideal) V c).arrAt 3 cfg1.N = Cert.Spec.affRelu (V c main_v36) (V c main_v79) (V c main_v86) :=
  (dat1 V c).arrAt_eq_of_cover 3 _ (fun t _ => flushed1_eq V c t) cover1

/-! ## Region 3 -/

/-- The affine map's positive part plus the residual, at an entry of a block. -/
theorem pay3_apply (x0 x1 x2 x3 : Vec Ideal S1000x256 .f32) (j : S1000x256.Idx) :
    k3_pay1 x0 x1 x2 x3 j = max (x0 j * x1 j + x2 j) (Ideal.ofBits .f32 0x00000000#32) + x3 j := by
  unfold k3_pay1
  simp only [shapeCast_self]
  rfl

/-- An entry of a block of the payload, from the entries of the input blocks: when each input block's entry is the
    input array's at index `i`, the payload's entry is the whole-array function's at `i`. -/
theorem pay3_eq_affReluRes (a0 a1 a2 a3 : S100000x256.Idx → EReal) (x0 x1 x2 x3 : Vec Ideal S1000x256 .f32) (j : S1000x256.Idx)
    (i : S100000x256.Idx) (h0 : x0 j = a0 i) (h1 : x1 j = a1 i) (h2 : x2 j = a2 i) (h3 : x3 j = a3 i) :
    k3_pay1 x0 x1 x2 x3 j = Cert.Spec.affReluRes a0 a1 a2 a3 i := by
  rw [pay3_apply, h0, h1, h2, h3]
  rfl

/-- Every window of region 3 has its block of point `t` at block index `(t, 0)`. -/
theorem index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the whole-array function. -/
theorem flushed3_eq (c : Dev nD) (t : Fin cfg3.N) :
    (dat3 (F := Ideal) V c).flushed 4 t
      = ((cfg3.win 4).blk t).view.read (Elt Ideal) (Cert.Spec.affReluRes (s := S100000x256) (V c main_v109) (V c main_v152) (V c main_v159) (V c main_v87)) := by
  show (cfg3.win 4).cut (grid3.coords t) ((dat3 V c).after 4 t) = _
  rw [after3_4]
  unfold out3_4
  rw [View.canon_unit_zero origin2]
  simp only [View.ld_unit_zero (S := S1000x256) origin2]
  obtain ⟨e0, e1, e2, e3, e4, e5, e6, e7, e8, e9⟩ := index3 t
  funext j
  show k3_pay1 (iblk3 V c 0 t) (iblk3 V c 1 t) (iblk3 V c 2 t) (iblk3 V c 3 t) j
    = Cert.Spec.affReluRes (s := S100000x256) (V c main_v109) (V c main_v152) (V c main_v159) (V c main_v87) (((cfg3.win 4).blk t).view.emb j)
  refine pay3_eq_affReluRes _ _ _ _ _ _ _ _ j _ ?_ ?_ ?_ ?_
  · show V c main_v109 (((cfg3.win 0).blk t).view.emb j) = V c main_v109 (((cfg3.win 4).blk t).view.emb j)
    refine congrArg _ ?_
    funext a; apply Fin.ext
    match a with
    | ⟨0, _⟩ => show win3_0.index t (0 : Fin 2) * 1000 + 1 * (j 0).val = win3_4.index t (0 : Fin 2) * 1000 + 1 * (j 0).val; omega
    | ⟨1, _⟩ => show win3_0.index t (1 : Fin 2) * 256 + 1 * (j 1).val = win3_4.index t (1 : Fin 2) * 256 + 1 * (j 1).val; omega
  · show V c main_v152 (((cfg3.win 1).blk t).view.emb j) = V c main_v152 (((cfg3.win 4).blk t).view.emb j)
    refine congrArg _ ?_
    funext a; apply Fin.ext
    match a with
    | ⟨0, _⟩ => show win3_1.index t (0 : Fin 2) * 1000 + 1 * (j 0).val = win3_4.index t (0 : Fin 2) * 1000 + 1 * (j 0).val; omega
    | ⟨1, _⟩ => show win3_1.index t (1 : Fin 2) * 256 + 1 * (j 1).val = win3_4.index t (1 : Fin 2) * 256 + 1 * (j 1).val; omega
  · show V c main_v159 (((cfg3.win 2).blk t).view.emb j) = V c main_v159 (((cfg3.win 4).blk t).view.emb j)
    refine congrArg _ ?_
    funext a; apply Fin.ext
    match a with
    | ⟨0, _⟩ => show win3_2.index t (0 : Fin 2) * 1000 + 1 * (j 0).val = win3_4.index t (0 : Fin 2) * 1000 + 1 * (j 0).val; omega
    | ⟨1, _⟩ => show win3_2.index t (1 : Fin 2) * 256 + 1 * (j 1).val = win3_4.index t (1 : Fin 2) * 256 + 1 * (j 1).val; omega
  · show V c main_v87 (((cfg3.win 3).blk t).view.emb j) = V c main_v87 (((cfg3.win 4).blk t).view.emb j)
    refine congrArg _ ?_
    funext a; apply Fin.ext
    match a with
    | ⟨0, _⟩ => show win3_3.index t (0 : Fin 2) * 1000 + 1 * (j 0).val = win3_4.index t (0 : Fin 2) * 1000 + 1 * (j 0).val; omega
    | ⟨1, _⟩ => show win3_3.index t (1 : Fin 2) * 256 + 1 * (j 1).val = win3_4.index t (1 : Fin 2) * 256 + 1 * (j 1).val; omega

/-- An index of the array is in point `t`'s block iff each coordinate is in the block's range on its axis. -/
theorem mem_blk3 (t : Fin cfg3.N) (i : S100000x256.Idx) :
    i ∈ ((cfg3.win 4).blk t).view.set ↔ ∀ a : Fin 2, win3_4.index t a * S1000x256.size a ≤ (i a).val ∧ (i a).val < win3_4.index t a * S1000x256.size a + S1000x256.size a := by
  show i ∈ ((View.whole main_v160).slice (win3_4.rect t)).set ↔ _
  rw [View.set_slice_whole, Rect.mem_set_unit]
  exact Iff.rfl

/-- Every index is in some point's block: row `r` is in the block of point `r / 1000`. -/
theorem cover3 (i : S100000x256.Idx) : ∃ t : Fin cfg3.N, (cfg3.win 4).flush t = true ∧ i ∈ ((cfg3.win 4).blk t).view.set := by
  have hi0 : (i 0).val < 100000 := (i 0).isLt
  have hi1 : (i 1).val < 256 := (i 1).isLt
  have hN : (i 0).val / 1000 < cfg3.N := by show _ < grid3.N; rw [N_3]; omega
  obtain ⟨-, -, -, -, -, -, -, -, e8, e9⟩ := index3 ⟨(i 0).val / 1000, hN⟩
  have e8' : win3_4.index ⟨(i 0).val / 1000, hN⟩ (0 : Fin 2) = (i 0).val / 1000 := e8
  refine ⟨⟨(i 0).val / 1000, hN⟩, flush3_4 _, ?_⟩
  rw [mem_blk3]
  intro a
  match a with
  | ⟨0, _⟩ => show win3_4.index ⟨(i 0).val / 1000, hN⟩ (0 : Fin 2) * 1000 ≤ (i 0).val ∧ (i 0).val < win3_4.index ⟨(i 0).val / 1000, hN⟩ (0 : Fin 2) * 1000 + 1000; omega
  | ⟨1, _⟩ => show win3_4.index ⟨(i 0).val / 1000, hN⟩ (1 : Fin 2) * 256 ≤ (i 1).val ∧ (i 1).val < win3_4.index ⟨(i 0).val / 1000, hN⟩ (1 : Fin 2) * 256 + 256; omega

/-- The output array of region 3 after the region: the positive part of `h * sc + sh` plus the residual, entry by entry. -/
theorem final3 (c : Dev nD) : (dat3 (F := Ideal) V c).arrAt 4 cfg3.N = Cert.Spec.affReluRes (V c main_v109) (V c main_v152) (V c main_v159) (V c main_v87) :=
  (dat3 V c).arrAt_eq_of_cover 4 _ (fun t _ => flushed3_eq V c t) cover3

/-! ## Region 5 -/

/-- The affine map's positive part plus the residual, at an entry of a block. -/
theorem pay5_apply (x0 x1 x2 x3 : Vec Ideal S1000x256 .f32) (j : S1000x256.Idx) :
    k5_pay1 x0 x1 x2 x3 j = max (x0 j * x1 j + x2 j) (Ideal.ofBits .f32 0x00000000#32) + x3 j := by
  unfold k5_pay1
  simp only [shapeCast_self]
  rfl

/-- An entry of a block of the payload, from the entries of the input blocks: when each input block's entry is the
    input array's at index `i`, the payload's entry is the whole-array function's at `i`. -/
theorem pay5_eq_affReluRes (a0 a1 a2 a3 : S100000x256.Idx → EReal) (x0 x1 x2 x3 : Vec Ideal S1000x256 .f32) (j : S1000x256.Idx)
    (i : S100000x256.Idx) (h0 : x0 j = a0 i) (h1 : x1 j = a1 i) (h2 : x2 j = a2 i) (h3 : x3 j = a3 i) :
    k5_pay1 x0 x1 x2 x3 j = Cert.Spec.affReluRes a0 a1 a2 a3 i := by
  rw [pay5_apply, h0, h1, h2, h3]
  rfl

/-- Every window of region 5 has its block of point `t` at block index `(t, 0)`. -/
theorem index5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- What point `t` writes back is block `t` of the whole-array function. -/
theorem flushed5_eq (c : Dev nD) (t : Fin cfg5.N) :
    (dat5 (F := Ideal) V c).flushed 4 t
      = ((cfg5.win 4).blk t).view.read (Elt Ideal) (Cert.Spec.affReluRes (s := S100000x256) (V c main_v182) (V c main_v225) (V c main_v232) (V c main_v160)) := by
  show (cfg5.win 4).cut (grid5.coords t) ((dat5 V c).after 4 t) = _
  rw [after5_4]
  unfold out5_4
  rw [View.canon_unit_zero origin2]
  simp only [View.ld_unit_zero (S := S1000x256) origin2]
  obtain ⟨e0, e1, e2, e3, e4, e5, e6, e7, e8, e9⟩ := index5 t
  funext j
  show k5_pay1 (iblk5 V c 0 t) (iblk5 V c 1 t) (iblk5 V c 2 t) (iblk5 V c 3 t) j
    = Cert.Spec.affReluRes (s := S100000x256) (V c main_v182) (V c main_v225) (V c main_v232) (V c main_v160) (((cfg5.win 4).blk t).view.emb j)
  refine pay5_eq_affReluRes _ _ _ _ _ _ _ _ j _ ?_ ?_ ?_ ?_
  · show V c main_v182 (((cfg5.win 0).blk t).view.emb j) = V c main_v182 (((cfg5.win 4).blk t).view.emb j)
    refine congrArg _ ?_
    funext a; apply Fin.ext
    match a with
    | ⟨0, _⟩ => show win5_0.index t (0 : Fin 2) * 1000 + 1 * (j 0).val = win5_4.index t (0 : Fin 2) * 1000 + 1 * (j 0).val; omega
    | ⟨1, _⟩ => show win5_0.index t (1 : Fin 2) * 256 + 1 * (j 1).val = win5_4.index t (1 : Fin 2) * 256 + 1 * (j 1).val; omega
  · show V c main_v225 (((cfg5.win 1).blk t).view.emb j) = V c main_v225 (((cfg5.win 4).blk t).view.emb j)
    refine congrArg _ ?_
    funext a; apply Fin.ext
    match a with
    | ⟨0, _⟩ => show win5_1.index t (0 : Fin 2) * 1000 + 1 * (j 0).val = win5_4.index t (0 : Fin 2) * 1000 + 1 * (j 0).val; omega
    | ⟨1, _⟩ => show win5_1.index t (1 : Fin 2) * 256 + 1 * (j 1).val = win5_4.index t (1 : Fin 2) * 256 + 1 * (j 1).val; omega
  · show V c main_v232 (((cfg5.win 2).blk t).view.emb j) = V c main_v232 (((cfg5.win 4).blk t).view.emb j)
    refine congrArg _ ?_
    funext a; apply Fin.ext
    match a with
    | ⟨0, _⟩ => show win5_2.index t (0 : Fin 2) * 1000 + 1 * (j 0).val = win5_4.index t (0 : Fin 2) * 1000 + 1 * (j 0).val; omega
    | ⟨1, _⟩ => show win5_2.index t (1 : Fin 2) * 256 + 1 * (j 1).val = win5_4.index t (1 : Fin 2) * 256 + 1 * (j 1).val; omega
  · show V c main_v160 (((cfg5.win 3).blk t).view.emb j) = V c main_v160 (((cfg5.win 4).blk t).view.emb j)
    refine congrArg _ ?_
    funext a; apply Fin.ext
    match a with
    | ⟨0, _⟩ => show win5_3.index t (0 : Fin 2) * 1000 + 1 * (j 0).val = win5_4.index t (0 : Fin 2) * 1000 + 1 * (j 0).val; omega
    | ⟨1, _⟩ => show win5_3.index t (1 : Fin 2) * 256 + 1 * (j 1).val = win5_4.index t (1 : Fin 2) * 256 + 1 * (j 1).val; omega

/-- An index of the array is in point `t`'s block iff each coordinate is in the block's range on its axis. -/
theorem mem_blk5 (t : Fin cfg5.N) (i : S100000x256.Idx) :
    i ∈ ((cfg5.win 4).blk t).view.set ↔ ∀ a : Fin 2, win5_4.index t a * S1000x256.size a ≤ (i a).val ∧ (i a).val < win5_4.index t a * S1000x256.size a + S1000x256.size a := by
  show i ∈ ((View.whole main_v233).slice (win5_4.rect t)).set ↔ _
  rw [View.set_slice_whole, Rect.mem_set_unit]
  exact Iff.rfl

/-- Every index is in some point's block: row `r` is in the block of point `r / 1000`. -/
theorem cover5 (i : S100000x256.Idx) : ∃ t : Fin cfg5.N, (cfg5.win 4).flush t = true ∧ i ∈ ((cfg5.win 4).blk t).view.set := by
  have hi0 : (i 0).val < 100000 := (i 0).isLt
  have hi1 : (i 1).val < 256 := (i 1).isLt
  have hN : (i 0).val / 1000 < cfg5.N := by show _ < grid5.N; rw [N_5]; omega
  obtain ⟨-, -, -, -, -, -, -, -, e8, e9⟩ := index5 ⟨(i 0).val / 1000, hN⟩
  have e8' : win5_4.index ⟨(i 0).val / 1000, hN⟩ (0 : Fin 2) = (i 0).val / 1000 := e8
  refine ⟨⟨(i 0).val / 1000, hN⟩, flush5_4 _, ?_⟩
  rw [mem_blk5]
  intro a
  match a with
  | ⟨0, _⟩ => show win5_4.index ⟨(i 0).val / 1000, hN⟩ (0 : Fin 2) * 1000 ≤ (i 0).val ∧ (i 0).val < win5_4.index ⟨(i 0).val / 1000, hN⟩ (0 : Fin 2) * 1000 + 1000; omega
  | ⟨1, _⟩ => show win5_4.index ⟨(i 0).val / 1000, hN⟩ (1 : Fin 2) * 256 ≤ (i 1).val ∧ (i 1).val < win5_4.index ⟨(i 0).val / 1000, hN⟩ (1 : Fin 2) * 256 + 256; omega

/-- The output array of region 5 after the region: the positive part of `h * sc + sh` plus the residual, entry by entry. -/
theorem final5 (c : Dev nD) : (dat5 (F := Ideal) V c).arrAt 4 cfg5.N = Cert.Spec.affReluRes (V c main_v182) (V c main_v225) (V c main_v232) (V c main_v160) :=
  (dat5 V c).arrAt_eq_of_cover 4 _ (fun t _ => flushed5_eq V c t) cover5

/-! ## Region 7 -/

/-- The affine map's positive part plus the residual, at an entry of a block. -/
theorem pay7_apply (x0 x1 x2 x3 : Vec Ideal S1000x256 .f32) (j : S1000x256.Idx) :
    k7_pay1 x0 x1 x2 x3 j = max (x0 j * x1 j + x2 j) (Ideal.ofBits .f32 0x00000000#32) + x3 j := by
  unfold k7_pay1
  simp only [shapeCast_self]
  rfl

/-- An entry of a block of the payload, from the entries of the input blocks: when each input block's entry is the
    input array's at index `i`, the payload's entry is the whole-array function's at `i`. -/
theorem pay7_eq_affReluRes (a0 a1 a2 a3 : S100000x256.Idx → EReal) (x0 x1 x2 x3 : Vec Ideal S1000x256 .f32) (j : S1000x256.Idx)
    (i : S100000x256.Idx) (h0 : x0 j = a0 i) (h1 : x1 j = a1 i) (h2 : x2 j = a2 i) (h3 : x3 j = a3 i) :
    k7_pay1 x0 x1 x2 x3 j = Cert.Spec.affReluRes a0 a1 a2 a3 i := by
  rw [pay7_apply, h0, h1, h2, h3]
  rfl

/-- Every window of region 7 has its block of point `t` at block index `(t, 0)`. -/
theorem index7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- What point `t` writes back is block `t` of the whole-array function. -/
theorem flushed7_eq (c : Dev nD) (t : Fin cfg7.N) :
    (dat7 (F := Ideal) V c).flushed 4 t
      = ((cfg7.win 4).blk t).view.read (Elt Ideal) (Cert.Spec.affReluRes (s := S100000x256) (V c main_v255) (V c main_v298) (V c main_v305) (V c main_v233)) := by
  show (cfg7.win 4).cut (grid7.coords t) ((dat7 V c).after 4 t) = _
  rw [after7_4]
  unfold out7_4
  rw [View.canon_unit_zero origin2]
  simp only [View.ld_unit_zero (S := S1000x256) origin2]
  obtain ⟨e0, e1, e2, e3, e4, e5, e6, e7, e8, e9⟩ := index7 t
  funext j
  show k7_pay1 (iblk7 V c 0 t) (iblk7 V c 1 t) (iblk7 V c 2 t) (iblk7 V c 3 t) j
    = Cert.Spec.affReluRes (s := S100000x256) (V c main_v255) (V c main_v298) (V c main_v305) (V c main_v233) (((cfg7.win 4).blk t).view.emb j)
  refine pay7_eq_affReluRes _ _ _ _ _ _ _ _ j _ ?_ ?_ ?_ ?_
  · show V c main_v255 (((cfg7.win 0).blk t).view.emb j) = V c main_v255 (((cfg7.win 4).blk t).view.emb j)
    refine congrArg _ ?_
    funext a; apply Fin.ext
    match a with
    | ⟨0, _⟩ => show win7_0.index t (0 : Fin 2) * 1000 + 1 * (j 0).val = win7_4.index t (0 : Fin 2) * 1000 + 1 * (j 0).val; omega
    | ⟨1, _⟩ => show win7_0.index t (1 : Fin 2) * 256 + 1 * (j 1).val = win7_4.index t (1 : Fin 2) * 256 + 1 * (j 1).val; omega
  · show V c main_v298 (((cfg7.win 1).blk t).view.emb j) = V c main_v298 (((cfg7.win 4).blk t).view.emb j)
    refine congrArg _ ?_
    funext a; apply Fin.ext
    match a with
    | ⟨0, _⟩ => show win7_1.index t (0 : Fin 2) * 1000 + 1 * (j 0).val = win7_4.index t (0 : Fin 2) * 1000 + 1 * (j 0).val; omega
    | ⟨1, _⟩ => show win7_1.index t (1 : Fin 2) * 256 + 1 * (j 1).val = win7_4.index t (1 : Fin 2) * 256 + 1 * (j 1).val; omega
  · show V c main_v305 (((cfg7.win 2).blk t).view.emb j) = V c main_v305 (((cfg7.win 4).blk t).view.emb j)
    refine congrArg _ ?_
    funext a; apply Fin.ext
    match a with
    | ⟨0, _⟩ => show win7_2.index t (0 : Fin 2) * 1000 + 1 * (j 0).val = win7_4.index t (0 : Fin 2) * 1000 + 1 * (j 0).val; omega
    | ⟨1, _⟩ => show win7_2.index t (1 : Fin 2) * 256 + 1 * (j 1).val = win7_4.index t (1 : Fin 2) * 256 + 1 * (j 1).val; omega
  · show V c main_v233 (((cfg7.win 3).blk t).view.emb j) = V c main_v233 (((cfg7.win 4).blk t).view.emb j)
    refine congrArg _ ?_
    funext a; apply Fin.ext
    match a with
    | ⟨0, _⟩ => show win7_3.index t (0 : Fin 2) * 1000 + 1 * (j 0).val = win7_4.index t (0 : Fin 2) * 1000 + 1 * (j 0).val; omega
    | ⟨1, _⟩ => show win7_3.index t (1 : Fin 2) * 256 + 1 * (j 1).val = win7_4.index t (1 : Fin 2) * 256 + 1 * (j 1).val; omega

/-- An index of the array is in point `t`'s block iff each coordinate is in the block's range on its axis. -/
theorem mem_blk7 (t : Fin cfg7.N) (i : S100000x256.Idx) :
    i ∈ ((cfg7.win 4).blk t).view.set ↔ ∀ a : Fin 2, win7_4.index t a * S1000x256.size a ≤ (i a).val ∧ (i a).val < win7_4.index t a * S1000x256.size a + S1000x256.size a := by
  show i ∈ ((View.whole main_v306).slice (win7_4.rect t)).set ↔ _
  rw [View.set_slice_whole, Rect.mem_set_unit]
  exact Iff.rfl

/-- Every index is in some point's block: row `r` is in the block of point `r / 1000`. -/
theorem cover7 (i : S100000x256.Idx) : ∃ t : Fin cfg7.N, (cfg7.win 4).flush t = true ∧ i ∈ ((cfg7.win 4).blk t).view.set := by
  have hi0 : (i 0).val < 100000 := (i 0).isLt
  have hi1 : (i 1).val < 256 := (i 1).isLt
  have hN : (i 0).val / 1000 < cfg7.N := by show _ < grid7.N; rw [N_7]; omega
  obtain ⟨-, -, -, -, -, -, -, -, e8, e9⟩ := index7 ⟨(i 0).val / 1000, hN⟩
  have e8' : win7_4.index ⟨(i 0).val / 1000, hN⟩ (0 : Fin 2) = (i 0).val / 1000 := e8
  refine ⟨⟨(i 0).val / 1000, hN⟩, flush7_4 _, ?_⟩
  rw [mem_blk7]
  intro a
  match a with
  | ⟨0, _⟩ => show win7_4.index ⟨(i 0).val / 1000, hN⟩ (0 : Fin 2) * 1000 ≤ (i 0).val ∧ (i 0).val < win7_4.index ⟨(i 0).val / 1000, hN⟩ (0 : Fin 2) * 1000 + 1000; omega
  | ⟨1, _⟩ => show win7_4.index ⟨(i 0).val / 1000, hN⟩ (1 : Fin 2) * 256 ≤ (i 1).val ∧ (i 1).val < win7_4.index ⟨(i 0).val / 1000, hN⟩ (1 : Fin 2) * 256 + 256; omega

/-- The output array of region 7 after the region: the positive part of `h * sc + sh` plus the residual, entry by entry. -/
theorem final7 (c : Dev nD) : (dat7 (F := Ideal) V c).arrAt 4 cfg7.N = Cert.Spec.affReluRes (V c main_v255) (V c main_v298) (V c main_v305) (V c main_v233) :=
  (dat7 V c).arrAt_eq_of_cover 4 _ (fun t _ => flushed7_eq V c t) cover7

end Cert.KernelIdeal.RegionValue

end
-- ==== Proof.KChain.lean ====
/-
  The idealized kernel's buffers at every segment boundary. The program alternates stretches of host operations
  with kernel regions; `W j` is the contents of the device's buffers at boundary `j` (`W 0` the launch memory, an
  odd boundary after a host stretch, an even one after a region). For every buffer a later segment still reads, its
  contents at each boundary are a stage of the network applied to the argument arrays:
    * a host stretch applies the program's own operations, which are the stage functions' operations verbatim;
    * a region's output array is the region's whole-array function of its input arrays (the matrix product plus
      bias, or the affine map with positive part and residual).
  `X L` is layer `L`'s linear map of the aggregated features and `H (L+1)` the features after layer `L`, both as
  the kernel computes them; `OUT` is the kernel's result.
-/
import proofs.«107967_j28716151341434_1_alg».proof.Proof.Gen.KernelIdeal.Frame
import proofs.«107967_j28716151341434_1_alg».proof.Proof.Gen.ReferenceIdeal
import proofs.«107967_j28716151341434_1_alg».proof.Proof.Stages
import proofs.«107967_j28716151341434_1_alg».proof.Proof.Spec
import proofs.«107967_j28716151341434_1_alg».proof.Proof.RegionLinear
import proofs.«107967_j28716151341434_1_alg».proof.Proof.RegionAffine
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Stage

variable (m : (ℓ : Loc nD τ sig) → Buf (Elt Ideal) ℓ) (ρ : Dev nD → PrngReg) (c : Dev nD)

/-! ## The kernel's values, layer by layer -/

/-- Layer 0's linear map of the aggregated features, as the kernel's region leaves it. -/
def X0 : FVec Ideal Cert.ReferenceIdeal.S100000x256 .f32 :=
  Cert.Spec.linear 100000 128 256 (agg128 (m ((c : Thread nD τ).loc main_arg0)) (dinv (m ((c : Thread nD τ).loc main_arg1))) (dinv (m ((c : Thread nD τ).loc main_arg2))) (m ((c : Thread nD τ).loc main_arg1)) (m ((c : Thread nD τ).loc main_arg2))) (m ((c : Thread nD τ).loc main_arg4)) (shapeCast S1x256 (m ((c : Thread nD τ).loc main_arg5)) Facts₀.shapeCasts_S256_S1x256)

/-- The node features after layer 0, as the kernel's region leaves them. -/
def H1 : FVec Ideal Cert.ReferenceIdeal.S100000x256 .f32 :=
  Cert.Spec.affRelu (X0 m c) (scaleK (X0 m c) (counts (m ((c : Thread nD τ).loc main_arg3))) (m ((c : Thread nD τ).loc main_arg3)) (row4_0 (m ((c : Thread nD τ).loc main_arg8))) (row4_0 (m ((c : Thread nD τ).loc main_arg10)))) (shiftK (X0 m c) (counts (m ((c : Thread nD τ).loc main_arg3))) (m ((c : Thread nD τ).loc main_arg3)) (row4_0 (m ((c : Thread nD τ).loc main_arg8))) (row4_0 (m ((c : Thread nD τ).loc main_arg9))) (row4_0 (m ((c : Thread nD τ).loc main_arg10))))

/-- Layer 1's linear map of the aggregated features, as the kernel's region leaves it. -/
def X1 : FVec Ideal Cert.ReferenceIdeal.S100000x256 .f32 :=
  Cert.Spec.linear 100000 256 256 (agg256 (H1 m c) (dinv (m ((c : Thread nD τ).loc main_arg1))) (dinv (m ((c : Thread nD τ).loc main_arg2))) (m ((c : Thread nD τ).loc main_arg1)) (m ((c : Thread nD τ).loc main_arg2))) (mat3_0 (m ((c : Thread nD τ).loc main_arg6))) (shapeCast S1x256 (row3_0 (m ((c : Thread nD τ).loc main_arg7))) Facts₀.shapeCasts_S256_S1x256)

/-- The node features after layer 1, as the kernel's region leaves them. -/
def H2 : FVec Ideal Cert.ReferenceIdeal.S100000x256 .f32 :=
  Cert.Spec.affReluRes (X1 m c) (scaleK (X1 m c) (counts (m ((c : Thread nD τ).loc main_arg3))) (m ((c : Thread nD τ).loc main_arg3)) (row4_1 (m ((c : Thread nD τ).loc main_arg8))) (row4_1 (m ((c : Thread nD τ).loc main_arg10)))) (shiftK (X1 m c) (counts (m ((c : Thread nD τ).loc main_arg3))) (m ((c : Thread nD τ).loc main_arg3)) (row4_1 (m ((c : Thread nD τ).loc main_arg8))) (row4_1 (m ((c : Thread nD τ).loc main_arg9))) (row4_1 (m ((c : Thread nD τ).loc main_arg10)))) (H1 m c)

/-- Layer 2's linear map of the aggregated features, as the kernel's region leaves it. -/
def X2 : FVec Ideal Cert.ReferenceIdeal.S100000x256 .f32 :=
  Cert.Spec.linear 100000 256 256 (agg256 (H2 m c) (dinv (m ((c : Thread nD τ).loc main_arg1))) (dinv (m ((c : Thread nD τ).loc main_arg2))) (m ((c : Thread nD τ).loc main_arg1)) (m ((c : Thread nD τ).loc main_arg2))) (mat3_1 (m ((c : Thread nD τ).loc main_arg6))) (shapeCast S1x256 (row3_1 (m ((c : Thread nD τ).loc main_arg7))) Facts₀.shapeCasts_S256_S1x256)

/-- The node features after layer 2, as the kernel's region leaves them. -/
def H3 : FVec Ideal Cert.ReferenceIdeal.S100000x256 .f32 :=
  Cert.Spec.affReluRes (X2 m c) (scaleK (X2 m c) (counts (m ((c : Thread nD τ).loc main_arg3))) (m ((c : Thread nD τ).loc main_arg3)) (row4_2 (m ((c : Thread nD τ).loc main_arg8))) (row4_2 (m ((c : Thread nD τ).loc main_arg10)))) (shiftK (X2 m c) (counts (m ((c : Thread nD τ).loc main_arg3))) (m ((c : Thread nD τ).loc main_arg3)) (row4_2 (m ((c : Thread nD τ).loc main_arg8))) (row4_2 (m ((c : Thread nD τ).loc main_arg9))) (row4_2 (m ((c : Thread nD τ).loc main_arg10)))) (H2 m c)

/-- Layer 3's linear map of the aggregated features, as the kernel's region leaves it. -/
def X3 : FVec Ideal Cert.ReferenceIdeal.S100000x256 .f32 :=
  Cert.Spec.linear 100000 256 256 (agg256 (H3 m c) (dinv (m ((c : Thread nD τ).loc main_arg1))) (dinv (m ((c : Thread nD τ).loc main_arg2))) (m ((c : Thread nD τ).loc main_arg1)) (m ((c : Thread nD τ).loc main_arg2))) (mat3_2 (m ((c : Thread nD τ).loc main_arg6))) (shapeCast S1x256 (row3_2 (m ((c : Thread nD τ).loc main_arg7))) Facts₀.shapeCasts_S256_S1x256)

/-- The node features after layer 3, as the kernel's region leaves them. -/
def H4 : FVec Ideal Cert.ReferenceIdeal.S100000x256 .f32 :=
  Cert.Spec.affReluRes (X3 m c) (scaleK (X3 m c) (counts (m ((c : Thread nD τ).loc main_arg3))) (m ((c : Thread nD τ).loc main_arg3)) (row4_3 (m ((c : Thread nD τ).loc main_arg8))) (row4_3 (m ((c : Thread nD τ).loc main_arg10)))) (shiftK (X3 m c) (counts (m ((c : Thread nD τ).loc main_arg3))) (m ((c : Thread nD τ).loc main_arg3)) (row4_3 (m ((c : Thread nD τ).loc main_arg8))) (row4_3 (m ((c : Thread nD τ).loc main_arg9))) (row4_3 (m ((c : Thread nD τ).loc main_arg10)))) (H3 m c)

/-- The kernel's result: the final linear map of the per-graph sums. -/
def OUT : FVec Ideal Cert.ReferenceIdeal.S128x10 .f32 :=
  Cert.Spec.linear 128 256 10 (segSum (H4 m c) (m ((c : Thread nD τ).loc main_arg3))) (m ((c : Thread nD τ).loc main_arg11)) (shapeCast S1x10 (m ((c : Thread nD τ).loc main_arg12)) Facts₀.shapeCasts_S10_S1x10)

/-! ## After host stretch 0 (entry of region 0) -/

set_option maxHeartbeats 16000000 in
theorem W1_arg11 : W1 m ρ c (Proc.devRef .tc main_arg11) = m ((c : Thread nD τ).loc main_arg11) := by
  show StableHlo.after hostOps0 (W0 m ρ c) (Proc.devRef .tc main_arg11) = _
  after_results_simp <;> rfl

set_option maxHeartbeats 16000000 in
theorem W1_arg3 : W1 m ρ c (Proc.devRef .tc main_arg3) = m ((c : Thread nD τ).loc main_arg3) := by
  show StableHlo.after hostOps0 (W0 m ρ c) (Proc.devRef .tc main_arg3) = _
  after_results_simp <;> rfl

set_option maxHeartbeats 16000000 in
theorem W1_arg12 : W1 m ρ c (Proc.devRef .tc main_arg12) = m ((c : Thread nD τ).loc main_arg12) := by
  show StableHlo.after hostOps0 (W0 m ρ c) (Proc.devRef .tc main_arg12) = _
  after_results_simp <;> rfl

set_option maxHeartbeats 16000000 in
theorem W1_v18 : W1 m ρ c (Proc.devRef .tc main_v18) = counts (m ((c : Thread nD τ).loc main_arg3)) := by
  show StableHlo.after hostOps0 (W0 m ρ c) (Proc.devRef .tc main_v18) = _
  after_results_simp
  rfl

set_option maxHeartbeats 16000000 in
theorem W1_arg8 : W1 m ρ c (Proc.devRef .tc main_arg8) = m ((c : Thread nD τ).loc main_arg8) := by
  show StableHlo.after hostOps0 (W0 m ρ c) (Proc.devRef .tc main_arg8) = _
  after_results_simp <;> rfl

set_option maxHeartbeats 16000000 in
theorem W1_arg9 : W1 m ρ c (Proc.devRef .tc main_arg9) = m ((c : Thread nD τ).loc main_arg9) := by
  show StableHlo.after hostOps0 (W0 m ρ c) (Proc.devRef .tc main_arg9) = _
  after_results_simp <;> rfl

set_option maxHeartbeats 16000000 in
theorem W1_arg10 : W1 m ρ c (Proc.devRef .tc main_arg10) = m ((c : Thread nD τ).loc main_arg10) := by
  show StableHlo.after hostOps0 (W0 m ρ c) (Proc.devRef .tc main_arg10) = _
  after_results_simp <;> rfl

set_option maxHeartbeats 16000000 in
theorem W1_v11 : W1 m ρ c (Proc.devRef .tc main_v11) = dinv (m ((c : Thread nD τ).loc main_arg1)) := by
  show StableHlo.after hostOps0 (W0 m ρ c) (Proc.devRef .tc main_v11) = _
  after_results_simp
  rfl

set_option maxHeartbeats 16000000 in
theorem W1_v12 : W1 m ρ c (Proc.devRef .tc main_v12) = dinv (m ((c : Thread nD τ).loc main_arg2)) := by
  show StableHlo.after hostOps0 (W0 m ρ c) (Proc.devRef .tc main_v12) = _
  after_results_simp
  rfl

set_option maxHeartbeats 16000000 in
theorem W1_arg1 : W1 m ρ c (Proc.devRef .tc main_arg1) = m ((c : Thread nD τ).loc main_arg1) := by
  show StableHlo.after hostOps0 (W0 m ρ c) (Proc.devRef .tc main_arg1) = _
  after_results_simp <;> rfl

set_option maxHeartbeats 16000000 in
theorem W1_arg2 : W1 m ρ c (Proc.devRef .tc main_arg2) = m ((c : Thread nD τ).loc main_arg2) := by
  show StableHlo.after hostOps0 (W0 m ρ c) (Proc.devRef .tc main_arg2) = _
  after_results_simp <;> rfl

set_option maxHeartbeats 16000000 in
theorem W1_arg6 : W1 m ρ c (Proc.devRef .tc main_arg6) = m ((c : Thread nD τ).loc main_arg6) := by
  show StableHlo.after hostOps0 (W0 m ρ c) (Proc.devRef .tc main_arg6) = _
  after_results_simp <;> rfl

set_option maxHeartbeats 16000000 in
theorem W1_arg7 : W1 m ρ c (Proc.devRef .tc main_arg7) = m ((c : Thread nD τ).loc main_arg7) := by
  show StableHlo.after hostOps0 (W0 m ρ c) (Proc.devRef .tc main_arg7) = _
  after_results_simp <;> rfl

set_option maxHeartbeats 16000000 in
theorem W1_v34 : W1 m ρ c (Proc.devRef .tc main_v34) = agg128 (m ((c : Thread nD τ).loc main_arg0)) (dinv (m ((c : Thread nD τ).loc main_arg1))) (dinv (m ((c : Thread nD τ).loc main_arg2))) (m ((c : Thread nD τ).loc main_arg1)) (m ((c : Thread nD τ).loc main_arg2)) := by
  show StableHlo.after hostOps0 (W0 m ρ c) (Proc.devRef .tc main_v34) = _
  after_results_simp
  rfl

set_option maxHeartbeats 16000000 in
theorem W1_arg4 : W1 m ρ c (Proc.devRef .tc main_arg4) = m ((c : Thread nD τ).loc main_arg4) := by
  show StableHlo.after hostOps0 (W0 m ρ c) (Proc.devRef .tc main_arg4) = _
  after_results_simp <;> rfl

set_option maxHeartbeats 16000000 in
theorem W1_v35 : W1 m ρ c (Proc.devRef .tc main_v35) = shapeCast S1x256 (m ((c : Thread nD τ).loc main_arg5)) Facts₀.shapeCasts_S256_S1x256 := by
  show StableHlo.after hostOps0 (W0 m ρ c) (Proc.devRef .tc main_v35) = _
  after_results_simp
  rfl

/-! ## After region 0 -/

theorem W2_arg11 : W2 m ρ c (Proc.devRef .tc main_arg11) = m ((c : Thread nD τ).loc main_arg11) := (W2_of_ne m ρ c main_arg11 (by decide)).trans (W1_arg11 m ρ c)

theorem W2_arg3 : W2 m ρ c (Proc.devRef .tc main_arg3) = m ((c : Thread nD τ).loc main_arg3) := (W2_of_ne m ρ c main_arg3 (by decide)).trans (W1_arg3 m ρ c)

theorem W2_arg12 : W2 m ρ c (Proc.devRef .tc main_arg12) = m ((c : Thread nD τ).loc main_arg12) := (W2_of_ne m ρ c main_arg12 (by decide)).trans (W1_arg12 m ρ c)

theorem W2_v18 : W2 m ρ c (Proc.devRef .tc main_v18) = counts (m ((c : Thread nD τ).loc main_arg3)) := (W2_of_ne m ρ c main_v18 (by decide)).trans (W1_v18 m ρ c)

theorem W2_arg8 : W2 m ρ c (Proc.devRef .tc main_arg8) = m ((c : Thread nD τ).loc main_arg8) := (W2_of_ne m ρ c main_arg8 (by decide)).trans (W1_arg8 m ρ c)

theorem W2_arg9 : W2 m ρ c (Proc.devRef .tc main_arg9) = m ((c : Thread nD τ).loc main_arg9) := (W2_of_ne m ρ c main_arg9 (by decide)).trans (W1_arg9 m ρ c)

theorem W2_arg10 : W2 m ρ c (Proc.devRef .tc main_arg10) = m ((c : Thread nD τ).loc main_arg10) := (W2_of_ne m ρ c main_arg10 (by decide)).trans (W1_arg10 m ρ c)

theorem W2_v11 : W2 m ρ c (Proc.devRef .tc main_v11) = dinv (m ((c : Thread nD τ).loc main_arg1)) := (W2_of_ne m ρ c main_v11 (by decide)).trans (W1_v11 m ρ c)

theorem W2_v12 : W2 m ρ c (Proc.devRef .tc main_v12) = dinv (m ((c : Thread nD τ).loc main_arg2)) := (W2_of_ne m ρ c main_v12 (by decide)).trans (W1_v12 m ρ c)

theorem W2_arg1 : W2 m ρ c (Proc.devRef .tc main_arg1) = m ((c : Thread nD τ).loc main_arg1) := (W2_of_ne m ρ c main_arg1 (by decide)).trans (W1_arg1 m ρ c)

theorem W2_arg2 : W2 m ρ c (Proc.devRef .tc main_arg2) = m ((c : Thread nD τ).loc main_arg2) := (W2_of_ne m ρ c main_arg2 (by decide)).trans (W1_arg2 m ρ c)

theorem W2_arg6 : W2 m ρ c (Proc.devRef .tc main_arg6) = m ((c : Thread nD τ).loc main_arg6) := (W2_of_ne m ρ c main_arg6 (by decide)).trans (W1_arg6 m ρ c)

theorem W2_arg7 : W2 m ρ c (Proc.devRef .tc main_arg7) = m ((c : Thread nD τ).loc main_arg7) := (W2_of_ne m ρ c main_arg7 (by decide)).trans (W1_arg7 m ρ c)

theorem W2_v36 : W2 m ρ c (Proc.devRef .tc main_v36) = X0 m c := by
  refine (W2_arr m ρ c 3).trans ((Cert.KernelIdeal.RegionValue.final0 (V1 m ρ) c).trans ?_)
  show Cert.Spec.linear 100000 128 256 (W1 m ρ c (Proc.devRef .tc main_v34)) (W1 m ρ c (Proc.devRef .tc main_arg4)) (W1 m ρ c (Proc.devRef .tc main_v35)) = _
  rw [W1_v34 m ρ c, W1_arg4 m ρ c, W1_v35 m ρ c] <;> rfl

/-! ## After host stretch 1 (entry of region 1) -/

set_option maxHeartbeats 16000000 in
theorem W3_arg11 : W3 m ρ c (Proc.devRef .tc main_arg11) = m ((c : Thread nD τ).loc main_arg11) := by
  show StableHlo.after hostOps1 (W2 m ρ c) (Proc.devRef .tc main_arg11) = _
  after_results_simp <;> exact W2_arg11 m ρ c

set_option maxHeartbeats 16000000 in
theorem W3_arg3 : W3 m ρ c (Proc.devRef .tc main_arg3) = m ((c : Thread nD τ).loc main_arg3) := by
  show StableHlo.after hostOps1 (W2 m ρ c) (Proc.devRef .tc main_arg3) = _
  after_results_simp <;> exact W2_arg3 m ρ c

set_option maxHeartbeats 16000000 in
theorem W3_arg12 : W3 m ρ c (Proc.devRef .tc main_arg12) = m ((c : Thread nD τ).loc main_arg12) := by
  show StableHlo.after hostOps1 (W2 m ρ c) (Proc.devRef .tc main_arg12) = _
  after_results_simp <;> exact W2_arg12 m ρ c

set_option maxHeartbeats 16000000 in
theorem W3_v18 : W3 m ρ c (Proc.devRef .tc main_v18) = counts (m ((c : Thread nD τ).loc main_arg3)) := by
  show StableHlo.after hostOps1 (W2 m ρ c) (Proc.devRef .tc main_v18) = _
  after_results_simp <;> exact W2_v18 m ρ c

set_option maxHeartbeats 16000000 in
theorem W3_arg8 : W3 m ρ c (Proc.devRef .tc main_arg8) = m ((c : Thread nD τ).loc main_arg8) := by
  show StableHlo.after hostOps1 (W2 m ρ c) (Proc.devRef .tc main_arg8) = _
  after_results_simp <;> exact W2_arg8 m ρ c

set_option maxHeartbeats 16000000 in
theorem W3_arg9 : W3 m ρ c (Proc.devRef .tc main_arg9) = m ((c : Thread nD τ).loc main_arg9) := by
  show StableHlo.after hostOps1 (W2 m ρ c) (Proc.devRef .tc main_arg9) = _
  after_results_simp <;> exact W2_arg9 m ρ c

set_option maxHeartbeats 16000000 in
theorem W3_arg10 : W3 m ρ c (Proc.devRef .tc main_arg10) = m ((c : Thread nD τ).loc main_arg10) := by
  show StableHlo.after hostOps1 (W2 m ρ c) (Proc.devRef .tc main_arg10) = _
  after_results_simp <;> exact W2_arg10 m ρ c

set_option maxHeartbeats 16000000 in
theorem W3_v11 : W3 m ρ c (Proc.devRef .tc main_v11) = dinv (m ((c : Thread nD τ).loc main_arg1)) := by
  show StableHlo.after hostOps1 (W2 m ρ c) (Proc.devRef .tc main_v11) = _
  after_results_simp <;> exact W2_v11 m ρ c

set_option maxHeartbeats 16000000 in
theorem W3_v12 : W3 m ρ c (Proc.devRef .tc main_v12) = dinv (m ((c : Thread nD τ).loc main_arg2)) := by
  show StableHlo.after hostOps1 (W2 m ρ c) (Proc.devRef .tc main_v12) = _
  after_results_simp <;> exact W2_v12 m ρ c

set_option maxHeartbeats 16000000 in
theorem W3_arg1 : W3 m ρ c (Proc.devRef .tc main_arg1) = m ((c : Thread nD τ).loc main_arg1) := by
  show StableHlo.after hostOps1 (W2 m ρ c) (Proc.devRef .tc main_arg1) = _
  after_results_simp <;> exact W2_arg1 m ρ c

set_option maxHeartbeats 16000000 in
theorem W3_arg2 : W3 m ρ c (Proc.devRef .tc main_arg2) = m ((c : Thread nD τ).loc main_arg2) := by
  show StableHlo.after hostOps1 (W2 m ρ c) (Proc.devRef .tc main_arg2) = _
  after_results_simp <;> exact W2_arg2 m ρ c

set_option maxHeartbeats 16000000 in
theorem W3_arg6 : W3 m ρ c (Proc.devRef .tc main_arg6) = m ((c : Thread nD τ).loc main_arg6) := by
  show StableHlo.after hostOps1 (W2 m ρ c) (Proc.devRef .tc main_arg6) = _
  after_results_simp <;> exact W2_arg6 m ρ c

set_option maxHeartbeats 16000000 in
theorem W3_arg7 : W3 m ρ c (Proc.devRef .tc main_arg7) = m ((c : Thread nD τ).loc main_arg7) := by
  show StableHlo.after hostOps1 (W2 m ρ c) (Proc.devRef .tc main_arg7) = _
  after_results_simp <;> exact W2_arg7 m ρ c

set_option maxHeartbeats 16000000 in
theorem W3_v36 : W3 m ρ c (Proc.devRef .tc main_v36) = X0 m c := by
  show StableHlo.after hostOps1 (W2 m ρ c) (Proc.devRef .tc main_v36) = _
  after_results_simp <;> exact W2_v36 m ρ c

set_option maxHeartbeats 16000000 in
theorem W3_v79 : W3 m ρ c (Proc.devRef .tc main_v79) = scaleK (X0 m c) (counts (m ((c : Thread nD τ).loc main_arg3))) (m ((c : Thread nD τ).loc main_arg3)) (row4_0 (m ((c : Thread nD τ).loc main_arg8))) (row4_0 (m ((c : Thread nD τ).loc main_arg10))) := by
  show StableHlo.after hostOps1 (W2 m ρ c) (Proc.devRef .tc main_v79) = _
  after_results_simp
  simp only [W2_v36 m ρ c, W2_v18 m ρ c, W2_arg3 m ρ c, W2_arg8 m ρ c, W2_arg9 m ρ c, W2_arg10 m ρ c]
  rfl

set_option maxHeartbeats 16000000 in
theorem W3_v86 : W3 m ρ c (Proc.devRef .tc main_v86) = shiftK (X0 m c) (counts (m ((c : Thread nD τ).loc main_arg3))) (m ((c : Thread nD τ).loc main_arg3)) (row4_0 (m ((c : Thread nD τ).loc main_arg8))) (row4_0 (m ((c : Thread nD τ).loc main_arg9))) (row4_0 (m ((c : Thread nD τ).loc main_arg10))) := by
  show StableHlo.after hostOps1 (W2 m ρ c) (Proc.devRef .tc main_v86) = _
  after_results_simp
  simp only [W2_v36 m ρ c, W2_v18 m ρ c, W2_arg3 m ρ c, W2_arg8 m ρ c, W2_arg9 m ρ c, W2_arg10 m ρ c]
  rfl

/-! ## After region 1 -/

theorem W4_arg11 : W4 m ρ c (Proc.devRef .tc main_arg11) = m ((c : Thread nD τ).loc main_arg11) := (W4_of_ne m ρ c main_arg11 (by decide)).trans (W3_arg11 m ρ c)

theorem W4_arg3 : W4 m ρ c (Proc.devRef .tc main_arg3) = m ((c : Thread nD τ).loc main_arg3) := (W4_of_ne m ρ c main_arg3 (by decide)).trans (W3_arg3 m ρ c)

theorem W4_arg12 : W4 m ρ c (Proc.devRef .tc main_arg12) = m ((c : Thread nD τ).loc main_arg12) := (W4_of_ne m ρ c main_arg12 (by decide)).trans (W3_arg12 m ρ c)

theorem W4_v18 : W4 m ρ c (Proc.devRef .tc main_v18) = counts (m ((c : Thread nD τ).loc main_arg3)) := (W4_of_ne m ρ c main_v18 (by decide)).trans (W3_v18 m ρ c)

theorem W4_arg8 : W4 m ρ c (Proc.devRef .tc main_arg8) = m ((c : Thread nD τ).loc main_arg8) := (W4_of_ne m ρ c main_arg8 (by decide)).trans (W3_arg8 m ρ c)

theorem W4_arg9 : W4 m ρ c (Proc.devRef .tc main_arg9) = m ((c : Thread nD τ).loc main_arg9) := (W4_of_ne m ρ c main_arg9 (by decide)).trans (W3_arg9 m ρ c)

theorem W4_arg10 : W4 m ρ c (Proc.devRef .tc main_arg10) = m ((c : Thread nD τ).loc main_arg10) := (W4_of_ne m ρ c main_arg10 (by decide)).trans (W3_arg10 m ρ c)

theorem W4_v11 : W4 m ρ c (Proc.devRef .tc main_v11) = dinv (m ((c : Thread nD τ).loc main_arg1)) := (W4_of_ne m ρ c main_v11 (by decide)).trans (W3_v11 m ρ c)

theorem W4_v12 : W4 m ρ c (Proc.devRef .tc main_v12) = dinv (m ((c : Thread nD τ).loc main_arg2)) := (W4_of_ne m ρ c main_v12 (by decide)).trans (W3_v12 m ρ c)

theorem W4_arg1 : W4 m ρ c (Proc.devRef .tc main_arg1) = m ((c : Thread nD τ).loc main_arg1) := (W4_of_ne m ρ c main_arg1 (by decide)).trans (W3_arg1 m ρ c)

theorem W4_arg2 : W4 m ρ c (Proc.devRef .tc main_arg2) = m ((c : Thread nD τ).loc main_arg2) := (W4_of_ne m ρ c main_arg2 (by decide)).trans (W3_arg2 m ρ c)

theorem W4_arg6 : W4 m ρ c (Proc.devRef .tc main_arg6) = m ((c : Thread nD τ).loc main_arg6) := (W4_of_ne m ρ c main_arg6 (by decide)).trans (W3_arg6 m ρ c)

theorem W4_arg7 : W4 m ρ c (Proc.devRef .tc main_arg7) = m ((c : Thread nD τ).loc main_arg7) := (W4_of_ne m ρ c main_arg7 (by decide)).trans (W3_arg7 m ρ c)

theorem W4_v87 : W4 m ρ c (Proc.devRef .tc main_v87) = H1 m c := by
  refine (W4_arr m ρ c 3).trans ((Cert.KernelIdeal.RegionValue.final1 (V3 m ρ) c).trans ?_)
  show Cert.Spec.affRelu (W3 m ρ c (Proc.devRef .tc main_v36)) (W3 m ρ c (Proc.devRef .tc main_v79)) (W3 m ρ c (Proc.devRef .tc main_v86)) = _
  rw [W3_v36 m ρ c, W3_v79 m ρ c, W3_v86 m ρ c] <;> rfl

/-! ## After host stretch 2 (entry of region 2) -/

set_option maxHeartbeats 16000000 in
theorem W5_arg11 : W5 m ρ c (Proc.devRef .tc main_arg11) = m ((c : Thread nD τ).loc main_arg11) := by
  show StableHlo.after hostOps2 (W4 m ρ c) (Proc.devRef .tc main_arg11) = _
  after_results_simp <;> exact W4_arg11 m ρ c

set_option maxHeartbeats 16000000 in
theorem W5_arg3 : W5 m ρ c (Proc.devRef .tc main_arg3) = m ((c : Thread nD τ).loc main_arg3) := by
  show StableHlo.after hostOps2 (W4 m ρ c) (Proc.devRef .tc main_arg3) = _
  after_results_simp <;> exact W4_arg3 m ρ c

set_option maxHeartbeats 16000000 in
theorem W5_arg12 : W5 m ρ c (Proc.devRef .tc main_arg12) = m ((c : Thread nD τ).loc main_arg12) := by
  show StableHlo.after hostOps2 (W4 m ρ c) (Proc.devRef .tc main_arg12) = _
  after_results_simp <;> exact W4_arg12 m ρ c

set_option maxHeartbeats 16000000 in
theorem W5_v18 : W5 m ρ c (Proc.devRef .tc main_v18) = counts (m ((c : Thread nD τ).loc main_arg3)) := by
  show StableHlo.after hostOps2 (W4 m ρ c) (Proc.devRef .tc main_v18) = _
  after_results_simp <;> exact W4_v18 m ρ c

set_option maxHeartbeats 16000000 in
theorem W5_arg8 : W5 m ρ c (Proc.devRef .tc main_arg8) = m ((c : Thread nD τ).loc main_arg8) := by
  show StableHlo.after hostOps2 (W4 m ρ c) (Proc.devRef .tc main_arg8) = _
  after_results_simp <;> exact W4_arg8 m ρ c

set_option maxHeartbeats 16000000 in
theorem W5_arg9 : W5 m ρ c (Proc.devRef .tc main_arg9) = m ((c : Thread nD τ).loc main_arg9) := by
  show StableHlo.after hostOps2 (W4 m ρ c) (Proc.devRef .tc main_arg9) = _
  after_results_simp <;> exact W4_arg9 m ρ c

set_option maxHeartbeats 16000000 in
theorem W5_arg10 : W5 m ρ c (Proc.devRef .tc main_arg10) = m ((c : Thread nD τ).loc main_arg10) := by
  show StableHlo.after hostOps2 (W4 m ρ c) (Proc.devRef .tc main_arg10) = _
  after_results_simp <;> exact W4_arg10 m ρ c

set_option maxHeartbeats 16000000 in
theorem W5_v11 : W5 m ρ c (Proc.devRef .tc main_v11) = dinv (m ((c : Thread nD τ).loc main_arg1)) := by
  show StableHlo.after hostOps2 (W4 m ρ c) (Proc.devRef .tc main_v11) = _
  after_results_simp <;> exact W4_v11 m ρ c

set_option maxHeartbeats 16000000 in
theorem W5_v12 : W5 m ρ c (Proc.devRef .tc main_v12) = dinv (m ((c : Thread nD τ).loc main_arg2)) := by
  show StableHlo.after hostOps2 (W4 m ρ c) (Proc.devRef .tc main_v12) = _
  after_results_simp <;> exact W4_v12 m ρ c

set_option maxHeartbeats 16000000 in
theorem W5_arg1 : W5 m ρ c (Proc.devRef .tc main_arg1) = m ((c : Thread nD τ).loc main_arg1) := by
  show StableHlo.after hostOps2 (W4 m ρ c) (Proc.devRef .tc main_arg1) = _
  after_results_simp <;> exact W4_arg1 m ρ c

set_option maxHeartbeats 16000000 in
theorem W5_arg2 : W5 m ρ c (Proc.devRef .tc main_arg2) = m ((c : Thread nD τ).loc main_arg2) := by
  show StableHlo.after hostOps2 (W4 m ρ c) (Proc.devRef .tc main_arg2) = _
  after_results_simp <;> exact W4_arg2 m ρ c

set_option maxHeartbeats 16000000 in
theorem W5_arg6 : W5 m ρ c (Proc.devRef .tc main_arg6) = m ((c : Thread nD τ).loc main_arg6) := by
  show StableHlo.after hostOps2 (W4 m ρ c) (Proc.devRef .tc main_arg6) = _
  after_results_simp <;> exact W4_arg6 m ρ c

set_option maxHeartbeats 16000000 in
theorem W5_arg7 : W5 m ρ c (Proc.devRef .tc main_arg7) = m ((c : Thread nD τ).loc main_arg7) := by
  show StableHlo.after hostOps2 (W4 m ρ c) (Proc.devRef .tc main_arg7) = _
  after_results_simp <;> exact W4_arg7 m ρ c

set_option maxHeartbeats 16000000 in
theorem W5_v87 : W5 m ρ c (Proc.devRef .tc main_v87) = H1 m c := by
  show StableHlo.after hostOps2 (W4 m ρ c) (Proc.devRef .tc main_v87) = _
  after_results_simp <;> exact W4_v87 m ρ c

set_option maxHeartbeats 16000000 in
theorem W5_v107 : W5 m ρ c (Proc.devRef .tc main_v107) = agg256 (H1 m c) (dinv (m ((c : Thread nD τ).loc main_arg1))) (dinv (m ((c : Thread nD τ).loc main_arg2))) (m ((c : Thread nD τ).loc main_arg1)) (m ((c : Thread nD τ).loc main_arg2)) := by
  show StableHlo.after hostOps2 (W4 m ρ c) (Proc.devRef .tc main_v107) = _
  after_results_simp
  simp only [W4_v87 m ρ c, W4_v11 m ρ c, W4_v12 m ρ c, W4_arg1 m ρ c, W4_arg2 m ρ c, W4_arg6 m ρ c, W4_arg7 m ρ c]
  rfl

set_option maxHeartbeats 16000000 in
theorem W5_v89 : W5 m ρ c (Proc.devRef .tc main_v89) = mat3_0 (m ((c : Thread nD τ).loc main_arg6)) := by
  show StableHlo.after hostOps2 (W4 m ρ c) (Proc.devRef .tc main_v89) = _
  after_results_simp
  simp only [W4_v87 m ρ c, W4_v11 m ρ c, W4_v12 m ρ c, W4_arg1 m ρ c, W4_arg2 m ρ c, W4_arg6 m ρ c, W4_arg7 m ρ c]
  rfl

set_option maxHeartbeats 16000000 in
theorem W5_v108 : W5 m ρ c (Proc.devRef .tc main_v108) = shapeCast S1x256 (row3_0 (m ((c : Thread nD τ).loc main_arg7))) Facts₀.shapeCasts_S256_S1x256 := by
  show StableHlo.after hostOps2 (W4 m ρ c) (Proc.devRef .tc main_v108) = _
  after_results_simp
  simp only [W4_v87 m ρ c, W4_v11 m ρ c, W4_v12 m ρ c, W4_arg1 m ρ c, W4_arg2 m ρ c, W4_arg6 m ρ c, W4_arg7 m ρ c]
  rfl

/-! ## After region 2 -/

theorem W6_arg11 : W6 m ρ c (Proc.devRef .tc main_arg11) = m ((c : Thread nD τ).loc main_arg11) := (W6_of_ne m ρ c main_arg11 (by decide)).trans (W5_arg11 m ρ c)

theorem W6_arg3 : W6 m ρ c (Proc.devRef .tc main_arg3) = m ((c : Thread nD τ).loc main_arg3) := (W6_of_ne m ρ c main_arg3 (by decide)).trans (W5_arg3 m ρ c)

theorem W6_arg12 : W6 m ρ c (Proc.devRef .tc main_arg12) = m ((c : Thread nD τ).loc main_arg12) := (W6_of_ne m ρ c main_arg12 (by decide)).trans (W5_arg12 m ρ c)

theorem W6_v18 : W6 m ρ c (Proc.devRef .tc main_v18) = counts (m ((c : Thread nD τ).loc main_arg3)) := (W6_of_ne m ρ c main_v18 (by decide)).trans (W5_v18 m ρ c)

theorem W6_arg8 : W6 m ρ c (Proc.devRef .tc main_arg8) = m ((c : Thread nD τ).loc main_arg8) := (W6_of_ne m ρ c main_arg8 (by decide)).trans (W5_arg8 m ρ c)

theorem W6_arg9 : W6 m ρ c (Proc.devRef .tc main_arg9) = m ((c : Thread nD τ).loc main_arg9) := (W6_of_ne m ρ c main_arg9 (by decide)).trans (W5_arg9 m ρ c)

theorem W6_arg10 : W6 m ρ c (Proc.devRef .tc main_arg10) = m ((c : Thread nD τ).loc main_arg10) := (W6_of_ne m ρ c main_arg10 (by decide)).trans (W5_arg10 m ρ c)

theorem W6_v11 : W6 m ρ c (Proc.devRef .tc main_v11) = dinv (m ((c : Thread nD τ).loc main_arg1)) := (W6_of_ne m ρ c main_v11 (by decide)).trans (W5_v11 m ρ c)

theorem W6_v12 : W6 m ρ c (Proc.devRef .tc main_v12) = dinv (m ((c : Thread nD τ).loc main_arg2)) := (W6_of_ne m ρ c main_v12 (by decide)).trans (W5_v12 m ρ c)

theorem W6_arg1 : W6 m ρ c (Proc.devRef .tc main_arg1) = m ((c : Thread nD τ).loc main_arg1) := (W6_of_ne m ρ c main_arg1 (by decide)).trans (W5_arg1 m ρ c)

theorem W6_arg2 : W6 m ρ c (Proc.devRef .tc main_arg2) = m ((c : Thread nD τ).loc main_arg2) := (W6_of_ne m ρ c main_arg2 (by decide)).trans (W5_arg2 m ρ c)

theorem W6_arg6 : W6 m ρ c (Proc.devRef .tc main_arg6) = m ((c : Thread nD τ).loc main_arg6) := (W6_of_ne m ρ c main_arg6 (by decide)).trans (W5_arg6 m ρ c)

theorem W6_arg7 : W6 m ρ c (Proc.devRef .tc main_arg7) = m ((c : Thread nD τ).loc main_arg7) := (W6_of_ne m ρ c main_arg7 (by decide)).trans (W5_arg7 m ρ c)

theorem W6_v109 : W6 m ρ c (Proc.devRef .tc main_v109) = X1 m c := by
  refine (W6_arr m ρ c 3).trans ((Cert.KernelIdeal.RegionValue.final2 (V5 m ρ) c).trans ?_)
  show Cert.Spec.linear 100000 256 256 (W5 m ρ c (Proc.devRef .tc main_v107)) (W5 m ρ c (Proc.devRef .tc main_v89)) (W5 m ρ c (Proc.devRef .tc main_v108)) = _
  rw [W5_v107 m ρ c, W5_v89 m ρ c, W5_v108 m ρ c] <;> rfl

theorem W6_v87 : W6 m ρ c (Proc.devRef .tc main_v87) = H1 m c := (W6_of_ne m ρ c main_v87 (by decide)).trans (W5_v87 m ρ c)

/-! ## After host stretch 3 (entry of region 3) -/

set_option maxHeartbeats 16000000 in
theorem W7_arg11 : W7 m ρ c (Proc.devRef .tc main_arg11) = m ((c : Thread nD τ).loc main_arg11) := by
  show StableHlo.after hostOps3 (W6 m ρ c) (Proc.devRef .tc main_arg11) = _
  after_results_simp <;> exact W6_arg11 m ρ c

set_option maxHeartbeats 16000000 in
theorem W7_arg3 : W7 m ρ c (Proc.devRef .tc main_arg3) = m ((c : Thread nD τ).loc main_arg3) := by
  show StableHlo.after hostOps3 (W6 m ρ c) (Proc.devRef .tc main_arg3) = _
  after_results_simp <;> exact W6_arg3 m ρ c

set_option maxHeartbeats 16000000 in
theorem W7_arg12 : W7 m ρ c (Proc.devRef .tc main_arg12) = m ((c : Thread nD τ).loc main_arg12) := by
  show StableHlo.after hostOps3 (W6 m ρ c) (Proc.devRef .tc main_arg12) = _
  after_results_simp <;> exact W6_arg12 m ρ c

set_option maxHeartbeats 16000000 in
theorem W7_v18 : W7 m ρ c (Proc.devRef .tc main_v18) = counts (m ((c : Thread nD τ).loc main_arg3)) := by
  show StableHlo.after hostOps3 (W6 m ρ c) (Proc.devRef .tc main_v18) = _
  after_results_simp <;> exact W6_v18 m ρ c

set_option maxHeartbeats 16000000 in
theorem W7_arg8 : W7 m ρ c (Proc.devRef .tc main_arg8) = m ((c : Thread nD τ).loc main_arg8) := by
  show StableHlo.after hostOps3 (W6 m ρ c) (Proc.devRef .tc main_arg8) = _
  after_results_simp <;> exact W6_arg8 m ρ c

set_option maxHeartbeats 16000000 in
theorem W7_arg9 : W7 m ρ c (Proc.devRef .tc main_arg9) = m ((c : Thread nD τ).loc main_arg9) := by
  show StableHlo.after hostOps3 (W6 m ρ c) (Proc.devRef .tc main_arg9) = _
  after_results_simp <;> exact W6_arg9 m ρ c

set_option maxHeartbeats 16000000 in
theorem W7_arg10 : W7 m ρ c (Proc.devRef .tc main_arg10) = m ((c : Thread nD τ).loc main_arg10) := by
  show StableHlo.after hostOps3 (W6 m ρ c) (Proc.devRef .tc main_arg10) = _
  after_results_simp <;> exact W6_arg10 m ρ c

set_option maxHeartbeats 16000000 in
theorem W7_v11 : W7 m ρ c (Proc.devRef .tc main_v11) = dinv (m ((c : Thread nD τ).loc main_arg1)) := by
  show StableHlo.after hostOps3 (W6 m ρ c) (Proc.devRef .tc main_v11) = _
  after_results_simp <;> exact W6_v11 m ρ c

set_option maxHeartbeats 16000000 in
theorem W7_v12 : W7 m ρ c (Proc.devRef .tc main_v12) = dinv (m ((c : Thread nD τ).loc main_arg2)) := by
  show StableHlo.after hostOps3 (W6 m ρ c) (Proc.devRef .tc main_v12) = _
  after_results_simp <;> exact W6_v12 m ρ c

set_option maxHeartbeats 16000000 in
theorem W7_arg1 : W7 m ρ c (Proc.devRef .tc main_arg1) = m ((c : Thread nD τ).loc main_arg1) := by
  show StableHlo.after hostOps3 (W6 m ρ c) (Proc.devRef .tc main_arg1) = _
  after_results_simp <;> exact W6_arg1 m ρ c

set_option maxHeartbeats 16000000 in
theorem W7_arg2 : W7 m ρ c (Proc.devRef .tc main_arg2) = m ((c : Thread nD τ).loc main_arg2) := by
  show StableHlo.after hostOps3 (W6 m ρ c) (Proc.devRef .tc main_arg2) = _
  after_results_simp <;> exact W6_arg2 m ρ c

set_option maxHeartbeats 16000000 in
theorem W7_arg6 : W7 m ρ c (Proc.devRef .tc main_arg6) = m ((c : Thread nD τ).loc main_arg6) := by
  show StableHlo.after hostOps3 (W6 m ρ c) (Proc.devRef .tc main_arg6) = _
  after_results_simp <;> exact W6_arg6 m ρ c

set_option maxHeartbeats 16000000 in
theorem W7_arg7 : W7 m ρ c (Proc.devRef .tc main_arg7) = m ((c : Thread nD τ).loc main_arg7) := by
  show StableHlo.after hostOps3 (W6 m ρ c) (Proc.devRef .tc main_arg7) = _
  after_results_simp <;> exact W6_arg7 m ρ c

set_option maxHeartbeats 16000000 in
theorem W7_v109 : W7 m ρ c (Proc.devRef .tc main_v109) = X1 m c := by
  show StableHlo.after hostOps3 (W6 m ρ c) (Proc.devRef .tc main_v109) = _
  after_results_simp <;> exact W6_v109 m ρ c

set_option maxHeartbeats 16000000 in
theorem W7_v152 : W7 m ρ c (Proc.devRef .tc main_v152) = scaleK (X1 m c) (counts (m ((c : Thread nD τ).loc main_arg3))) (m ((c : Thread nD τ).loc main_arg3)) (row4_1 (m ((c : Thread nD τ).loc main_arg8))) (row4_1 (m ((c : Thread nD τ).loc main_arg10))) := by
  show StableHlo.after hostOps3 (W6 m ρ c) (Proc.devRef .tc main_v152) = _
  after_results_simp
  simp only [W6_v109 m ρ c, W6_v18 m ρ c, W6_arg3 m ρ c, W6_arg8 m ρ c, W6_arg9 m ρ c, W6_arg10 m ρ c]
  rfl

set_option maxHeartbeats 16000000 in
theorem W7_v159 : W7 m ρ c (Proc.devRef .tc main_v159) = shiftK (X1 m c) (counts (m ((c : Thread nD τ).loc main_arg3))) (m ((c : Thread nD τ).loc main_arg3)) (row4_1 (m ((c : Thread nD τ).loc main_arg8))) (row4_1 (m ((c : Thread nD τ).loc main_arg9))) (row4_1 (m ((c : Thread nD τ).loc main_arg10))) := by
  show StableHlo.after hostOps3 (W6 m ρ c) (Proc.devRef .tc main_v159) = _
  after_results_simp
  simp only [W6_v109 m ρ c, W6_v18 m ρ c, W6_arg3 m ρ c, W6_arg8 m ρ c, W6_arg9 m ρ c, W6_arg10 m ρ c]
  rfl

set_option maxHeartbeats 16000000 in
theorem W7_v87 : W7 m ρ c (Proc.devRef .tc main_v87) = H1 m c := by
  show StableHlo.after hostOps3 (W6 m ρ c) (Proc.devRef .tc main_v87) = _
  after_results_simp <;> exact W6_v87 m ρ c

/-! ## After region 3 -/

theorem W8_arg11 : W8 m ρ c (Proc.devRef .tc main_arg11) = m ((c : Thread nD τ).loc main_arg11) := (W8_of_ne m ρ c main_arg11 (by decide)).trans (W7_arg11 m ρ c)

theorem W8_arg3 : W8 m ρ c (Proc.devRef .tc main_arg3) = m ((c : Thread nD τ).loc main_arg3) := (W8_of_ne m ρ c main_arg3 (by decide)).trans (W7_arg3 m ρ c)

theorem W8_arg12 : W8 m ρ c (Proc.devRef .tc main_arg12) = m ((c : Thread nD τ).loc main_arg12) := (W8_of_ne m ρ c main_arg12 (by decide)).trans (W7_arg12 m ρ c)

theorem W8_v18 : W8 m ρ c (Proc.devRef .tc main_v18) = counts (m ((c : Thread nD τ).loc main_arg3)) := (W8_of_ne m ρ c main_v18 (by decide)).trans (W7_v18 m ρ c)

theorem W8_arg8 : W8 m ρ c (Proc.devRef .tc main_arg8) = m ((c : Thread nD τ).loc main_arg8) := (W8_of_ne m ρ c main_arg8 (by decide)).trans (W7_arg8 m ρ c)

theorem W8_arg9 : W8 m ρ c (Proc.devRef .tc main_arg9) = m ((c : Thread nD τ).loc main_arg9) := (W8_of_ne m ρ c main_arg9 (by decide)).trans (W7_arg9 m ρ c)

theorem W8_arg10 : W8 m ρ c (Proc.devRef .tc main_arg10) = m ((c : Thread nD τ).loc main_arg10) := (W8_of_ne m ρ c main_arg10 (by decide)).trans (W7_arg10 m ρ c)

theorem W8_v11 : W8 m ρ c (Proc.devRef .tc main_v11) = dinv (m ((c : Thread nD τ).loc main_arg1)) := (W8_of_ne m ρ c main_v11 (by decide)).trans (W7_v11 m ρ c)

theorem W8_v12 : W8 m ρ c (Proc.devRef .tc main_v12) = dinv (m ((c : Thread nD τ).loc main_arg2)) := (W8_of_ne m ρ c main_v12 (by decide)).trans (W7_v12 m ρ c)

theorem W8_arg1 : W8 m ρ c (Proc.devRef .tc main_arg1) = m ((c : Thread nD τ).loc main_arg1) := (W8_of_ne m ρ c main_arg1 (by decide)).trans (W7_arg1 m ρ c)

theorem W8_arg2 : W8 m ρ c (Proc.devRef .tc main_arg2) = m ((c : Thread nD τ).loc main_arg2) := (W8_of_ne m ρ c main_arg2 (by decide)).trans (W7_arg2 m ρ c)

theorem W8_arg6 : W8 m ρ c (Proc.devRef .tc main_arg6) = m ((c : Thread nD τ).loc main_arg6) := (W8_of_ne m ρ c main_arg6 (by decide)).trans (W7_arg6 m ρ c)

theorem W8_arg7 : W8 m ρ c (Proc.devRef .tc main_arg7) = m ((c : Thread nD τ).loc main_arg7) := (W8_of_ne m ρ c main_arg7 (by decide)).trans (W7_arg7 m ρ c)

theorem W8_v160 : W8 m ρ c (Proc.devRef .tc main_v160) = H2 m c := by
  refine (W8_arr m ρ c 4).trans ((Cert.KernelIdeal.RegionValue.final3 (V7 m ρ) c).trans ?_)
  show Cert.Spec.affReluRes (W7 m ρ c (Proc.devRef .tc main_v109)) (W7 m ρ c (Proc.devRef .tc main_v152)) (W7 m ρ c (Proc.devRef .tc main_v159)) (W7 m ρ c (Proc.devRef .tc main_v87)) = _
  rw [W7_v109 m ρ c, W7_v152 m ρ c, W7_v159 m ρ c, W7_v87 m ρ c] <;> rfl

/-! ## After host stretch 4 (entry of region 4) -/

set_option maxHeartbeats 16000000 in
theorem W9_arg11 : W9 m ρ c (Proc.devRef .tc main_arg11) = m ((c : Thread nD τ).loc main_arg11) := by
  show StableHlo.after hostOps4 (W8 m ρ c) (Proc.devRef .tc main_arg11) = _
  after_results_simp <;> exact W8_arg11 m ρ c

set_option maxHeartbeats 16000000 in
theorem W9_arg3 : W9 m ρ c (Proc.devRef .tc main_arg3) = m ((c : Thread nD τ).loc main_arg3) := by
  show StableHlo.after hostOps4 (W8 m ρ c) (Proc.devRef .tc main_arg3) = _
  after_results_simp <;> exact W8_arg3 m ρ c

set_option maxHeartbeats 16000000 in
theorem W9_arg12 : W9 m ρ c (Proc.devRef .tc main_arg12) = m ((c : Thread nD τ).loc main_arg12) := by
  show StableHlo.after hostOps4 (W8 m ρ c) (Proc.devRef .tc main_arg12) = _
  after_results_simp <;> exact W8_arg12 m ρ c

set_option maxHeartbeats 16000000 in
theorem W9_v18 : W9 m ρ c (Proc.devRef .tc main_v18) = counts (m ((c : Thread nD τ).loc main_arg3)) := by
  show StableHlo.after hostOps4 (W8 m ρ c) (Proc.devRef .tc main_v18) = _
  after_results_simp <;> exact W8_v18 m ρ c

set_option maxHeartbeats 16000000 in
theorem W9_arg8 : W9 m ρ c (Proc.devRef .tc main_arg8) = m ((c : Thread nD τ).loc main_arg8) := by
  show StableHlo.after hostOps4 (W8 m ρ c) (Proc.devRef .tc main_arg8) = _
  after_results_simp <;> exact W8_arg8 m ρ c

set_option maxHeartbeats 16000000 in
theorem W9_arg9 : W9 m ρ c (Proc.devRef .tc main_arg9) = m ((c : Thread nD τ).loc main_arg9) := by
  show StableHlo.after hostOps4 (W8 m ρ c) (Proc.devRef .tc main_arg9) = _
  after_results_simp <;> exact W8_arg9 m ρ c

set_option maxHeartbeats 16000000 in
theorem W9_arg10 : W9 m ρ c (Proc.devRef .tc main_arg10) = m ((c : Thread nD τ).loc main_arg10) := by
  show StableHlo.after hostOps4 (W8 m ρ c) (Proc.devRef .tc main_arg10) = _
  after_results_simp <;> exact W8_arg10 m ρ c

set_option maxHeartbeats 16000000 in
theorem W9_v11 : W9 m ρ c (Proc.devRef .tc main_v11) = dinv (m ((c : Thread nD τ).loc main_arg1)) := by
  show StableHlo.after hostOps4 (W8 m ρ c) (Proc.devRef .tc main_v11) = _
  after_results_simp <;> exact W8_v11 m ρ c

set_option maxHeartbeats 16000000 in
theorem W9_v12 : W9 m ρ c (Proc.devRef .tc main_v12) = dinv (m ((c : Thread nD τ).loc main_arg2)) := by
  show StableHlo.after hostOps4 (W8 m ρ c) (Proc.devRef .tc main_v12) = _
  after_results_simp <;> exact W8_v12 m ρ c

set_option maxHeartbeats 16000000 in
theorem W9_arg1 : W9 m ρ c (Proc.devRef .tc main_arg1) = m ((c : Thread nD τ).loc main_arg1) := by
  show StableHlo.after hostOps4 (W8 m ρ c) (Proc.devRef .tc main_arg1) = _
  after_results_simp <;> exact W8_arg1 m ρ c

set_option maxHeartbeats 16000000 in
theorem W9_arg2 : W9 m ρ c (Proc.devRef .tc main_arg2) = m ((c : Thread nD τ).loc main_arg2) := by
  show StableHlo.after hostOps4 (W8 m ρ c) (Proc.devRef .tc main_arg2) = _
  after_results_simp <;> exact W8_arg2 m ρ c

set_option maxHeartbeats 16000000 in
theorem W9_arg6 : W9 m ρ c (Proc.devRef .tc main_arg6) = m ((c : Thread nD τ).loc main_arg6) := by
  show StableHlo.after hostOps4 (W8 m ρ c) (Proc.devRef .tc main_arg6) = _
  after_results_simp <;> exact W8_arg6 m ρ c

set_option maxHeartbeats 16000000 in
theorem W9_arg7 : W9 m ρ c (Proc.devRef .tc main_arg7) = m ((c : Thread nD τ).loc main_arg7) := by
  show StableHlo.after hostOps4 (W8 m ρ c) (Proc.devRef .tc main_arg7) = _
  after_results_simp <;> exact W8_arg7 m ρ c

set_option maxHeartbeats 16000000 in
theorem W9_v160 : W9 m ρ c (Proc.devRef .tc main_v160) = H2 m c := by
  show StableHlo.after hostOps4 (W8 m ρ c) (Proc.devRef .tc main_v160) = _
  after_results_simp <;> exact W8_v160 m ρ c

set_option maxHeartbeats 16000000 in
theorem W9_v180 : W9 m ρ c (Proc.devRef .tc main_v180) = agg256 (H2 m c) (dinv (m ((c : Thread nD τ).loc main_arg1))) (dinv (m ((c : Thread nD τ).loc main_arg2))) (m ((c : Thread nD τ).loc main_arg1)) (m ((c : Thread nD τ).loc main_arg2)) := by
  show StableHlo.after hostOps4 (W8 m ρ c) (Proc.devRef .tc main_v180) = _
  after_results_simp
  simp only [W8_v160 m ρ c, W8_v11 m ρ c, W8_v12 m ρ c, W8_arg1 m ρ c, W8_arg2 m ρ c, W8_arg6 m ρ c, W8_arg7 m ρ c]
  rfl

set_option maxHeartbeats 16000000 in
theorem W9_v162 : W9 m ρ c (Proc.devRef .tc main_v162) = mat3_1 (m ((c : Thread nD τ).loc main_arg6)) := by
  show StableHlo.after hostOps4 (W8 m ρ c) (Proc.devRef .tc main_v162) = _
  after_results_simp
  simp only [W8_v160 m ρ c, W8_v11 m ρ c, W8_v12 m ρ c, W8_arg1 m ρ c, W8_arg2 m ρ c, W8_arg6 m ρ c, W8_arg7 m ρ c]
  rfl

set_option maxHeartbeats 16000000 in
theorem W9_v181 : W9 m ρ c (Proc.devRef .tc main_v181) = shapeCast S1x256 (row3_1 (m ((c : Thread nD τ).loc main_arg7))) Facts₀.shapeCasts_S256_S1x256 := by
  show StableHlo.after hostOps4 (W8 m ρ c) (Proc.devRef .tc main_v181) = _
  after_results_simp
  simp only [W8_v160 m ρ c, W8_v11 m ρ c, W8_v12 m ρ c, W8_arg1 m ρ c, W8_arg2 m ρ c, W8_arg6 m ρ c, W8_arg7 m ρ c]
  rfl

/-! ## After region 4 -/

theorem W10_arg11 : W10 m ρ c (Proc.devRef .tc main_arg11) = m ((c : Thread nD τ).loc main_arg11) := (W10_of_ne m ρ c main_arg11 (by decide)).trans (W9_arg11 m ρ c)

theorem W10_arg3 : W10 m ρ c (Proc.devRef .tc main_arg3) = m ((c : Thread nD τ).loc main_arg3) := (W10_of_ne m ρ c main_arg3 (by decide)).trans (W9_arg3 m ρ c)

theorem W10_arg12 : W10 m ρ c (Proc.devRef .tc main_arg12) = m ((c : Thread nD τ).loc main_arg12) := (W10_of_ne m ρ c main_arg12 (by decide)).trans (W9_arg12 m ρ c)

theorem W10_v18 : W10 m ρ c (Proc.devRef .tc main_v18) = counts (m ((c : Thread nD τ).loc main_arg3)) := (W10_of_ne m ρ c main_v18 (by decide)).trans (W9_v18 m ρ c)

theorem W10_arg8 : W10 m ρ c (Proc.devRef .tc main_arg8) = m ((c : Thread nD τ).loc main_arg8) := (W10_of_ne m ρ c main_arg8 (by decide)).trans (W9_arg8 m ρ c)

theorem W10_arg9 : W10 m ρ c (Proc.devRef .tc main_arg9) = m ((c : Thread nD τ).loc main_arg9) := (W10_of_ne m ρ c main_arg9 (by decide)).trans (W9_arg9 m ρ c)

theorem W10_arg10 : W10 m ρ c (Proc.devRef .tc main_arg10) = m ((c : Thread nD τ).loc main_arg10) := (W10_of_ne m ρ c main_arg10 (by decide)).trans (W9_arg10 m ρ c)

theorem W10_v11 : W10 m ρ c (Proc.devRef .tc main_v11) = dinv (m ((c : Thread nD τ).loc main_arg1)) := (W10_of_ne m ρ c main_v11 (by decide)).trans (W9_v11 m ρ c)

theorem W10_v12 : W10 m ρ c (Proc.devRef .tc main_v12) = dinv (m ((c : Thread nD τ).loc main_arg2)) := (W10_of_ne m ρ c main_v12 (by decide)).trans (W9_v12 m ρ c)

theorem W10_arg1 : W10 m ρ c (Proc.devRef .tc main_arg1) = m ((c : Thread nD τ).loc main_arg1) := (W10_of_ne m ρ c main_arg1 (by decide)).trans (W9_arg1 m ρ c)

theorem W10_arg2 : W10 m ρ c (Proc.devRef .tc main_arg2) = m ((c : Thread nD τ).loc main_arg2) := (W10_of_ne m ρ c main_arg2 (by decide)).trans (W9_arg2 m ρ c)

theorem W10_arg6 : W10 m ρ c (Proc.devRef .tc main_arg6) = m ((c : Thread nD τ).loc main_arg6) := (W10_of_ne m ρ c main_arg6 (by decide)).trans (W9_arg6 m ρ c)

theorem W10_arg7 : W10 m ρ c (Proc.devRef .tc main_arg7) = m ((c : Thread nD τ).loc main_arg7) := (W10_of_ne m ρ c main_arg7 (by decide)).trans (W9_arg7 m ρ c)

theorem W10_v182 : W10 m ρ c (Proc.devRef .tc main_v182) = X2 m c := by
  refine (W10_arr m ρ c 3).trans ((Cert.KernelIdeal.RegionValue.final4 (V9 m ρ) c).trans ?_)
  show Cert.Spec.linear 100000 256 256 (W9 m ρ c (Proc.devRef .tc main_v180)) (W9 m ρ c (Proc.devRef .tc main_v162)) (W9 m ρ c (Proc.devRef .tc main_v181)) = _
  rw [W9_v180 m ρ c, W9_v162 m ρ c, W9_v181 m ρ c] <;> rfl

theorem W10_v160 : W10 m ρ c (Proc.devRef .tc main_v160) = H2 m c := (W10_of_ne m ρ c main_v160 (by decide)).trans (W9_v160 m ρ c)

/-! ## After host stretch 5 (entry of region 5) -/

set_option maxHeartbeats 16000000 in
theorem W11_arg11 : W11 m ρ c (Proc.devRef .tc main_arg11) = m ((c : Thread nD τ).loc main_arg11) := by
  show StableHlo.after hostOps5 (W10 m ρ c) (Proc.devRef .tc main_arg11) = _
  after_results_simp <;> exact W10_arg11 m ρ c

set_option maxHeartbeats 16000000 in
theorem W11_arg3 : W11 m ρ c (Proc.devRef .tc main_arg3) = m ((c : Thread nD τ).loc main_arg3) := by
  show StableHlo.after hostOps5 (W10 m ρ c) (Proc.devRef .tc main_arg3) = _
  after_results_simp <;> exact W10_arg3 m ρ c

set_option maxHeartbeats 16000000 in
theorem W11_arg12 : W11 m ρ c (Proc.devRef .tc main_arg12) = m ((c : Thread nD τ).loc main_arg12) := by
  show StableHlo.after hostOps5 (W10 m ρ c) (Proc.devRef .tc main_arg12) = _
  after_results_simp <;> exact W10_arg12 m ρ c

set_option maxHeartbeats 16000000 in
theorem W11_v18 : W11 m ρ c (Proc.devRef .tc main_v18) = counts (m ((c : Thread nD τ).loc main_arg3)) := by
  show StableHlo.after hostOps5 (W10 m ρ c) (Proc.devRef .tc main_v18) = _
  after_results_simp <;> exact W10_v18 m ρ c

set_option maxHeartbeats 16000000 in
theorem W11_arg8 : W11 m ρ c (Proc.devRef .tc main_arg8) = m ((c : Thread nD τ).loc main_arg8) := by
  show StableHlo.after hostOps5 (W10 m ρ c) (Proc.devRef .tc main_arg8) = _
  after_results_simp <;> exact W10_arg8 m ρ c

set_option maxHeartbeats 16000000 in
theorem W11_arg9 : W11 m ρ c (Proc.devRef .tc main_arg9) = m ((c : Thread nD τ).loc main_arg9) := by
  show StableHlo.after hostOps5 (W10 m ρ c) (Proc.devRef .tc main_arg9) = _
  after_results_simp <;> exact W10_arg9 m ρ c

set_option maxHeartbeats 16000000 in
theorem W11_arg10 : W11 m ρ c (Proc.devRef .tc main_arg10) = m ((c : Thread nD τ).loc main_arg10) := by
  show StableHlo.after hostOps5 (W10 m ρ c) (Proc.devRef .tc main_arg10) = _
  after_results_simp <;> exact W10_arg10 m ρ c

set_option maxHeartbeats 16000000 in
theorem W11_v11 : W11 m ρ c (Proc.devRef .tc main_v11) = dinv (m ((c : Thread nD τ).loc main_arg1)) := by
  show StableHlo.after hostOps5 (W10 m ρ c) (Proc.devRef .tc main_v11) = _
  after_results_simp <;> exact W10_v11 m ρ c

set_option maxHeartbeats 16000000 in
theorem W11_v12 : W11 m ρ c (Proc.devRef .tc main_v12) = dinv (m ((c : Thread nD τ).loc main_arg2)) := by
  show StableHlo.after hostOps5 (W10 m ρ c) (Proc.devRef .tc main_v12) = _
  after_results_simp <;> exact W10_v12 m ρ c

set_option maxHeartbeats 16000000 in
theorem W11_arg1 : W11 m ρ c (Proc.devRef .tc main_arg1) = m ((c : Thread nD τ).loc main_arg1) := by
  show StableHlo.after hostOps5 (W10 m ρ c) (Proc.devRef .tc main_arg1) = _
  after_results_simp <;> exact W10_arg1 m ρ c

set_option maxHeartbeats 16000000 in
theorem W11_arg2 : W11 m ρ c (Proc.devRef .tc main_arg2) = m ((c : Thread nD τ).loc main_arg2) := by
  show StableHlo.after hostOps5 (W10 m ρ c) (Proc.devRef .tc main_arg2) = _
  after_results_simp <;> exact W10_arg2 m ρ c

set_option maxHeartbeats 16000000 in
theorem W11_arg6 : W11 m ρ c (Proc.devRef .tc main_arg6) = m ((c : Thread nD τ).loc main_arg6) := by
  show StableHlo.after hostOps5 (W10 m ρ c) (Proc.devRef .tc main_arg6) = _
  after_results_simp <;> exact W10_arg6 m ρ c

set_option maxHeartbeats 16000000 in
theorem W11_arg7 : W11 m ρ c (Proc.devRef .tc main_arg7) = m ((c : Thread nD τ).loc main_arg7) := by
  show StableHlo.after hostOps5 (W10 m ρ c) (Proc.devRef .tc main_arg7) = _
  after_results_simp <;> exact W10_arg7 m ρ c

set_option maxHeartbeats 16000000 in
theorem W11_v182 : W11 m ρ c (Proc.devRef .tc main_v182) = X2 m c := by
  show StableHlo.after hostOps5 (W10 m ρ c) (Proc.devRef .tc main_v182) = _
  after_results_simp <;> exact W10_v182 m ρ c

set_option maxHeartbeats 16000000 in
theorem W11_v225 : W11 m ρ c (Proc.devRef .tc main_v225) = scaleK (X2 m c) (counts (m ((c : Thread nD τ).loc main_arg3))) (m ((c : Thread nD τ).loc main_arg3)) (row4_2 (m ((c : Thread nD τ).loc main_arg8))) (row4_2 (m ((c : Thread nD τ).loc main_arg10))) := by
  show StableHlo.after hostOps5 (W10 m ρ c) (Proc.devRef .tc main_v225) = _
  after_results_simp
  simp only [W10_v182 m ρ c, W10_v18 m ρ c, W10_arg3 m ρ c, W10_arg8 m ρ c, W10_arg9 m ρ c, W10_arg10 m ρ c]
  rfl

set_option maxHeartbeats 16000000 in
theorem W11_v232 : W11 m ρ c (Proc.devRef .tc main_v232) = shiftK (X2 m c) (counts (m ((c : Thread nD τ).loc main_arg3))) (m ((c : Thread nD τ).loc main_arg3)) (row4_2 (m ((c : Thread nD τ).loc main_arg8))) (row4_2 (m ((c : Thread nD τ).loc main_arg9))) (row4_2 (m ((c : Thread nD τ).loc main_arg10))) := by
  show StableHlo.after hostOps5 (W10 m ρ c) (Proc.devRef .tc main_v232) = _
  after_results_simp
  simp only [W10_v182 m ρ c, W10_v18 m ρ c, W10_arg3 m ρ c, W10_arg8 m ρ c, W10_arg9 m ρ c, W10_arg10 m ρ c]
  rfl

set_option maxHeartbeats 16000000 in
theorem W11_v160 : W11 m ρ c (Proc.devRef .tc main_v160) = H2 m c := by
  show StableHlo.after hostOps5 (W10 m ρ c) (Proc.devRef .tc main_v160) = _
  after_results_simp <;> exact W10_v160 m ρ c

/-! ## After region 5 -/

theorem W12_arg11 : W12 m ρ c (Proc.devRef .tc main_arg11) = m ((c : Thread nD τ).loc main_arg11) := (W12_of_ne m ρ c main_arg11 (by decide)).trans (W11_arg11 m ρ c)

theorem W12_arg3 : W12 m ρ c (Proc.devRef .tc main_arg3) = m ((c : Thread nD τ).loc main_arg3) := (W12_of_ne m ρ c main_arg3 (by decide)).trans (W11_arg3 m ρ c)

theorem W12_arg12 : W12 m ρ c (Proc.devRef .tc main_arg12) = m ((c : Thread nD τ).loc main_arg12) := (W12_of_ne m ρ c main_arg12 (by decide)).trans (W11_arg12 m ρ c)

theorem W12_v233 : W12 m ρ c (Proc.devRef .tc main_v233) = H3 m c := by
  refine (W12_arr m ρ c 4).trans ((Cert.KernelIdeal.RegionValue.final5 (V11 m ρ) c).trans ?_)
  show Cert.Spec.affReluRes (W11 m ρ c (Proc.devRef .tc main_v182)) (W11 m ρ c (Proc.devRef .tc main_v225)) (W11 m ρ c (Proc.devRef .tc main_v232)) (W11 m ρ c (Proc.devRef .tc main_v160)) = _
  rw [W11_v182 m ρ c, W11_v225 m ρ c, W11_v232 m ρ c, W11_v160 m ρ c] <;> rfl

theorem W12_v18 : W12 m ρ c (Proc.devRef .tc main_v18) = counts (m ((c : Thread nD τ).loc main_arg3)) := (W12_of_ne m ρ c main_v18 (by decide)).trans (W11_v18 m ρ c)

theorem W12_arg8 : W12 m ρ c (Proc.devRef .tc main_arg8) = m ((c : Thread nD τ).loc main_arg8) := (W12_of_ne m ρ c main_arg8 (by decide)).trans (W11_arg8 m ρ c)

theorem W12_arg9 : W12 m ρ c (Proc.devRef .tc main_arg9) = m ((c : Thread nD τ).loc main_arg9) := (W12_of_ne m ρ c main_arg9 (by decide)).trans (W11_arg9 m ρ c)

theorem W12_arg10 : W12 m ρ c (Proc.devRef .tc main_arg10) = m ((c : Thread nD τ).loc main_arg10) := (W12_of_ne m ρ c main_arg10 (by decide)).trans (W11_arg10 m ρ c)

theorem W12_v11 : W12 m ρ c (Proc.devRef .tc main_v11) = dinv (m ((c : Thread nD τ).loc main_arg1)) := (W12_of_ne m ρ c main_v11 (by decide)).trans (W11_v11 m ρ c)

theorem W12_v12 : W12 m ρ c (Proc.devRef .tc main_v12) = dinv (m ((c : Thread nD τ).loc main_arg2)) := (W12_of_ne m ρ c main_v12 (by decide)).trans (W11_v12 m ρ c)

theorem W12_arg1 : W12 m ρ c (Proc.devRef .tc main_arg1) = m ((c : Thread nD τ).loc main_arg1) := (W12_of_ne m ρ c main_arg1 (by decide)).trans (W11_arg1 m ρ c)

theorem W12_arg2 : W12 m ρ c (Proc.devRef .tc main_arg2) = m ((c : Thread nD τ).loc main_arg2) := (W12_of_ne m ρ c main_arg2 (by decide)).trans (W11_arg2 m ρ c)

theorem W12_arg6 : W12 m ρ c (Proc.devRef .tc main_arg6) = m ((c : Thread nD τ).loc main_arg6) := (W12_of_ne m ρ c main_arg6 (by decide)).trans (W11_arg6 m ρ c)

theorem W12_arg7 : W12 m ρ c (Proc.devRef .tc main_arg7) = m ((c : Thread nD τ).loc main_arg7) := (W12_of_ne m ρ c main_arg7 (by decide)).trans (W11_arg7 m ρ c)

/-! ## After host stretch 6 (entry of region 6) -/

set_option maxHeartbeats 16000000 in
theorem W13_arg11 : W13 m ρ c (Proc.devRef .tc main_arg11) = m ((c : Thread nD τ).loc main_arg11) := by
  show StableHlo.after hostOps6 (W12 m ρ c) (Proc.devRef .tc main_arg11) = _
  after_results_simp <;> exact W12_arg11 m ρ c

set_option maxHeartbeats 16000000 in
theorem W13_arg3 : W13 m ρ c (Proc.devRef .tc main_arg3) = m ((c : Thread nD τ).loc main_arg3) := by
  show StableHlo.after hostOps6 (W12 m ρ c) (Proc.devRef .tc main_arg3) = _
  after_results_simp <;> exact W12_arg3 m ρ c

set_option maxHeartbeats 16000000 in
theorem W13_arg12 : W13 m ρ c (Proc.devRef .tc main_arg12) = m ((c : Thread nD τ).loc main_arg12) := by
  show StableHlo.after hostOps6 (W12 m ρ c) (Proc.devRef .tc main_arg12) = _
  after_results_simp <;> exact W12_arg12 m ρ c

set_option maxHeartbeats 16000000 in
theorem W13_v233 : W13 m ρ c (Proc.devRef .tc main_v233) = H3 m c := by
  show StableHlo.after hostOps6 (W12 m ρ c) (Proc.devRef .tc main_v233) = _
  after_results_simp <;> exact W12_v233 m ρ c

set_option maxHeartbeats 16000000 in
theorem W13_v18 : W13 m ρ c (Proc.devRef .tc main_v18) = counts (m ((c : Thread nD τ).loc main_arg3)) := by
  show StableHlo.after hostOps6 (W12 m ρ c) (Proc.devRef .tc main_v18) = _
  after_results_simp <;> exact W12_v18 m ρ c

set_option maxHeartbeats 16000000 in
theorem W13_arg8 : W13 m ρ c (Proc.devRef .tc main_arg8) = m ((c : Thread nD τ).loc main_arg8) := by
  show StableHlo.after hostOps6 (W12 m ρ c) (Proc.devRef .tc main_arg8) = _
  after_results_simp <;> exact W12_arg8 m ρ c

set_option maxHeartbeats 16000000 in
theorem W13_arg9 : W13 m ρ c (Proc.devRef .tc main_arg9) = m ((c : Thread nD τ).loc main_arg9) := by
  show StableHlo.after hostOps6 (W12 m ρ c) (Proc.devRef .tc main_arg9) = _
  after_results_simp <;> exact W12_arg9 m ρ c

set_option maxHeartbeats 16000000 in
theorem W13_arg10 : W13 m ρ c (Proc.devRef .tc main_arg10) = m ((c : Thread nD τ).loc main_arg10) := by
  show StableHlo.after hostOps6 (W12 m ρ c) (Proc.devRef .tc main_arg10) = _
  after_results_simp <;> exact W12_arg10 m ρ c

set_option maxHeartbeats 16000000 in
theorem W13_v253 : W13 m ρ c (Proc.devRef .tc main_v253) = agg256 (H3 m c) (dinv (m ((c : Thread nD τ).loc main_arg1))) (dinv (m ((c : Thread nD τ).loc main_arg2))) (m ((c : Thread nD τ).loc main_arg1)) (m ((c : Thread nD τ).loc main_arg2)) := by
  show StableHlo.after hostOps6 (W12 m ρ c) (Proc.devRef .tc main_v253) = _
  after_results_simp
  simp only [W12_v233 m ρ c, W12_v11 m ρ c, W12_v12 m ρ c, W12_arg1 m ρ c, W12_arg2 m ρ c, W12_arg6 m ρ c, W12_arg7 m ρ c]
  rfl

set_option maxHeartbeats 16000000 in
theorem W13_v235 : W13 m ρ c (Proc.devRef .tc main_v235) = mat3_2 (m ((c : Thread nD τ).loc main_arg6)) := by
  show StableHlo.after hostOps6 (W12 m ρ c) (Proc.devRef .tc main_v235) = _
  after_results_simp
  simp only [W12_v233 m ρ c, W12_v11 m ρ c, W12_v12 m ρ c, W12_arg1 m ρ c, W12_arg2 m ρ c, W12_arg6 m ρ c, W12_arg7 m ρ c]
  rfl

set_option maxHeartbeats 16000000 in
theorem W13_v254 : W13 m ρ c (Proc.devRef .tc main_v254) = shapeCast S1x256 (row3_2 (m ((c : Thread nD τ).loc main_arg7))) Facts₀.shapeCasts_S256_S1x256 := by
  show StableHlo.after hostOps6 (W12 m ρ c) (Proc.devRef .tc main_v254) = _
  after_results_simp
  simp only [W12_v233 m ρ c, W12_v11 m ρ c, W12_v12 m ρ c, W12_arg1 m ρ c, W12_arg2 m ρ c, W12_arg6 m ρ c, W12_arg7 m ρ c]
  rfl

/-! ## After region 6 -/

theorem W14_arg11 : W14 m ρ c (Proc.devRef .tc main_arg11) = m ((c : Thread nD τ).loc main_arg11) := (W14_of_ne m ρ c main_arg11 (by decide)).trans (W13_arg11 m ρ c)

theorem W14_arg3 : W14 m ρ c (Proc.devRef .tc main_arg3) = m ((c : Thread nD τ).loc main_arg3) := (W14_of_ne m ρ c main_arg3 (by decide)).trans (W13_arg3 m ρ c)

theorem W14_arg12 : W14 m ρ c (Proc.devRef .tc main_arg12) = m ((c : Thread nD τ).loc main_arg12) := (W14_of_ne m ρ c main_arg12 (by decide)).trans (W13_arg12 m ρ c)

theorem W14_v255 : W14 m ρ c (Proc.devRef .tc main_v255) = X3 m c := by
  refine (W14_arr m ρ c 3).trans ((Cert.KernelIdeal.RegionValue.final6 (V13 m ρ) c).trans ?_)
  show Cert.Spec.linear 100000 256 256 (W13 m ρ c (Proc.devRef .tc main_v253)) (W13 m ρ c (Proc.devRef .tc main_v235)) (W13 m ρ c (Proc.devRef .tc main_v254)) = _
  rw [W13_v253 m ρ c, W13_v235 m ρ c, W13_v254 m ρ c] <;> rfl

theorem W14_v233 : W14 m ρ c (Proc.devRef .tc main_v233) = H3 m c := (W14_of_ne m ρ c main_v233 (by decide)).trans (W13_v233 m ρ c)

theorem W14_v18 : W14 m ρ c (Proc.devRef .tc main_v18) = counts (m ((c : Thread nD τ).loc main_arg3)) := (W14_of_ne m ρ c main_v18 (by decide)).trans (W13_v18 m ρ c)

theorem W14_arg8 : W14 m ρ c (Proc.devRef .tc main_arg8) = m ((c : Thread nD τ).loc main_arg8) := (W14_of_ne m ρ c main_arg8 (by decide)).trans (W13_arg8 m ρ c)

theorem W14_arg9 : W14 m ρ c (Proc.devRef .tc main_arg9) = m ((c : Thread nD τ).loc main_arg9) := (W14_of_ne m ρ c main_arg9 (by decide)).trans (W13_arg9 m ρ c)

theorem W14_arg10 : W14 m ρ c (Proc.devRef .tc main_arg10) = m ((c : Thread nD τ).loc main_arg10) := (W14_of_ne m ρ c main_arg10 (by decide)).trans (W13_arg10 m ρ c)

/-! ## After host stretch 7 (entry of region 7) -/

set_option maxHeartbeats 16000000 in
theorem W15_arg11 : W15 m ρ c (Proc.devRef .tc main_arg11) = m ((c : Thread nD τ).loc main_arg11) := by
  show StableHlo.after hostOps7 (W14 m ρ c) (Proc.devRef .tc main_arg11) = _
  after_results_simp <;> exact W14_arg11 m ρ c

set_option maxHeartbeats 16000000 in
theorem W15_arg3 : W15 m ρ c (Proc.devRef .tc main_arg3) = m ((c : Thread nD τ).loc main_arg3) := by
  show StableHlo.after hostOps7 (W14 m ρ c) (Proc.devRef .tc main_arg3) = _
  after_results_simp <;> exact W14_arg3 m ρ c

set_option maxHeartbeats 16000000 in
theorem W15_arg12 : W15 m ρ c (Proc.devRef .tc main_arg12) = m ((c : Thread nD τ).loc main_arg12) := by
  show StableHlo.after hostOps7 (W14 m ρ c) (Proc.devRef .tc main_arg12) = _
  after_results_simp <;> exact W14_arg12 m ρ c

set_option maxHeartbeats 16000000 in
theorem W15_v255 : W15 m ρ c (Proc.devRef .tc main_v255) = X3 m c := by
  show StableHlo.after hostOps7 (W14 m ρ c) (Proc.devRef .tc main_v255) = _
  after_results_simp <;> exact W14_v255 m ρ c

set_option maxHeartbeats 16000000 in
theorem W15_v298 : W15 m ρ c (Proc.devRef .tc main_v298) = scaleK (X3 m c) (counts (m ((c : Thread nD τ).loc main_arg3))) (m ((c : Thread nD τ).loc main_arg3)) (row4_3 (m ((c : Thread nD τ).loc main_arg8))) (row4_3 (m ((c : Thread nD τ).loc main_arg10))) := by
  show StableHlo.after hostOps7 (W14 m ρ c) (Proc.devRef .tc main_v298) = _
  after_results_simp
  simp only [W14_v255 m ρ c, W14_v18 m ρ c, W14_arg3 m ρ c, W14_arg8 m ρ c, W14_arg9 m ρ c, W14_arg10 m ρ c]
  rfl

set_option maxHeartbeats 16000000 in
theorem W15_v305 : W15 m ρ c (Proc.devRef .tc main_v305) = shiftK (X3 m c) (counts (m ((c : Thread nD τ).loc main_arg3))) (m ((c : Thread nD τ).loc main_arg3)) (row4_3 (m ((c : Thread nD τ).loc main_arg8))) (row4_3 (m ((c : Thread nD τ).loc main_arg9))) (row4_3 (m ((c : Thread nD τ).loc main_arg10))) := by
  show StableHlo.after hostOps7 (W14 m ρ c) (Proc.devRef .tc main_v305) = _
  after_results_simp
  simp only [W14_v255 m ρ c, W14_v18 m ρ c, W14_arg3 m ρ c, W14_arg8 m ρ c, W14_arg9 m ρ c, W14_arg10 m ρ c]
  rfl

set_option maxHeartbeats 16000000 in
theorem W15_v233 : W15 m ρ c (Proc.devRef .tc main_v233) = H3 m c := by
  show StableHlo.after hostOps7 (W14 m ρ c) (Proc.devRef .tc main_v233) = _
  after_results_simp <;> exact W14_v233 m ρ c

/-! ## After region 7 -/

theorem W16_arg11 : W16 m ρ c (Proc.devRef .tc main_arg11) = m ((c : Thread nD τ).loc main_arg11) := (W16_of_ne m ρ c main_arg11 (by decide)).trans (W15_arg11 m ρ c)

theorem W16_v306 : W16 m ρ c (Proc.devRef .tc main_v306) = H4 m c := by
  refine (W16_arr m ρ c 4).trans ((Cert.KernelIdeal.RegionValue.final7 (V15 m ρ) c).trans ?_)
  show Cert.Spec.affReluRes (W15 m ρ c (Proc.devRef .tc main_v255)) (W15 m ρ c (Proc.devRef .tc main_v298)) (W15 m ρ c (Proc.devRef .tc main_v305)) (W15 m ρ c (Proc.devRef .tc main_v233)) = _
  rw [W15_v255 m ρ c, W15_v298 m ρ c, W15_v305 m ρ c, W15_v233 m ρ c] <;> rfl

theorem W16_arg3 : W16 m ρ c (Proc.devRef .tc main_arg3) = m ((c : Thread nD τ).loc main_arg3) := (W16_of_ne m ρ c main_arg3 (by decide)).trans (W15_arg3 m ρ c)

theorem W16_arg12 : W16 m ρ c (Proc.devRef .tc main_arg12) = m ((c : Thread nD τ).loc main_arg12) := (W16_of_ne m ρ c main_arg12 (by decide)).trans (W15_arg12 m ρ c)

/-! ## After host stretch 8 (entry of region 8) -/

set_option maxHeartbeats 16000000 in
theorem W17_v309 : W17 m ρ c (Proc.devRef .tc main_v309) = segSum (H4 m c) (m ((c : Thread nD τ).loc main_arg3)) := by
  show StableHlo.after hostOps8 (W16 m ρ c) (Proc.devRef .tc main_v309) = _
  after_results_simp
  simp only [W16_v306 m ρ c, W16_arg3 m ρ c, W16_arg12 m ρ c]
  rfl

set_option maxHeartbeats 16000000 in
theorem W17_arg11 : W17 m ρ c (Proc.devRef .tc main_arg11) = m ((c : Thread nD τ).loc main_arg11) := by
  show StableHlo.after hostOps8 (W16 m ρ c) (Proc.devRef .tc main_arg11) = _
  after_results_simp <;> exact W16_arg11 m ρ c

set_option maxHeartbeats 16000000 in
theorem W17_v310 : W17 m ρ c (Proc.devRef .tc main_v310) = shapeCast S1x10 (m ((c : Thread nD τ).loc main_arg12)) Facts₀.shapeCasts_S10_S1x10 := by
  show StableHlo.after hostOps8 (W16 m ρ c) (Proc.devRef .tc main_v310) = _
  after_results_simp
  simp only [W16_v306 m ρ c, W16_arg3 m ρ c, W16_arg12 m ρ c]
  rfl

/-! ## After region 8 -/

theorem W18_v311 : W18 m ρ c (Proc.devRef .tc main_v311) = OUT m c := by
  refine (W18_arr m ρ c 3).trans ((Cert.KernelIdeal.RegionValue.final8 (V17 m ρ) c).trans ?_)
  show Cert.Spec.linear 128 256 10 (W17 m ρ c (Proc.devRef .tc main_v309)) (W17 m ρ c (Proc.devRef .tc main_arg11)) (W17 m ρ c (Proc.devRef .tc main_v310)) = _
  rw [W17_v309 m ρ c, W17_arg11 m ρ c, W17_v310 m ρ c] <;> rfl

end Cert.KernelIdeal.Chain

end
-- ==== Proof.Algebra.lean ====
/-
  The one algebraic law between the two programs. With `c = x − μ · k` the centred value, the reference computes
  `γ · c · s + β`, the kernel `x · (γ · s) + (β − (γ · s) · μ · k)`. Over the real numbers these agree by
  distributivity; over the extended reals distributivity needs finiteness, which is why every ingredient is assumed
  real here (the inputs are finite by the precondition, and every stage of the network preserves finiteness).
-/
import proofs.«107967_j28716151341434_1_alg».proof.Proof.Stages
import proofs.«107967_j28716151341434_1_alg».proof.Proof.Spec
import Idealize.ShloMosaic.Lib.ValueIdx

noncomputable section

namespace Cert.ReferenceIdeal.Algebra

open Cert.ReferenceIdeal Cert.ReferenceIdeal.Stage Idealize.ShloMosaic Cert.Spec

variable [Facts₀]
open Facts₀

/-- The law on real numbers, read in the extended reals. -/
theorem affine_real (x g s b μ k : ℝ) :
    (x : EReal) * ((g : EReal) * (s : EReal)) + ((b : EReal) - (g : EReal) * (s : EReal) * (μ : EReal) * (k : EReal))
      = (g : EReal) * ((x : EReal) - (μ : EReal) * (k : EReal)) * (s : EReal) + (b : EReal) := by
  have h : (x * (g * s) + (b - g * s * μ * k) : ℝ) = g * (x - μ * k) * s + b := by ring
  exact_mod_cast congrArg (fun r : ℝ => (r : EReal)) h

/-- The law at one entry, all six ingredients real. -/
theorem affine_entry {x g s b μ k : EReal} (hx : ∃ r : ℝ, x = r) (hg : ∃ r : ℝ, g = r) (hs : ∃ r : ℝ, s = r)
    (hb : ∃ r : ℝ, b = r) (hμ : ∃ r : ℝ, μ = r) (hk : ∃ r : ℝ, k = r) :
    x * (g * s) + (b - g * s * μ * k) = g * (x - μ * k) * s + b := by
  obtain ⟨x, rfl⟩ := hx; obtain ⟨g, rfl⟩ := hg; obtain ⟨s, rfl⟩ := hs
  obtain ⟨b, rfl⟩ := hb; obtain ⟨μ, rfl⟩ := hμ; obtain ⟨k, rfl⟩ := hk
  exact affine_real x g s b μ k

variable (x : FVec Ideal S100000x256 .f32) (cnt : FVec Ideal S128 .f32) (b : IVec S100000 32) (gam bet ms : FVec Ideal S256 .f32)

/-- The kernel's affine form is the reference's normalisation, entry by entry. -/
theorem affine_eq_normed (hx : AllReal x) (hg : AllReal (rowB gam)) (hb : AllReal (rowB bet)) (hk : AllReal (rowB ms))
    (hμ : AllReal (perNode (segMean x cnt b) b)) (hs : AllReal (perNode (invStd x cnt b ms) b)) (i : S100000x256.Idx) :
    x i * scaleK x cnt b gam ms i + shiftK x cnt b gam bet ms i = normed x cnt b gam bet ms i := by
  show x i * (rowB gam i * perNode (invStd x cnt b ms) b i)
        + (rowB bet i - rowB gam i * perNode (invStd x cnt b ms) b i * perNode (segMean x cnt b) b i * rowB ms i)
      = rowB gam i * (x i - perNode (segMean x cnt b) b i * rowB ms i) * perNode (invStd x cnt b ms) b i + rowB bet i
  exact affine_entry (hx i) (hg i) (hs i) (hb i) (hμ i) (hk i)

/-- Layer 0's tail: positive part of the kernel's affine form = positive part of the reference's normalisation. -/
theorem affRelu_eq (hx : AllReal x) (hg : AllReal (rowB gam)) (hb : AllReal (rowB bet)) (hk : AllReal (rowB ms))
    (hμ : AllReal (perNode (segMean x cnt b) b)) (hs : AllReal (perNode (invStd x cnt b ms) b)) :
    affRelu x (scaleK x cnt b gam ms) (shiftK x cnt b gam bet ms) = relu (normed x cnt b gam bet ms) := by
  funext i
  show max (x i * scaleK x cnt b gam ms i + shiftK x cnt b gam bet ms i) (Ideal.ofBits .f32 0x00000000#32)
    = max (normed x cnt b gam bet ms i) (Ideal.ofBits .f32 0x00000000#32)
  rw [affine_eq_normed x cnt b gam bet ms hx hg hb hk hμ hs i]

/-- Layers 1–3's tail: the same with the residual added. -/
theorem affReluRes_eq (h : FVec Ideal S100000x256 .f32) (hx : AllReal x) (hg : AllReal (rowB gam)) (hb : AllReal (rowB bet))
    (hk : AllReal (rowB ms)) (hμ : AllReal (perNode (segMean x cnt b) b)) (hs : AllReal (perNode (invStd x cnt b ms) b)) :
    affReluRes x (scaleK x cnt b gam ms) (shiftK x cnt b gam bet ms) h = addf (relu (normed x cnt b gam bet ms)) h := by
  funext i
  show max (x i * scaleK x cnt b gam ms i + shiftK x cnt b gam bet ms i) (Ideal.ofBits .f32 0x00000000#32) + h i
    = max (normed x cnt b gam bet ms i) (Ideal.ofBits .f32 0x00000000#32) + h i
  rw [affine_eq_normed x cnt b gam bet ms hx hg hb hk hμ hs i]

end Cert.ReferenceIdeal.Algebra

end
-- ==== Proof.StageReal.lean ====
/-
  Every stage of the reference network maps arrays of real numbers to arrays of real numbers.

  The extended reals carry two infinities, and the operations of the network could in principle produce them: a
  quotient by zero, the reciprocal square root of zero or of a negative number. They do not. The two divisors
  that occur are maxima with one of a count (a sum of ones, hence a real number at least one), and the two
  arguments of the reciprocal square root are such a maximum and a variance (a mean of squares, hence a
  nonnegative real) plus a positive constant. Everything else is a sum, difference, product or maximum of reals,
  a finite sum of reals, or a re-indexing of an array of reals.

  The file first collects these closure facts for single values, then for whole arrays operation by operation,
  and finally walks through the stages.
-/
import proofs.«107967_j28716151341434_1_alg».proof.Proof.Stages
import proofs.«107967_j28716151341434_1_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.StageReal

open Cert.ReferenceIdeal Cert.ReferenceIdeal.Stage Idealize.ShloMosaic Cert.Spec

/-! ## Single values -/

/-- The value is a real number. -/
def IsReal (v : EReal) : Prop := ∃ r : ℝ, v = (r : EReal)
/-- The value is a nonnegative real number. -/
def IsNonneg (v : EReal) : Prop := ∃ r : ℝ, 0 ≤ r ∧ v = (r : EReal)
/-- The value is a positive real number. -/
def IsPos (v : EReal) : Prop := ∃ r : ℝ, 0 < r ∧ v = (r : EReal)
/-- The value is a real number at least one. -/
def IsGeOne (v : EReal) : Prop := ∃ r : ℝ, 1 ≤ r ∧ v = (r : EReal)

theorem IsNonneg.isReal {v : EReal} (h : IsNonneg v) : IsReal v := let ⟨r, _, e⟩ := h; ⟨r, e⟩
theorem IsPos.isNonneg {v : EReal} (h : IsPos v) : IsNonneg v := let ⟨r, hr, e⟩ := h; ⟨r, hr.le, e⟩
theorem IsPos.isReal {v : EReal} (h : IsPos v) : IsReal v := h.isNonneg.isReal
theorem IsGeOne.isPos {v : EReal} (h : IsGeOne v) : IsPos v := let ⟨r, hr, e⟩ := h; ⟨r, lt_of_lt_of_le one_pos hr, e⟩
theorem IsGeOne.isReal {v : EReal} (h : IsGeOne v) : IsReal v := h.isPos.isReal

theorem isReal_zero : IsReal 0 := ⟨0, rfl⟩
theorem isNonneg_zero : IsNonneg 0 := ⟨0, le_refl _, rfl⟩
theorem isGeOne_one : IsGeOne 1 := ⟨1, le_refl _, rfl⟩

theorem isReal_add {a b : EReal} (ha : IsReal a) (hb : IsReal b) : IsReal (a + b) := by
  obtain ⟨r, rfl⟩ := ha; obtain ⟨s, rfl⟩ := hb; exact ⟨r + s, (EReal.coe_add r s).symm⟩

theorem isReal_sub {a b : EReal} (ha : IsReal a) (hb : IsReal b) : IsReal (a - b) := by
  obtain ⟨r, rfl⟩ := ha; obtain ⟨s, rfl⟩ := hb; exact ⟨r - s, (EReal.coe_sub r s).symm⟩

theorem isReal_mul {a b : EReal} (ha : IsReal a) (hb : IsReal b) : IsReal (a * b) := by
  obtain ⟨r, rfl⟩ := ha; obtain ⟨s, rfl⟩ := hb; exact ⟨r * s, (EReal.coe_mul r s).symm⟩

theorem isReal_max {a b : EReal} (ha : IsReal a) (hb : IsReal b) : IsReal (max a b) := by
  rcases max_choice a b with h | h <;> rw [h] <;> assumption

/-- The square of a real number is a nonnegative real number. -/
theorem isNonneg_mul_self {a : EReal} (ha : IsReal a) : IsNonneg (a * a) := by
  obtain ⟨r, rfl⟩ := ha; exact ⟨r * r, mul_self_nonneg r, (EReal.coe_mul r r).symm⟩

theorem isNonneg_add {a b : EReal} (ha : IsNonneg a) (hb : IsNonneg b) : IsNonneg (a + b) := by
  obtain ⟨r, hr, rfl⟩ := ha; obtain ⟨s, hs, rfl⟩ := hb; exact ⟨r + s, add_nonneg hr hs, (EReal.coe_add r s).symm⟩

theorem isPos_add {a b : EReal} (ha : IsNonneg a) (hb : IsPos b) : IsPos (a + b) := by
  obtain ⟨r, hr, rfl⟩ := ha; obtain ⟨s, hs, rfl⟩ := hb
  exact ⟨r + s, add_pos_of_nonneg_of_pos hr hs, (EReal.coe_add r s).symm⟩

/-- The maximum of a real number and one is a real number at least one. -/
theorem isGeOne_max_one {a : EReal} (ha : IsReal a) : IsGeOne (max a 1) := by
  obtain ⟨r, rfl⟩ := ha
  refine ⟨max r 1, le_max_right r 1, ?_⟩
  rcases le_total r 1 with h | h
  · rw [max_eq_right h, max_eq_right (by exact_mod_cast h)]; rfl
  · rw [max_eq_left h, max_eq_left (by exact_mod_cast h)]

/-- A quotient of a real number by a positive real number is a real number. -/
theorem isReal_div {a b : EReal} (ha : IsReal a) (hb : IsPos b) : IsReal (Ideal.div a b) := by
  obtain ⟨r, rfl⟩ := ha; obtain ⟨s, hs, rfl⟩ := hb
  rw [Ideal.div_coe hs.ne']
  exact ⟨r * (1 / s), (EReal.coe_mul r (1 / s)).symm⟩

/-- A quotient of a nonnegative real number by a positive real number is a nonnegative real number. -/
theorem isNonneg_div {a b : EReal} (ha : IsNonneg a) (hb : IsPos b) : IsNonneg (Ideal.div a b) := by
  obtain ⟨r, hr, rfl⟩ := ha; obtain ⟨s, hs, rfl⟩ := hb
  rw [Ideal.div_coe hs.ne']
  exact ⟨r * (1 / s), mul_nonneg hr (one_div_pos.2 hs).le, (EReal.coe_mul r (1 / s)).symm⟩

/-- The reciprocal square root of a positive real number is a positive real number. -/
theorem isPos_rsqrt {a : EReal} (ha : IsPos a) : IsPos (Ideal.rsqrt a) := by
  obtain ⟨r, hr, rfl⟩ := ha
  rw [Ideal.rsqrt_coe, if_neg (not_lt.2 hr.le), if_neg hr.ne']
  exact ⟨(Real.sqrt r)⁻¹, inv_pos.2 (Real.sqrt_pos.2 hr), rfl⟩

/-- A finite sum of real numbers is a real number. -/
theorem isReal_sum {ι : Type*} (s : Finset ι) (g : ι → EReal) (hg : ∀ j ∈ s, IsReal (g j)) : IsReal (∑ j ∈ s, g j) := by
  classical
  induction s using Finset.induction_on with
  | empty => rw [Finset.sum_empty]; exact isReal_zero
  | insert a s ha ih =>
    rw [Finset.sum_insert ha]
    exact isReal_add (hg a (Finset.mem_insert_self a s)) (ih fun j hj => hg j (Finset.mem_insert_of_mem hj))

/-- A finite sum of nonnegative real numbers is a nonnegative real number. -/
theorem isNonneg_sum {ι : Type*} (s : Finset ι) (g : ι → EReal) (hg : ∀ j ∈ s, IsNonneg (g j)) :
    IsNonneg (∑ j ∈ s, g j) := by
  classical
  induction s using Finset.induction_on with
  | empty => rw [Finset.sum_empty]; exact isNonneg_zero
  | insert a s ha ih =>
    rw [Finset.sum_insert ha]
    exact isNonneg_add (hg a (Finset.mem_insert_self a s)) (ih fun j hj => hg j (Finset.mem_insert_of_mem hj))

/-! ## The three constants -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of the variance offset denotes a positive real number (it is `8796093 · 2⁻⁴³`, about `10⁻⁶`). -/
theorem isPos_ofBits_eps : IsPos (Ideal.ofBits .f32 0x358637BD#32) := by
  refine ⟨(8796093 : ℝ) * (2 : ℝ) ^ (-43 : ℤ), by positivity, ?_⟩
  simp [Ideal.ofBits, Ideal.ieee, -EReal.coe_mul]

/-! ## Whole arrays, operation by operation

The layout operations (broadcast, reshape, slice, gather) only re-index: each entry of the result is an entry of
the operand, so any property of all entries of the operand passes to the result. -/

section Arrays
variable {s t : Shape}

theorem broadcastInDim_all {α : Type} {P : α → Prop} {dims : Fin s.rank → Fin t.rank} (h : s.BroadcastsInDim t dims)
    {x : s.Idx → α} (hx : ∀ i, P (x i)) (j : t.Idx) : P (broadcastInDim t dims h x j) := hx _

theorem shapeCast_all {α : Type} {P : α → Prop} (h : s.ShapeCasts t) {x : s.Idx → α} (hx : ∀ i, P (x i)) (j : t.Idx) :
    P (shapeCast t x h j) := hx _

theorem extractStridedSlice_all {α : Type} {P : α → Prop} {off : Fin s.rank → Nat} (h : s.Slices off t) {x : s.Idx → α}
    (hx : ∀ i, P (x i)) (j : t.Idx) : P (extractStridedSlice t off x h j) := hx _

theorem gather_all {α : Type} {P : α → Prop} {si : Shape} {w : Nat} (d : GatherDims s si t) {x : s.Idx → α} (idx : IVec si w)
    (hx : ∀ i, P (x i)) (j : t.Idx) : P (Host.gather d x idx j) := hx _

/-- The zero word at every index. -/
theorem const_zero_apply (i : S_.Idx) : constant (F := Ideal) S_ .f32 0x00000000#32 i = 0 := ofBits_zero

/-- The word of one at every index. -/
theorem const_one_apply (i : S_.Idx) : constant (F := Ideal) S_ .f32 0x3F800000#32 i = 1 := ofBits_one

/-- An array of zeros is an array of nonnegative reals. -/
theorem zeros_isNonneg (h : S_.BroadcastsInDim t (![] : Fin 0 → Fin t.rank)) (j : t.Idx) :
    IsNonneg (broadcastInDim t ![] h (constant (F := Ideal) S_ .f32 0x00000000#32) j) :=
  broadcastInDim_all (P := IsNonneg) h (fun i => (const_zero_apply i).symm ▸ isNonneg_zero) j

/-- An array of ones is an array of nonnegative reals. -/
theorem ones_isNonneg (h : S_.BroadcastsInDim t (![] : Fin 0 → Fin t.rank)) (j : t.Idx) :
    IsNonneg (broadcastInDim t ![] h (constant (F := Ideal) S_ .f32 0x3F800000#32) j) :=
  broadcastInDim_all (P := IsNonneg) h (fun i => (const_one_apply i).symm ▸ isGeOne_one.isPos.isNonneg) j

/-- The accumulating scatter adds to each entry of the operand a finite sum of entries of the updates. -/
theorem scatterAdd_isReal {si u : Shape} {w : Nat} (d : ScatterDims s si u) {x : FVec Ideal s .f32} (idx : IVec si w)
    {upd : FVec Ideal u .f32} (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact isReal_add (hx i) (isReal_sum _ _ fun j _ => hu j)

theorem scatterAdd_isNonneg {si u : Shape} {w : Nat} (d : ScatterDims s si u) {x : FVec Ideal s .f32} (idx : IVec si w)
    {upd : FVec Ideal u .f32} (hx : ∀ i, IsNonneg (x i)) (hu : ∀ j, IsNonneg (upd j)) (i : s.Idx) :
    IsNonneg (Host.scatterAdd d x idx upd i) := by
  unfold Host.scatterAdd
  rw [Ideal.hostScatterAdd_def]
  unfold Ideal.hostScatterAdd
  exact isNonneg_add (hx i) (isNonneg_sum _ _ fun j _ => hu j)

/-- A matrix product is, entry by entry, a finite sum of products. -/
theorem dotGeneral_isReal {sl sr so : Shape} (d : DotDims sl sr so) (prec : Option ContractPrecision)
    {lhs : FVec Ideal sl .f32} {rhs : FVec Ideal sr .f32} (hl : ∀ i, IsReal (lhs i)) (hr : ∀ i, IsReal (rhs i)) (j : so.Idx) :
    IsReal (Host.dotGeneral d prec lhs rhs j) := by
  simp only [Host.dotGeneral]
  rw [Ideal.dotGeneral_apply]
  exact isReal_sum _ _ fun k _ => isReal_mul (hl _) (hr _)

/-! The elementwise operations, entry by entry. -/

theorem mulf_isReal {a b : FVec Ideal s .f32} (ha : ∀ i, IsReal (a i)) (hb : ∀ i, IsReal (b i)) (i : s.Idx) :
    IsReal (mulf a b i) := isReal_mul (ha i) (hb i)

theorem addf_isReal {a b : FVec Ideal s .f32} (ha : ∀ i, IsReal (a i)) (hb : ∀ i, IsReal (b i)) (i : s.Idx) :
    IsReal (addf a b i) := isReal_add (ha i) (hb i)

theorem subf_isReal {a b : FVec Ideal s .f32} (ha : ∀ i, IsReal (a i)) (hb : ∀ i, IsReal (b i)) (i : s.Idx) :
    IsReal (subf a b i) := isReal_sub (ha i) (hb i)

theorem maximumf_isReal {a b : FVec Ideal s .f32} (ha : ∀ i, IsReal (a i)) (hb : ∀ i, IsReal (b i)) (i : s.Idx) :
    IsReal (maximumf a b i) := isReal_max (ha i) (hb i)

theorem mulf_self_isNonneg {a : FVec Ideal s .f32} (ha : ∀ i, IsReal (a i)) (i : s.Idx) :
    IsNonneg (mulf a a i) := isNonneg_mul_self (ha i)

theorem addf_isPos {a b : FVec Ideal s .f32} (ha : ∀ i, IsNonneg (a i)) (hb : ∀ i, IsPos (b i)) (i : s.Idx) :
    IsPos (addf a b i) := isPos_add (ha i) (hb i)

theorem divf_isReal {a b : FVec Ideal s .f32} (ha : ∀ i, IsReal (a i)) (hb : ∀ i, IsPos (b i)) (i : s.Idx) :
    IsReal (Host.divf a b i) := isReal_div (ha i) (hb i)

theorem divf_isNonneg {a b : FVec Ideal s .f32} (ha : ∀ i, IsNonneg (a i)) (hb : ∀ i, IsPos (b i)) (i : s.Idx) :
    IsNonneg (Host.divf a b i) := isNonneg_div (ha i) (hb i)

theorem rsqrt_isPos {a : FVec Ideal s .f32} (ha : ∀ i, IsPos (a i)) (i : s.Idx) :
    IsPos (Host.rsqrt a i) := isPos_rsqrt (ha i)

/-- The maximum of an array of reals with the array of ones has entries at least one. -/
theorem maximumf_ones_isGeOne {a : FVec Ideal t .f32} (h : S_.BroadcastsInDim t (![] : Fin 0 → Fin t.rank))
    (ha : ∀ i, IsReal (a i)) (i : t.Idx) :
    IsGeOne (maximumf a (broadcastInDim t ![] h (constant (F := Ideal) S_ .f32 0x3F800000#32)) i) := by
  have h1 : broadcastInDim t ![] h (constant (F := Ideal) S_ .f32 0x3F800000#32) i = 1 := ofBits_one
  rw [ValueIdx.maximumf_apply, h1]
  exact isGeOne_max_one (ha i)

/-- The array of the variance offset has positive real entries. -/
theorem eps_isPos (h : S_.BroadcastsInDim t (![] : Fin 0 → Fin t.rank)) (j : t.Idx) :
    IsPos (broadcastInDim t ![] h (constant (F := Ideal) S_ .f32 0x358637BD#32) j) :=
  broadcastInDim_all (P := IsPos) h (fun _ => isPos_ofBits_eps) j

end Arrays

/-! ## The stages -/

variable [Facts₀]
open Facts₀

/-! ### Degrees and graph sizes: a count is a nonnegative real, the maximum of it and one is at least one -/

theorem dinv_isPos (idx : IVec S320000 32) (i : S100000.Idx) : IsPos (dinv idx i) := by
  have hc := fun i => (scatterAdd_isNonneg scatter_S100000_S320000x1_S320000_n_0_0_1
    (broadcastInDim S320000x1 ![0] bcast_S320000_S320000x1_0 idx) (zeros_isNonneg bcast_S_S100000) (ones_isNonneg bcast_S_S320000) i).isReal
  have hm := fun i => (maximumf_ones_isGeOne bcast_S_S100000 hc i).isPos
  exact rsqrt_isPos hm i

theorem allReal_dinv (idx : IVec S320000 32) : AllReal (dinv idx) := fun i => (dinv_isPos idx i).isReal

theorem counts_isGeOne (b : IVec S100000 32) (i : S128.Idx) : IsGeOne (counts b i) := by
  have hc := fun i => (scatterAdd_isNonneg scatter_S128_S100000x1_S100000_n_0_0_1
    (broadcastInDim S100000x1 ![0] bcast_S100000_S100000x1_0 b) (zeros_isNonneg bcast_S_S128) (ones_isNonneg bcast_S_S100000) i).isReal
  exact maximumf_ones_isGeOne bcast_S_S128 hc i

/-! ### Aggregation over the edges: products with the degree factors, a gather, a scatter-add onto zeros -/

theorem agg128_isReal (h : FVec Ideal S100000x128 .f32) (ds dd : FVec Ideal S100000 .f32) (src dst : IVec S320000 32)
    (hh : ∀ i, IsReal (h i)) (hds : ∀ i, IsReal (ds i)) (hdd : ∀ i, IsReal (dd i)) (i : S100000x128.Idx) :
    IsReal (agg128 h ds dd src dst i) := by
  have hdsB := broadcastInDim_all (P := IsReal) bcast_S100000x1_S100000x128_0_1
    (broadcastInDim_all (P := IsReal) bcast_S100000_S100000x1_0 hds)
  have hddB := broadcastInDim_all (P := IsReal) bcast_S100000x1_S100000x128_0_1
    (broadcastInDim_all (P := IsReal) bcast_S100000_S100000x1_0 hdd)
  have hg := gather_all (P := IsReal) gather_S100000x128_S320000x1_S320000x128_1_0_n_n_0_1_1128 (wrapSrc src)
    (mulf_isReal hh hdsB)
  have hs := scatterAdd_isReal scatter_S100000x128_S320000x1_S320000x128_1_0_0_1
    (broadcastInDim S320000x1 ![0] bcast_S320000_S320000x1_0 dst) (fun i => (zeros_isNonneg bcast_S_S100000x128 i).isReal) hg
  exact mulf_isReal hs hddB i

theorem agg256_isReal (h : FVec Ideal S100000x256 .f32) (ds dd : FVec Ideal S100000 .f32) (src dst : IVec S320000 32)
    (hh : ∀ i, IsReal (h i)) (hds : ∀ i, IsReal (ds i)) (hdd : ∀ i, IsReal (dd i)) (i : S100000x256.Idx) :
    IsReal (agg256 h ds dd src dst i) := by
  have hdsB := broadcastInDim_all (P := IsReal) bcast_S100000x1_S100000x256_0_1
    (broadcastInDim_all (P := IsReal) bcast_S100000_S100000x1_0 hds)
  have hddB := broadcastInDim_all (P := IsReal) bcast_S100000x1_S100000x256_0_1
    (broadcastInDim_all (P := IsReal) bcast_S100000_S100000x1_0 hdd)
  have hg := gather_all (P := IsReal) gather_S100000x256_S320000x1_S320000x256_1_0_n_n_0_1_1256 (wrapSrc src)
    (mulf_isReal hh hdsB)
  have hs := scatterAdd_isReal scatter_S100000x256_S320000x1_S320000x256_1_0_0_1
    (broadcastInDim S320000x1 ![0] bcast_S320000_S320000x1_0 dst) (fun i => (zeros_isNonneg bcast_S_S100000x256 i).isReal) hg
  exact mulf_isReal hs hddB i

theorem allReal_agg128 (h : FVec Ideal S100000x128 .f32) (src dst : IVec S320000 32) (hh : AllReal h) :
    AllReal (agg128 h (dinv src) (dinv dst) src dst) :=
  fun i => agg128_isReal h (dinv src) (dinv dst) src dst hh (allReal_dinv src) (allReal_dinv dst) i

theorem allReal_agg256 (h : FVec Ideal S100000x256 .f32) (src dst : IVec S320000 32) (hh : AllReal h) :
    AllReal (agg256 h (dinv src) (dinv dst) src dst) :=
  fun i => agg256_isReal h (dinv src) (dinv dst) src dst hh (allReal_dinv src) (allReal_dinv dst) i

/-! ### The linear maps -/

/-- Every entry of a repeated row is an entry of the row. -/
theorem rowB_all {P : EReal → Prop} (r : FVec Ideal S256 .f32) (hr : ∀ i, P (r i)) (i : S100000x256.Idx) : P (rowB r i) :=
  broadcastInDim_all (P := P) bcast_S1x256_S100000x256_0_1 (broadcastInDim_all (P := P) bcast_S256_S1x256_1 hr) i

theorem allReal_rowB (r : FVec Ideal S256 .f32) (hr : AllReal r) : AllReal (rowB r) := rowB_all (P := IsReal) r hr

theorem allReal_lin128 (m : FVec Ideal S100000x128 .f32) (W : FVec Ideal S128x256 .f32) (bias : FVec Ideal S256 .f32)
    (hm : AllReal m) (hW : AllReal W) (hb : AllReal bias) : AllReal (lin128 m W bias) := by
  have hd := dotGeneral_isReal dot_S100000x128_S128x256_S100000x256_1_0_0_1_n_n none hm hW
  exact addf_isReal hd (rowB_all (P := IsReal) bias hb)

theorem allReal_lin256 (m : FVec Ideal S100000x256 .f32) (W : FVec Ideal S256x256 .f32) (bias : FVec Ideal S256 .f32)
    (hm : AllReal m) (hW : AllReal W) (hb : AllReal bias) : AllReal (lin256 m W bias) := by
  have hd := dotGeneral_isReal dot_S100000x256_S256x256_S100000x256_1_0_0_1_n_n none hm hW
  exact addf_isReal hd (rowB_all (P := IsReal) bias hb)

/-! ### The graph normalisation

The divisor is the graph size, a real number at least one; the argument of the reciprocal square root is a mean of
squares, a nonnegative real, plus the positive offset. -/

/-- Every entry of the repeated graph sizes is a graph size. -/
theorem cntB_all {P : EReal → Prop} (cnt : FVec Ideal S128 .f32) (hc : ∀ i, P (cnt i)) (i : S128x256.Idx) : P (cntB cnt i) :=
  broadcastInDim_all (P := P) bcast_S128x1_S128x256_0_1 (broadcastInDim_all (P := P) bcast_S128_S128x1_0 hc) i

theorem segSum_isReal (x : FVec Ideal S100000x256 .f32) (b : IVec S100000 32) (hx : ∀ i, IsReal (x i)) (i : S128x256.Idx) :
    IsReal (segSum x b i) := by
  have h := scatterAdd_isReal scatter_S128x256_S100000x1_S100000x256_1_0_0_1
    (broadcastInDim S100000x1 ![0] bcast_S100000_S100000x1_0 b) (fun i => (zeros_isNonneg bcast_S_S128x256 i).isReal) hx
  exact h i

theorem segSum_isNonneg (x : FVec Ideal S100000x256 .f32) (b : IVec S100000 32) (hx : ∀ i, IsNonneg (x i)) (i : S128x256.Idx) :
    IsNonneg (segSum x b i) := by
  have h := scatterAdd_isNonneg scatter_S128x256_S100000x1_S100000x256_1_0_0_1
    (broadcastInDim S100000x1 ![0] bcast_S100000_S100000x1_0 b) (zeros_isNonneg bcast_S_S128x256) hx
  exact h i

theorem segMean_isReal (x : FVec Ideal S100000x256 .f32) (cnt : FVec Ideal S128 .f32) (b : IVec S100000 32)
    (hx : ∀ i, IsReal (x i)) (hc : ∀ i, IsPos (cnt i)) (i : S128x256.Idx) : IsReal (segMean x cnt b i) :=
  divf_isReal (segSum_isReal x b hx) (cntB_all (P := IsPos) cnt hc) i

theorem segMean_isNonneg (x : FVec Ideal S100000x256 .f32) (cnt : FVec Ideal S128 .f32) (b : IVec S100000 32)
    (hx : ∀ i, IsNonneg (x i)) (hc : ∀ i, IsPos (cnt i)) (i : S128x256.Idx) : IsNonneg (segMean x cnt b i) :=
  divf_isNonneg (segSum_isNonneg x b hx) (cntB_all (P := IsPos) cnt hc) i

/-- Every entry of a per-graph table read back per node is an entry of the table. -/
theorem perNode_all {P : EReal → Prop} (t : FVec Ideal S128x256 .f32) (b : IVec S100000 32) (ht : ∀ i, P (t i))
    (i : S100000x256.Idx) : P (perNode t b i) :=
  gather_all (P := P) gather_S128x256_S100000x1_S100000x256_1_0_n_n_0_1_1256 (wrapB b) ht i

theorem centred_isReal (x : FVec Ideal S100000x256 .f32) (cnt : FVec Ideal S128 .f32) (b : IVec S100000 32)
    (ms : FVec Ideal S256 .f32) (hx : ∀ i, IsReal (x i)) (hc : ∀ i, IsPos (cnt i)) (hms : ∀ i, IsReal (ms i))
    (i : S100000x256.Idx) : IsReal (centred x cnt b ms i) := by
  have hμ := perNode_all (P := IsReal) (segMean x cnt b) b (segMean_isReal x cnt b hx hc)
  exact subf_isReal hx (mulf_isReal hμ (rowB_all (P := IsReal) ms hms)) i

theorem invStd_isPos (x : FVec Ideal S100000x256 .f32) (cnt : FVec Ideal S128 .f32) (b : IVec S100000 32)
    (ms : FVec Ideal S256 .f32) (hx : ∀ i, IsReal (x i)) (hc : ∀ i, IsPos (cnt i)) (hms : ∀ i, IsReal (ms i))
    (i : S128x256.Idx) : IsPos (invStd x cnt b ms i) := by
  have hsq := mulf_self_isNonneg (centred_isReal x cnt b ms hx hc hms)
  have hvar := segMean_isNonneg (mulf (centred x cnt b ms) (centred x cnt b ms)) cnt b hsq hc
  exact rsqrt_isPos (addf_isPos hvar (eps_isPos bcast_S_S128x256)) i

theorem normed_isReal (x : FVec Ideal S100000x256 .f32) (cnt : FVec Ideal S128 .f32) (b : IVec S100000 32)
    (gam bet ms : FVec Ideal S256 .f32) (hx : ∀ i, IsReal (x i)) (hc : ∀ i, IsPos (cnt i)) (hgam : ∀ i, IsReal (gam i))
    (hbet : ∀ i, IsReal (bet i)) (hms : ∀ i, IsReal (ms i)) (i : S100000x256.Idx) : IsReal (normed x cnt b gam bet ms i) := by
  have hs := perNode_all (P := IsReal) (invStd x cnt b ms) b (fun i => (invStd_isPos x cnt b ms hx hc hms i).isReal)
  have hgc := mulf_isReal (rowB_all (P := IsReal) gam hgam) (centred_isReal x cnt b ms hx hc hms)
  exact addf_isReal (mulf_isReal hgc hs) (rowB_all (P := IsReal) bet hbet) i

theorem allReal_mean (x : FVec Ideal S100000x256 .f32) (b : IVec S100000 32) (hx : AllReal x) :
    AllReal (perNode (segMean x (counts b) b) b) :=
  perNode_all (P := IsReal) (segMean x (counts b) b) b
    (segMean_isReal x (counts b) b hx fun i => (counts_isGeOne b i).isPos)

theorem allReal_invStd (x : FVec Ideal S100000x256 .f32) (b : IVec S100000 32) (ms : FVec Ideal S256 .f32)
    (hx : AllReal x) (hms : AllReal ms) : AllReal (perNode (invStd x (counts b) b ms) b) :=
  perNode_all (P := IsReal) (invStd x (counts b) b ms) b
    (fun i => (invStd_isPos x (counts b) b ms hx (fun i => (counts_isGeOne b i).isPos) hms i).isReal)

theorem allReal_normed (x : FVec Ideal S100000x256 .f32) (b : IVec S100000 32) (gam bet ms : FVec Ideal S256 .f32)
    (hx : AllReal x) (hgam : AllReal gam) (hbet : AllReal bet) (hms : AllReal ms) :
    AllReal (normed x (counts b) b gam bet ms) :=
  normed_isReal x (counts b) b gam bet ms hx (fun i => (counts_isGeOne b i).isPos) hgam hbet hms

theorem allReal_relu (x : FVec Ideal S100000x256 .f32) (hx : AllReal x) : AllReal (relu x) :=
  maximumf_isReal hx (fun i => (zeros_isNonneg bcast_S_S100000x256 i).isReal)

/-! ### Rows of the stacked parameters: a slice, then a reshape -/

theorem allReal_row4_0 (a : FVec Ideal S4x256 .f32) (ha : AllReal a) : AllReal (row4_0 a) :=
  shapeCast_all (P := IsReal) shapeCasts_S1x256_S256 (extractStridedSlice_all (P := IsReal) slices_S4x256_S1x256_0_0 ha)
theorem allReal_row4_1 (a : FVec Ideal S4x256 .f32) (ha : AllReal a) : AllReal (row4_1 a) :=
  shapeCast_all (P := IsReal) shapeCasts_S1x256_S256 (extractStridedSlice_all (P := IsReal) slices_S4x256_S1x256_1_0 ha)
theorem allReal_row4_2 (a : FVec Ideal S4x256 .f32) (ha : AllReal a) : AllReal (row4_2 a) :=
  shapeCast_all (P := IsReal) shapeCasts_S1x256_S256 (extractStridedSlice_all (P := IsReal) slices_S4x256_S1x256_2_0 ha)
theorem allReal_row4_3 (a : FVec Ideal S4x256 .f32) (ha : AllReal a) : AllReal (row4_3 a) :=
  shapeCast_all (P := IsReal) shapeCasts_S1x256_S256 (extractStridedSlice_all (P := IsReal) slices_S4x256_S1x256_3_0 ha)
theorem allReal_row3_0 (a : FVec Ideal S3x256 .f32) (ha : AllReal a) : AllReal (row3_0 a) :=
  shapeCast_all (P := IsReal) shapeCasts_S1x256_S256 (extractStridedSlice_all (P := IsReal) slices_S3x256_S1x256_0_0 ha)
theorem allReal_row3_1 (a : FVec Ideal S3x256 .f32) (ha : AllReal a) : AllReal (row3_1 a) :=
  shapeCast_all (P := IsReal) shapeCasts_S1x256_S256 (extractStridedSlice_all (P := IsReal) slices_S3x256_S1x256_1_0 ha)
theorem allReal_row3_2 (a : FVec Ideal S3x256 .f32) (ha : AllReal a) : AllReal (row3_2 a) :=
  shapeCast_all (P := IsReal) shapeCasts_S1x256_S256 (extractStridedSlice_all (P := IsReal) slices_S3x256_S1x256_2_0 ha)
theorem allReal_mat3_0 (a : FVec Ideal S3x256x256 .f32) (ha : AllReal a) : AllReal (mat3_0 a) :=
  shapeCast_all (P := IsReal) shapeCasts_S1x256x256_S256x256 (extractStridedSlice_all (P := IsReal) slices_S3x256x256_S1x256x256_0_0_0 ha)
theorem allReal_mat3_1 (a : FVec Ideal S3x256x256 .f32) (ha : AllReal a) : AllReal (mat3_1 a) :=
  shapeCast_all (P := IsReal) shapeCasts_S1x256x256_S256x256 (extractStridedSlice_all (P := IsReal) slices_S3x256x256_S1x256x256_1_0_0 ha)
theorem allReal_mat3_2 (a : FVec Ideal S3x256x256 .f32) (ha : AllReal a) : AllReal (mat3_2 a) :=
  shapeCast_all (P := IsReal) shapeCasts_S1x256x256_S256x256 (extractStridedSlice_all (P := IsReal) slices_S3x256x256_S1x256x256_2_0_0 ha)

/-! ### The layers -/

theorem allReal_layer0 (h : FVec Ideal S100000x128 .f32) (src dst : IVec S320000 32) (b : IVec S100000 32)
    (W : FVec Ideal S128x256 .f32) (bias gam bet ms : FVec Ideal S256 .f32) (hh : AllReal h) (hW : AllReal W)
    (hbias : AllReal bias) (hgam : AllReal gam) (hbet : AllReal bet) (hms : AllReal ms) :
    AllReal (layer0 h src dst b W bias gam bet ms) :=
  allReal_relu _ (allReal_normed _ b gam bet ms
    (allReal_lin128 _ W bias (allReal_agg128 h src dst hh) hW hbias) hgam hbet hms)

theorem allReal_layerR (h : FVec Ideal S100000x256 .f32) (src dst : IVec S320000 32) (b : IVec S100000 32)
    (W : FVec Ideal S256x256 .f32) (bias gam bet ms : FVec Ideal S256 .f32) (hh : AllReal h) (hW : AllReal W)
    (hbias : AllReal bias) (hgam : AllReal gam) (hbet : AllReal bet) (hms : AllReal ms) :
    AllReal (layerR h src dst b W bias gam bet ms) :=
  addf_isReal (allReal_relu _ (allReal_normed _ b gam bet ms
    (allReal_lin256 _ W bias (allReal_agg256 h src dst hh) hW hbias) hgam hbet hms)) hh

end Cert.ReferenceIdeal.StageReal

end
-- ==== Proof.RefLinear.lean ====
/-
  The reference's `dot_general` followed by the addition of a broadcast bias row, read as one linear map:
  entry `(r, c)` of the result is the sum over the inner index `k` of `y[r, k] * w[k, c]`, plus the bias entry
  `b[0, c]`. The bias row `b` is the rank-one array `v` seen as one row.
-/
import proofs.«107967_j28716151341434_1_alg».proof.ReferenceIdeal
import proofs.«107967_j28716151341434_1_alg».proof.Proof.Spec
import Idealize.ShloMosaic.Lib.ValueIdx
import Idealize.ShloMosaic.Lib.Pipeline.Value
import Idealize.ShloMosaic.PureOps.Ideal.Laws

noncomputable section

namespace Cert.ReferenceIdeal.RefLinear

open Cert.ReferenceIdeal Idealize.ShloMosaic

variable [Facts₀]
open Facts₀

/-! ## 100000 × 128 times 128 × 256 -/

/-- The contraction runs over one axis. -/
theorem contr_rank_128 : dot_S100000x128_S128x256_S100000x256_1_0_0_1_n_n.contr.rank = 1 := rfl

/-- The left operand's index at output index `i` and contraction index `q`: row `i 0`, column `q`. -/
theorem lhs_128_0 (i : S100000x256.Idx) (q : dot_S100000x128_S128x256_S100000x256_1_0_0_1_n_n.contr.Idx) : (dot_S100000x128_S128x256_S100000x256_1_0_0_1_n_n.lhsIdx i q 0).val = (i 0).val := by
  unfold DotDims.lhsIdx
  rw [dif_neg (show ¬(0 : Fin S100000x128.rank) ∈ dot_S100000x128_S128x256_S100000x256_1_0_0_1_n_n.lhsBatch from List.not_mem_nil),
    dif_pos (show (0 : Fin S100000x128.rank) ∈ dot_S100000x128_S128x256_S100000x256_1_0_0_1_n_n.lhsNonContracting from List.mem_singleton.mpr rfl)]
  rfl
theorem lhs_128_1 (i : S100000x256.Idx) (q : dot_S100000x128_S128x256_S100000x256_1_0_0_1_n_n.contr.Idx) :
    (dot_S100000x128_S128x256_S100000x256_1_0_0_1_n_n.lhsIdx i q 1).val = (q ⟨0, by rw [contr_rank_128]; exact Nat.one_pos⟩).val :=
  dot_S100000x128_S128x256_S100000x256_1_0_0_1_n_n.lhsIdx_val_of_single rfl i q
/-- The right operand's: row `q`, column `i 1`. -/
theorem rhs_128_0 (i : S100000x256.Idx) (q : dot_S100000x128_S128x256_S100000x256_1_0_0_1_n_n.contr.Idx) :
    (dot_S100000x128_S128x256_S100000x256_1_0_0_1_n_n.rhsIdx i q 0).val = (q ⟨0, by rw [contr_rank_128]; exact Nat.one_pos⟩).val :=
  dot_S100000x128_S128x256_S100000x256_1_0_0_1_n_n.rhsIdx_val_of_single rfl i q
theorem rhs_128_1 (i : S100000x256.Idx) (q : dot_S100000x128_S128x256_S100000x256_1_0_0_1_n_n.contr.Idx) : (dot_S100000x128_S128x256_S100000x256_1_0_0_1_n_n.rhsIdx i q 1).val = (i 1).val := by
  unfold DotDims.rhsIdx
  rw [dif_neg (show ¬(1 : Fin S128x256.rank) ∈ dot_S100000x128_S128x256_S100000x256_1_0_0_1_n_n.rhsBatch from List.not_mem_nil),
    dif_pos (show (1 : Fin S128x256.rank) ∈ dot_S100000x128_S128x256_S100000x256_1_0_0_1_n_n.rhsNonContracting from List.mem_singleton.mpr rfl)]
  rfl

/-- The product at an entry: the sum over the inner index. -/
theorem dot_128_apply (y : S100000x128.Idx → EReal) (w : S128x256.Idx → EReal) (i : S100000x256.Idx) :
    Host.dotGeneral (F := Ideal) (φ₁ := .f32) (φ₂ := .f32) dot_S100000x128_S128x256_S100000x256_1_0_0_1_n_n none y w i
      = ∑ k : Fin 128, y (Cert.Spec.rc (A := 100000) (B := 128) (i 0).val k.val (i 0).isLt k.isLt)
          * w (Cert.Spec.rc (A := 128) (B := 256) k.val (i 1).val k.isLt (i 1).isLt) := by
  simp only [Host.dotGeneral]
  rw [Ideal.dotGeneral_apply, ← Equiv.sum_comp (ValueIdx.contrEquiv1 dot_S100000x128_S128x256_S100000x256_1_0_0_1_n_n 128 rfl rfl).symm]
  refine Finset.sum_congr rfl fun k _ => ?_
  have hk := ValueIdx.contrEquiv1_symm_val dot_S100000x128_S128x256_S100000x256_1_0_0_1_n_n 128 rfl rfl k
  have el : dot_S100000x128_S128x256_S100000x256_1_0_0_1_n_n.lhsIdx i ((ValueIdx.contrEquiv1 dot_S100000x128_S128x256_S100000x256_1_0_0_1_n_n 128 rfl rfl).symm k)
      = Cert.Spec.rc (A := 100000) (B := 128) (i 0).val k.val (i 0).isLt k.isLt := funext fun a => Fin.ext (by
    match a with
    | ⟨0, _⟩ => exact lhs_128_0 _ _
    | ⟨1, _⟩ => exact (lhs_128_1 _ _).trans hk)
  have er : dot_S100000x128_S128x256_S100000x256_1_0_0_1_n_n.rhsIdx i ((ValueIdx.contrEquiv1 dot_S100000x128_S128x256_S100000x256_1_0_0_1_n_n 128 rfl rfl).symm k)
      = Cert.Spec.rc (A := 128) (B := 256) k.val (i 1).val k.isLt (i 1).isLt := funext fun a => Fin.ext (by
    match a with
    | ⟨0, _⟩ => exact (rhs_128_0 _ _).trans hk
    | ⟨1, _⟩ => exact rhs_128_1 _ _)
  exact congrArg₂ (fun a b : EReal => a * b) (congrArg y el) (congrArg w er)

/-! ## 100000 × 256 times 256 × 256 -/

/-- The contraction runs over one axis. -/
theorem contr_rank_256 : dot_S100000x256_S256x256_S100000x256_1_0_0_1_n_n.contr.rank = 1 := rfl

/-- The left operand's index at output index `i` and contraction index `q`: row `i 0`, column `q`. -/
theorem lhs_256_0 (i : S100000x256.Idx) (q : dot_S100000x256_S256x256_S100000x256_1_0_0_1_n_n.contr.Idx) : (dot_S100000x256_S256x256_S100000x256_1_0_0_1_n_n.lhsIdx i q 0).val = (i 0).val := by
  unfold DotDims.lhsIdx
  rw [dif_neg (show ¬(0 : Fin S100000x256.rank) ∈ dot_S100000x256_S256x256_S100000x256_1_0_0_1_n_n.lhsBatch from List.not_mem_nil),
    dif_pos (show (0 : Fin S100000x256.rank) ∈ dot_S100000x256_S256x256_S100000x256_1_0_0_1_n_n.lhsNonContracting from List.mem_singleton.mpr rfl)]
  rfl
theorem lhs_256_1 (i : S100000x256.Idx) (q : dot_S100000x256_S256x256_S100000x256_1_0_0_1_n_n.contr.Idx) :
    (dot_S100000x256_S256x256_S100000x256_1_0_0_1_n_n.lhsIdx i q 1).val = (q ⟨0, by rw [contr_rank_256]; exact Nat.one_pos⟩).val :=
  dot_S100000x256_S256x256_S100000x256_1_0_0_1_n_n.lhsIdx_val_of_single rfl i q
/-- The right operand's: row `q`, column `i 1`. -/
theorem rhs_256_0 (i : S100000x256.Idx) (q : dot_S100000x256_S256x256_S100000x256_1_0_0_1_n_n.contr.Idx) :
    (dot_S100000x256_S256x256_S100000x256_1_0_0_1_n_n.rhsIdx i q 0).val = (q ⟨0, by rw [contr_rank_256]; exact Nat.one_pos⟩).val :=
  dot_S100000x256_S256x256_S100000x256_1_0_0_1_n_n.rhsIdx_val_of_single rfl i q
theorem rhs_256_1 (i : S100000x256.Idx) (q : dot_S100000x256_S256x256_S100000x256_1_0_0_1_n_n.contr.Idx) : (dot_S100000x256_S256x256_S100000x256_1_0_0_1_n_n.rhsIdx i q 1).val = (i 1).val := by
  unfold DotDims.rhsIdx
  rw [dif_neg (show ¬(1 : Fin S256x256.rank) ∈ dot_S100000x256_S256x256_S100000x256_1_0_0_1_n_n.rhsBatch from List.not_mem_nil),
    dif_pos (show (1 : Fin S256x256.rank) ∈ dot_S100000x256_S256x256_S100000x256_1_0_0_1_n_n.rhsNonContracting from List.mem_singleton.mpr rfl)]
  rfl

/-- The product at an entry: the sum over the inner index. -/
theorem dot_256_apply (y : S100000x256.Idx → EReal) (w : S256x256.Idx → EReal) (i : S100000x256.Idx) :
    Host.dotGeneral (F := Ideal) (φ₁ := .f32) (φ₂ := .f32) dot_S100000x256_S256x256_S100000x256_1_0_0_1_n_n none y w i
      = ∑ k : Fin 256, y (Cert.Spec.rc (A := 100000) (B := 256) (i 0).val k.val (i 0).isLt k.isLt)
          * w (Cert.Spec.rc (A := 256) (B := 256) k.val (i 1).val k.isLt (i 1).isLt) := by
  simp only [Host.dotGeneral]
  rw [Ideal.dotGeneral_apply, ← Equiv.sum_comp (ValueIdx.contrEquiv1 dot_S100000x256_S256x256_S100000x256_1_0_0_1_n_n 256 rfl rfl).symm]
  refine Finset.sum_congr rfl fun k _ => ?_
  have hk := ValueIdx.contrEquiv1_symm_val dot_S100000x256_S256x256_S100000x256_1_0_0_1_n_n 256 rfl rfl k
  have el : dot_S100000x256_S256x256_S100000x256_1_0_0_1_n_n.lhsIdx i ((ValueIdx.contrEquiv1 dot_S100000x256_S256x256_S100000x256_1_0_0_1_n_n 256 rfl rfl).symm k)
      = Cert.Spec.rc (A := 100000) (B := 256) (i 0).val k.val (i 0).isLt k.isLt := funext fun a => Fin.ext (by
    match a with
    | ⟨0, _⟩ => exact lhs_256_0 _ _
    | ⟨1, _⟩ => exact (lhs_256_1 _ _).trans hk)
  have er : dot_S100000x256_S256x256_S100000x256_1_0_0_1_n_n.rhsIdx i ((ValueIdx.contrEquiv1 dot_S100000x256_S256x256_S100000x256_1_0_0_1_n_n 256 rfl rfl).symm k)
      = Cert.Spec.rc (A := 256) (B := 256) k.val (i 1).val k.isLt (i 1).isLt := funext fun a => Fin.ext (by
    match a with
    | ⟨0, _⟩ => exact (rhs_256_0 _ _).trans hk
    | ⟨1, _⟩ => exact rhs_256_1 _ _)
  exact congrArg₂ (fun a b : EReal => a * b) (congrArg y el) (congrArg w er)

/-! ## 128 × 256 times 256 × 10 -/

/-- The contraction runs over one axis. -/
theorem contr_rank_pred : dot_S128x256_S256x10_S128x10_1_0_0_1_n_n.contr.rank = 1 := rfl

/-- The left operand's index at output index `i` and contraction index `q`: row `i 0`, column `q`. -/
theorem lhs_pred_0 (i : S128x10.Idx) (q : dot_S128x256_S256x10_S128x10_1_0_0_1_n_n.contr.Idx) : (dot_S128x256_S256x10_S128x10_1_0_0_1_n_n.lhsIdx i q 0).val = (i 0).val := by
  unfold DotDims.lhsIdx
  rw [dif_neg (show ¬(0 : Fin S128x256.rank) ∈ dot_S128x256_S256x10_S128x10_1_0_0_1_n_n.lhsBatch from List.not_mem_nil),
    dif_pos (show (0 : Fin S128x256.rank) ∈ dot_S128x256_S256x10_S128x10_1_0_0_1_n_n.lhsNonContracting from List.mem_singleton.mpr rfl)]
  rfl
theorem lhs_pred_1 (i : S128x10.Idx) (q : dot_S128x256_S256x10_S128x10_1_0_0_1_n_n.contr.Idx) :
    (dot_S128x256_S256x10_S128x10_1_0_0_1_n_n.lhsIdx i q 1).val = (q ⟨0, by rw [contr_rank_pred]; exact Nat.one_pos⟩).val :=
  dot_S128x256_S256x10_S128x10_1_0_0_1_n_n.lhsIdx_val_of_single rfl i q
/-- The right operand's: row `q`, column `i 1`. -/
theorem rhs_pred_0 (i : S128x10.Idx) (q : dot_S128x256_S256x10_S128x10_1_0_0_1_n_n.contr.Idx) :
    (dot_S128x256_S256x10_S128x10_1_0_0_1_n_n.rhsIdx i q 0).val = (q ⟨0, by rw [contr_rank_pred]; exact Nat.one_pos⟩).val :=
  dot_S128x256_S256x10_S128x10_1_0_0_1_n_n.rhsIdx_val_of_single rfl i q
theorem rhs_pred_1 (i : S128x10.Idx) (q : dot_S128x256_S256x10_S128x10_1_0_0_1_n_n.contr.Idx) : (dot_S128x256_S256x10_S128x10_1_0_0_1_n_n.rhsIdx i q 1).val = (i 1).val := by
  unfold DotDims.rhsIdx
  rw [dif_neg (show ¬(1 : Fin S256x10.rank) ∈ dot_S128x256_S256x10_S128x10_1_0_0_1_n_n.rhsBatch from List.not_mem_nil),
    dif_pos (show (1 : Fin S256x10.rank) ∈ dot_S128x256_S256x10_S128x10_1_0_0_1_n_n.rhsNonContracting from List.mem_singleton.mpr rfl)]
  rfl

/-- The product at an entry: the sum over the inner index. -/
theorem dot_pred_apply (y : S128x256.Idx → EReal) (w : S256x10.Idx → EReal) (i : S128x10.Idx) :
    Host.dotGeneral (F := Ideal) (φ₁ := .f32) (φ₂ := .f32) dot_S128x256_S256x10_S128x10_1_0_0_1_n_n none y w i
      = ∑ k : Fin 256, y (Cert.Spec.rc (A := 128) (B := 256) (i 0).val k.val (i 0).isLt k.isLt)
          * w (Cert.Spec.rc (A := 256) (B := 10) k.val (i 1).val k.isLt (i 1).isLt) := by
  simp only [Host.dotGeneral]
  rw [Ideal.dotGeneral_apply, ← Equiv.sum_comp (ValueIdx.contrEquiv1 dot_S128x256_S256x10_S128x10_1_0_0_1_n_n 256 rfl rfl).symm]
  refine Finset.sum_congr rfl fun k _ => ?_
  have hk := ValueIdx.contrEquiv1_symm_val dot_S128x256_S256x10_S128x10_1_0_0_1_n_n 256 rfl rfl k
  have el : dot_S128x256_S256x10_S128x10_1_0_0_1_n_n.lhsIdx i ((ValueIdx.contrEquiv1 dot_S128x256_S256x10_S128x10_1_0_0_1_n_n 256 rfl rfl).symm k)
      = Cert.Spec.rc (A := 128) (B := 256) (i 0).val k.val (i 0).isLt k.isLt := funext fun a => Fin.ext (by
    match a with
    | ⟨0, _⟩ => exact lhs_pred_0 _ _
    | ⟨1, _⟩ => exact (lhs_pred_1 _ _).trans hk)
  have er : dot_S128x256_S256x10_S128x10_1_0_0_1_n_n.rhsIdx i ((ValueIdx.contrEquiv1 dot_S128x256_S256x10_S128x10_1_0_0_1_n_n 256 rfl rfl).symm k)
      = Cert.Spec.rc (A := 256) (B := 10) k.val (i 1).val k.isLt (i 1).isLt := funext fun a => Fin.ext (by
    match a with
    | ⟨0, _⟩ => exact (rhs_pred_0 _ _).trans hk
    | ⟨1, _⟩ => exact rhs_pred_1 _ _)
  exact congrArg₂ (fun a b : EReal => a * b) (congrArg y el) (congrArg w er)

/-! ## The bias rows -/

/-- The bias row broadcast over the 100000 rows, at an entry: the rank-one array at the entry's column. -/
theorem bias_256_apply (v : S256.Idx → EReal) (i : S100000x256.Idx) (k : S256.Idx) (hk : (k 0).val = (i 1).val) :
    broadcastInDim S100000x256 ![0, 1] bcast_S1x256_S100000x256_0_1 (broadcastInDim S1x256 ![1] bcast_S256_S1x256_1 v) i = v k := by
  rw [broadcastInDim_apply _ bcast_S1x256_S100000x256_0_1 _ i (Cert.Spec.rc 0 (i 1).val Nat.one_pos (i 1).isLt) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])]
  exact broadcastInDim_apply _ bcast_S256_S1x256_1 v _ k (fun a => match a with
    | ⟨0, _⟩ => by show (k 0).val = if (256 : Nat) = 1 then 0 else (i 1).val; rw [if_neg (by decide)]; exact hk)

/-- The bias row broadcast over the 128 rows, at an entry: the rank-one array at the entry's column. -/
theorem bias_10_apply (v : S10.Idx → EReal) (i : S128x10.Idx) (k : S10.Idx) (hk : (k 0).val = (i 1).val) :
    broadcastInDim S128x10 ![0, 1] bcast_S1x10_S128x10_0_1 (broadcastInDim S1x10 ![1] bcast_S10_S1x10_1 v) i = v k := by
  rw [broadcastInDim_apply _ bcast_S1x10_S128x10_0_1 _ i (Cert.Spec.rc 0 (i 1).val Nat.one_pos (i 1).isLt) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])]
  exact broadcastInDim_apply _ bcast_S10_S1x10_1 v _ k (fun a => match a with
    | ⟨0, _⟩ => by show (k 0).val = if (10 : Nat) = 1 then 0 else (i 1).val; rw [if_neg (by decide)]; exact hk)

/-! ## The three linear maps -/

/-- The product plus the broadcast bias row is the linear map. -/
theorem dot_bias_128 (y : S100000x128.Idx → EReal) (w : S128x256.Idx → EReal) (v : S256.Idx → EReal)
    (b : (⟨2, ![1, 256]⟩ : Shape).Idx → EReal)
    (hb : ∀ j, b j = v (fun a => match a with | ⟨0, _⟩ => ⟨(j 1).val, (j 1).isLt⟩)) :
    addf (F := Ideal) (φ := .f32) (Host.dotGeneral (F := Ideal) (φ₁ := .f32) (φ₂ := .f32) dot_S100000x128_S128x256_S100000x256_1_0_0_1_n_n none y w)
        (broadcastInDim S100000x256 ![0, 1] bcast_S1x256_S100000x256_0_1 (broadcastInDim S1x256 ![1] bcast_S256_S1x256_1 v))
      = Cert.Spec.linear 100000 128 256 y w b := by
  funext i
  unfold Cert.Spec.linear
  rw [hb]
  show Host.dotGeneral (F := Ideal) (φ₁ := .f32) (φ₂ := .f32) dot_S100000x128_S128x256_S100000x256_1_0_0_1_n_n none y w i
      + broadcastInDim S100000x256 ![0, 1] bcast_S1x256_S100000x256_0_1 (broadcastInDim S1x256 ![1] bcast_S256_S1x256_1 v) i = _
  rw [dot_128_apply]
  refine congrArg (fun z : EReal => _ + z) ?_
  exact bias_256_apply v i _ (by rfl)

/-- The product plus the broadcast bias row is the linear map. -/
theorem dot_bias_256 (y : S100000x256.Idx → EReal) (w : S256x256.Idx → EReal) (v : S256.Idx → EReal)
    (b : (⟨2, ![1, 256]⟩ : Shape).Idx → EReal)
    (hb : ∀ j, b j = v (fun a => match a with | ⟨0, _⟩ => ⟨(j 1).val, (j 1).isLt⟩)) :
    addf (F := Ideal) (φ := .f32) (Host.dotGeneral (F := Ideal) (φ₁ := .f32) (φ₂ := .f32) dot_S100000x256_S256x256_S100000x256_1_0_0_1_n_n none y w)
        (broadcastInDim S100000x256 ![0, 1] bcast_S1x256_S100000x256_0_1 (broadcastInDim S1x256 ![1] bcast_S256_S1x256_1 v))
      = Cert.Spec.linear 100000 256 256 y w b := by
  funext i
  unfold Cert.Spec.linear
  rw [hb]
  show Host.dotGeneral (F := Ideal) (φ₁ := .f32) (φ₂ := .f32) dot_S100000x256_S256x256_S100000x256_1_0_0_1_n_n none y w i
      + broadcastInDim S100000x256 ![0, 1] bcast_S1x256_S100000x256_0_1 (broadcastInDim S1x256 ![1] bcast_S256_S1x256_1 v) i = _
  rw [dot_256_apply]
  refine congrArg (fun z : EReal => _ + z) ?_
  exact bias_256_apply v i _ (by rfl)

/-- The product plus the broadcast bias row is the linear map. -/
theorem dot_bias_pred (y : S128x256.Idx → EReal) (w : S256x10.Idx → EReal) (v : S10.Idx → EReal)
    (b : (⟨2, ![1, 10]⟩ : Shape).Idx → EReal)
    (hb : ∀ j, b j = v (fun a => match a with | ⟨0, _⟩ => ⟨(j 1).val, (j 1).isLt⟩)) :
    addf (F := Ideal) (φ := .f32) (Host.dotGeneral (F := Ideal) (φ₁ := .f32) (φ₂ := .f32) dot_S128x256_S256x10_S128x10_1_0_0_1_n_n none y w)
        (broadcastInDim S128x10 ![0, 1] bcast_S1x10_S128x10_0_1 (broadcastInDim S1x10 ![1] bcast_S10_S1x10_1 v))
      = Cert.Spec.linear 128 256 10 y w b := by
  funext i
  unfold Cert.Spec.linear
  rw [hb]
  show Host.dotGeneral (F := Ideal) (φ₁ := .f32) (φ₂ := .f32) dot_S128x256_S256x10_S128x10_1_0_0_1_n_n none y w i
      + broadcastInDim S128x10 ![0, 1] bcast_S1x10_S128x10_0_1 (broadcastInDim S1x10 ![1] bcast_S10_S1x10_1 v) i = _
  rw [dot_pred_apply]
  refine congrArg (fun z : EReal => _ + z) ?_
  exact bias_10_apply v i _ (by rfl)

/-- The same, the bias row given by any index of the rank-one array with the entry's column. -/
theorem dot_bias_128' (y : S100000x128.Idx → EReal) (w : S128x256.Idx → EReal) (v : S256.Idx → EReal)
    (b : (⟨2, ![1, 256]⟩ : Shape).Idx → EReal)
    (hb : ∀ (j : (⟨2, ![1, 256]⟩ : Shape).Idx) (k : S256.Idx), (k 0).val = (j 1).val → b j = v k) :
    addf (F := Ideal) (φ := .f32) (Host.dotGeneral (F := Ideal) (φ₁ := .f32) (φ₂ := .f32) dot_S100000x128_S128x256_S100000x256_1_0_0_1_n_n none y w)
        (broadcastInDim S100000x256 ![0, 1] bcast_S1x256_S100000x256_0_1 (broadcastInDim S1x256 ![1] bcast_S256_S1x256_1 v))
      = Cert.Spec.linear 100000 128 256 y w b :=
  dot_bias_128 y w v b (fun j => hb j _ rfl)

/-- The same, the bias row given by any index of the rank-one array with the entry's column. -/
theorem dot_bias_256' (y : S100000x256.Idx → EReal) (w : S256x256.Idx → EReal) (v : S256.Idx → EReal)
    (b : (⟨2, ![1, 256]⟩ : Shape).Idx → EReal)
    (hb : ∀ (j : (⟨2, ![1, 256]⟩ : Shape).Idx) (k : S256.Idx), (k 0).val = (j 1).val → b j = v k) :
    addf (F := Ideal) (φ := .f32) (Host.dotGeneral (F := Ideal) (φ₁ := .f32) (φ₂ := .f32) dot_S100000x256_S256x256_S100000x256_1_0_0_1_n_n none y w)
        (broadcastInDim S100000x256 ![0, 1] bcast_S1x256_S100000x256_0_1 (broadcastInDim S1x256 ![1] bcast_S256_S1x256_1 v))
      = Cert.Spec.linear 100000 256 256 y w b :=
  dot_bias_256 y w v b (fun j => hb j _ rfl)

/-- The same, the bias row given by any index of the rank-one array with the entry's column. -/
theorem dot_bias_pred' (y : S128x256.Idx → EReal) (w : S256x10.Idx → EReal) (v : S10.Idx → EReal)
    (b : (⟨2, ![1, 10]⟩ : Shape).Idx → EReal)
    (hb : ∀ (j : (⟨2, ![1, 10]⟩ : Shape).Idx) (k : S10.Idx), (k 0).val = (j 1).val → b j = v k) :
    addf (F := Ideal) (φ := .f32) (Host.dotGeneral (F := Ideal) (φ₁ := .f32) (φ₂ := .f32) dot_S128x256_S256x10_S128x10_1_0_0_1_n_n none y w)
        (broadcastInDim S128x10 ![0, 1] bcast_S1x10_S128x10_0_1 (broadcastInDim S1x10 ![1] bcast_S10_S1x10_1 v))
      = Cert.Spec.linear 128 256 10 y w b :=
  dot_bias_pred y w v b (fun j => hb j _ rfl)

end Cert.ReferenceIdeal.RefLinear

end
-- ==== Proof.Bridge.lean ====
/-
  The bridge: the idealized kernel's result is the reference network of the argument arrays, when every
  floating-point argument array is real-valued (no infinity occurs).

  Layer by layer. The kernel's linear map is the closed form `Cert.Spec.linear` with the bias reshaped into one
  row; the reference's is the host's product plus the bias broadcast to every row: the same function. After it the
  kernel applies `x · scale + shift`, the reference `γ · (x − μ · ms) · s + β`; these agree entry by entry once every
  ingredient is real, and every stage of the network keeps real arrays real, so the hypothesis on the arguments
  carries through the four layers. The read-out is a linear map again.
-/
import proofs.«107967_j28716151341434_1_alg».proof.Proof.KChain
import proofs.«107967_j28716151341434_1_alg».proof.Proof.Algebra
import proofs.«107967_j28716151341434_1_alg».proof.Proof.StageReal
import proofs.«107967_j28716151341434_1_alg».proof.Proof.RefLinear
import Idealize.ShloMosaic.Lib.Pipeline.Value

set_option maxRecDepth 16384

noncomputable section

namespace Cert.Bridge

/-! ## The linear maps: the kernel's closed form is the reference's product plus broadcast bias -/

section Generic

open Cert.ReferenceIdeal Cert.ReferenceIdeal.Stage Cert.ReferenceIdeal.Facts₀ Cert.ReferenceIdeal.StageReal Cert.Spec Idealize.ShloMosaic

/-- A vector of `n` entries reshaped into one row, read at an entry: the vector at the entry's column. -/
theorem row_cast_apply {n : Nat} (v : (⟨1, ![n]⟩ : Shape).Idx → EReal) (hc : (⟨1, ![n]⟩ : Shape).ShapeCasts ⟨2, ![1, n]⟩)
    (j : (⟨2, ![1, n]⟩ : Shape).Idx) (k : (⟨1, ![n]⟩ : Shape).Idx) (hk : (k 0).val = (j 1).val) :
    shapeCast (⟨2, ![1, n]⟩ : Shape) v hc j = v k := by
  refine shapeCast_apply v hc j k ?_
  rw [Shape.rowMajor_val_one, Shape.rowMajor_val_two]
  have h0 : (j 0).val < 1 := (j 0).isLt
  show (k 0).val = (j 0).val * n + (j 1).val
  rw [hk, show (j 0).val = 0 by omega]; omega

theorem lin128_eq (y : FVec Ideal S100000x128 .f32) (w : FVec Ideal S128x256 .f32) (v : FVec Ideal S256 .f32)
    (hc : S256.ShapeCasts S1x256) :
    linear 100000 128 256 y w (shapeCast S1x256 v hc) = lin128 y w v :=
  (RefLinear.dot_bias_128' y w v _ (fun j k hk => row_cast_apply v hc j k hk)).symm

theorem lin256_eq (y : FVec Ideal S100000x256 .f32) (w : FVec Ideal S256x256 .f32) (v : FVec Ideal S256 .f32)
    (hc : S256.ShapeCasts S1x256) :
    linear 100000 256 256 y w (shapeCast S1x256 v hc) = lin256 y w v :=
  (RefLinear.dot_bias_256' y w v _ (fun j k hk => row_cast_apply v hc j k hk)).symm

theorem readout_eq (h : FVec Ideal S100000x256 .f32) (b : IVec S100000 32) (w : FVec Ideal S256x10 .f32) (v : FVec Ideal S10 .f32)
    (hc : S10.ShapeCasts S1x10) :
    linear 128 256 10 (segSum h b) w (shapeCast S1x10 v hc) = readout h b w v :=
  (RefLinear.dot_bias_pred' (segSum h b) w v _ (fun j k hk => row_cast_apply v hc j k hk)).symm

/-! ## One layer: the kernel's affine form after the linear map is the reference's layer -/

/-- Layer 0: positive part of the kernel's affine form of `x`, when `x` is the layer's linear map. -/
theorem step0 (x : FVec Ideal S100000x256 .f32) (h : FVec Ideal S100000x128 .f32) (src dst : IVec S320000 32) (b : IVec S100000 32)
    (W : FVec Ideal S128x256 .f32) (bias gam bet ms : FVec Ideal S256 .f32)
    (hx : x = lin128 (agg128 h (dinv src) (dinv dst) src dst) W bias)
    (hh : AllReal h) (hW : AllReal W) (hbias : AllReal bias) (hgam : AllReal gam) (hbet : AllReal bet) (hms : AllReal ms) :
    affRelu x (scaleK x (counts b) b gam ms) (shiftK x (counts b) b gam bet ms) = layer0 h src dst b W bias gam bet ms := by
  subst hx
  have hx : AllReal (lin128 (agg128 h (dinv src) (dinv dst) src dst) W bias) :=
    allReal_lin128 _ W bias (allReal_agg128 h src dst hh) hW hbias
  exact Algebra.affRelu_eq _ (counts b) b gam bet ms hx (allReal_rowB gam hgam) (allReal_rowB bet hbet) (allReal_rowB ms hms)
    (allReal_mean _ b hx) (allReal_invStd _ b ms hx hms)

/-- Layers 1–3: the same with the residual. -/
theorem stepR (x : FVec Ideal S100000x256 .f32) (h : FVec Ideal S100000x256 .f32) (src dst : IVec S320000 32) (b : IVec S100000 32)
    (W : FVec Ideal S256x256 .f32) (bias gam bet ms : FVec Ideal S256 .f32)
    (hx : x = lin256 (agg256 h (dinv src) (dinv dst) src dst) W bias)
    (hh : AllReal h) (hW : AllReal W) (hbias : AllReal bias) (hgam : AllReal gam) (hbet : AllReal bet) (hms : AllReal ms) :
    affReluRes x (scaleK x (counts b) b gam ms) (shiftK x (counts b) b gam bet ms) h = layerR h src dst b W bias gam bet ms := by
  subst hx
  have hx : AllReal (lin256 (agg256 h (dinv src) (dinv dst) src dst) W bias) :=
    allReal_lin256 _ W bias (allReal_agg256 h src dst hh) hW hbias
  exact Algebra.affReluRes_eq _ (counts b) b gam bet ms h hx (allReal_rowB gam hgam) (allReal_rowB bet hbet) (allReal_rowB ms hms)
    (allReal_mean _ b hx) (allReal_invStd _ b ms hx hms)

end Generic

/-! ## The kernel's values are the reference's, layer by layer -/

section Kernel

open Cert.KernelIdeal Cert.KernelIdeal.Gen Cert.KernelIdeal.Chain Cert.ReferenceIdeal.Stage Cert.ReferenceIdeal.StageReal Cert.Spec
open Idealize.ShloMosaic Idealize.ShloMosaic.TcCoe

variable (m : (ℓ : Loc nD τ sig) → Buf (Elt Ideal) ℓ) (c : Dev nD)

theorem X0_eq : X0 m c = lin128 (agg128 (m ((c : Thread nD τ).loc main_arg0)) (dinv (m ((c : Thread nD τ).loc main_arg1))) (dinv (m ((c : Thread nD τ).loc main_arg2))) (m ((c : Thread nD τ).loc main_arg1)) (m ((c : Thread nD τ).loc main_arg2))) (m ((c : Thread nD τ).loc main_arg4)) (m ((c : Thread nD τ).loc main_arg5)) := by
  unfold X0; exact lin128_eq _ _ _ _

theorem X1_eq : X1 m c = lin256 (agg256 (H1 m c) (dinv (m ((c : Thread nD τ).loc main_arg1))) (dinv (m ((c : Thread nD τ).loc main_arg2))) (m ((c : Thread nD τ).loc main_arg1)) (m ((c : Thread nD τ).loc main_arg2))) (mat3_0 (m ((c : Thread nD τ).loc main_arg6))) (row3_0 (m ((c : Thread nD τ).loc main_arg7))) := by
  unfold X1; exact lin256_eq _ _ _ _

theorem X2_eq : X2 m c = lin256 (agg256 (H2 m c) (dinv (m ((c : Thread nD τ).loc main_arg1))) (dinv (m ((c : Thread nD τ).loc main_arg2))) (m ((c : Thread nD τ).loc main_arg1)) (m ((c : Thread nD τ).loc main_arg2))) (mat3_1 (m ((c : Thread nD τ).loc main_arg6))) (row3_1 (m ((c : Thread nD τ).loc main_arg7))) := by
  unfold X2; exact lin256_eq _ _ _ _

theorem X3_eq : X3 m c = lin256 (agg256 (H3 m c) (dinv (m ((c : Thread nD τ).loc main_arg1))) (dinv (m ((c : Thread nD τ).loc main_arg2))) (m ((c : Thread nD τ).loc main_arg1)) (m ((c : Thread nD τ).loc main_arg2))) (mat3_2 (m ((c : Thread nD τ).loc main_arg6))) (row3_2 (m ((c : Thread nD τ).loc main_arg7))) := by
  unfold X3; exact lin256_eq _ _ _ _

variable (h0 : AllReal (s := Cert.ReferenceIdeal.S100000x128) (m ((c : Thread nD τ).loc main_arg0))) (h4 : AllReal (s := Cert.ReferenceIdeal.S128x256) (m ((c : Thread nD τ).loc main_arg4)))
  (h5 : AllReal (s := Cert.ReferenceIdeal.S256) (m ((c : Thread nD τ).loc main_arg5))) (h6 : AllReal (s := Cert.ReferenceIdeal.S3x256x256) (m ((c : Thread nD τ).loc main_arg6)))
  (h7 : AllReal (s := Cert.ReferenceIdeal.S3x256) (m ((c : Thread nD τ).loc main_arg7))) (h8 : AllReal (s := Cert.ReferenceIdeal.S4x256) (m ((c : Thread nD τ).loc main_arg8)))
  (h9 : AllReal (s := Cert.ReferenceIdeal.S4x256) (m ((c : Thread nD τ).loc main_arg9))) (h10 : AllReal (s := Cert.ReferenceIdeal.S4x256) (m ((c : Thread nD τ).loc main_arg10)))
  (h11 : AllReal (s := Cert.ReferenceIdeal.S256x10) (m ((c : Thread nD τ).loc main_arg11))) (h12 : AllReal (s := Cert.ReferenceIdeal.S10) (m ((c : Thread nD τ).loc main_arg12)))

include h0 h4 h5 h8 h9 h10 in
theorem H1_eq : H1 m c = layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row4_0 (m ((c : Thread nD τ).loc main_arg8))) (row4_0 (m ((c : Thread nD τ).loc main_arg9))) (row4_0 (m ((c : Thread nD τ).loc main_arg10))) := by
  unfold H1
  exact step0 (X0 m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row4_0 (m ((c : Thread nD τ).loc main_arg8))) (row4_0 (m ((c : Thread nD τ).loc main_arg9))) (row4_0 (m ((c : Thread nD τ).loc main_arg10))) (X0_eq m c) h0 h4 h5
    (allReal_row4_0 _ h8) (allReal_row4_0 _ h9) (allReal_row4_0 _ h10)

include h0 h4 h5 h8 h9 h10 in
theorem real_H1 : AllReal (H1 m c) := by
  rw [H1_eq m c h0 h4 h5 h8 h9 h10]
  exact allReal_layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row4_0 (m ((c : Thread nD τ).loc main_arg8))) (row4_0 (m ((c : Thread nD τ).loc main_arg9))) (row4_0 (m ((c : Thread nD τ).loc main_arg10))) h0 h4 h5
    (allReal_row4_0 _ h8) (allReal_row4_0 _ h9) (allReal_row4_0 _ h10)

include h6 h7 h8 h9 h10 in
theorem H2_eq (r1 : AllReal (H1 m c)) :
    H2 m c = layerR (H1 m c) (m ((c : Thread nD τ).loc main_arg1)) (m ((c : Thread nD τ).loc main_arg2)) (m ((c : Thread nD τ).loc main_arg3)) (mat3_0 (m ((c : Thread nD τ).loc main_arg6))) (row3_0 (m ((c : Thread nD τ).loc main_arg7))) (row4_1 (m ((c : Thread nD τ).loc main_arg8))) (row4_1 (m ((c : Thread nD τ).loc main_arg9))) (row4_1 (m ((c : Thread nD τ).loc main_arg10))) := by
  unfold H2
  exact stepR (X1 m c) (H1 m c) (m ((c : Thread nD τ).loc main_arg1)) (m ((c : Thread nD τ).loc main_arg2)) (m ((c : Thread nD τ).loc main_arg3)) (mat3_0 (m ((c : Thread nD τ).loc main_arg6))) (row3_0 (m ((c : Thread nD τ).loc main_arg7))) (row4_1 (m ((c : Thread nD τ).loc main_arg8))) (row4_1 (m ((c : Thread nD τ).loc main_arg9))) (row4_1 (m ((c : Thread nD τ).loc main_arg10))) (X1_eq m c) r1
    (allReal_mat3_0 _ h6) (allReal_row3_0 _ h7) (allReal_row4_1 _ h8) (allReal_row4_1 _ h9) (allReal_row4_1 _ h10)

include h6 h7 h8 h9 h10 in
theorem real_H2 (r1 : AllReal (H1 m c)) : AllReal (H2 m c) := by
  rw [H2_eq m c h6 h7 h8 h9 h10 r1]
  exact allReal_layerR (H1 m c) (m ((c : Thread nD τ).loc main_arg1)) (m ((c : Thread nD τ).loc main_arg2)) (m ((c : Thread nD τ).loc main_arg3)) (mat3_0 (m ((c : Thread nD τ).loc main_arg6))) (row3_0 (m ((c : Thread nD τ).loc main_arg7))) (row4_1 (m ((c : Thread nD τ).loc main_arg8))) (row4_1 (m ((c : Thread nD τ).loc main_arg9))) (row4_1 (m ((c : Thread nD τ).loc main_arg10))) r1
    (allReal_mat3_0 _ h6) (allReal_row3_0 _ h7) (allReal_row4_1 _ h8) (allReal_row4_1 _ h9) (allReal_row4_1 _ h10)

include h6 h7 h8 h9 h10 in
theorem H3_eq (r2 : AllReal (H2 m c)) :
    H3 m c = layerR (H2 m c) (m ((c : Thread nD τ).loc main_arg1)) (m ((c : Thread nD τ).loc main_arg2)) (m ((c : Thread nD τ).loc main_arg3)) (mat3_1 (m ((c : Thread nD τ).loc main_arg6))) (row3_1 (m ((c : Thread nD τ).loc main_arg7))) (row4_2 (m ((c : Thread nD τ).loc main_arg8))) (row4_2 (m ((c : Thread nD τ).loc main_arg9))) (row4_2 (m ((c : Thread nD τ).loc main_arg10))) := by
  unfold H3
  exact stepR (X2 m c) (H2 m c) (m ((c : Thread nD τ).loc main_arg1)) (m ((c : Thread nD τ).loc main_arg2)) (m ((c : Thread nD τ).loc main_arg3)) (mat3_1 (m ((c : Thread nD τ).loc main_arg6))) (row3_1 (m ((c : Thread nD τ).loc main_arg7))) (row4_2 (m ((c : Thread nD τ).loc main_arg8))) (row4_2 (m ((c : Thread nD τ).loc main_arg9))) (row4_2 (m ((c : Thread nD τ).loc main_arg10))) (X2_eq m c) r2
    (allReal_mat3_1 _ h6) (allReal_row3_1 _ h7) (allReal_row4_2 _ h8) (allReal_row4_2 _ h9) (allReal_row4_2 _ h10)

include h6 h7 h8 h9 h10 in
theorem real_H3 (r2 : AllReal (H2 m c)) : AllReal (H3 m c) := by
  rw [H3_eq m c h6 h7 h8 h9 h10 r2]
  exact allReal_layerR (H2 m c) (m ((c : Thread nD τ).loc main_arg1)) (m ((c : Thread nD τ).loc main_arg2)) (m ((c : Thread nD τ).loc main_arg3)) (mat3_1 (m ((c : Thread nD τ).loc main_arg6))) (row3_1 (m ((c : Thread nD τ).loc main_arg7))) (row4_2 (m ((c : Thread nD τ).loc main_arg8))) (row4_2 (m ((c : Thread nD τ).loc main_arg9))) (row4_2 (m ((c : Thread nD τ).loc main_arg10))) r2
    (allReal_mat3_1 _ h6) (allReal_row3_1 _ h7) (allReal_row4_2 _ h8) (allReal_row4_2 _ h9) (allReal_row4_2 _ h10)

include h6 h7 h8 h9 h10 in
theorem H4_eq (r3 : AllReal (H3 m c)) :
    H4 m c = layerR (H3 m c) (m ((c : Thread nD τ).loc main_arg1)) (m ((c : Thread nD τ).loc main_arg2)) (m ((c : Thread nD τ).loc main_arg3)) (mat3_2 (m ((c : Thread nD τ).loc main_arg6))) (row3_2 (m ((c : Thread nD τ).loc main_arg7))) (row4_3 (m ((c : Thread nD τ).loc main_arg8))) (row4_3 (m ((c : Thread nD τ).loc main_arg9))) (row4_3 (m ((c : Thread nD τ).loc main_arg10))) := by
  unfold H4
  exact stepR (X3 m c) (H3 m c) (m ((c : Thread nD τ).loc main_arg1)) (m ((c : Thread nD τ).loc main_arg2)) (m ((c : Thread nD τ).loc main_arg3)) (mat3_2 (m ((c : Thread nD τ).loc main_arg6))) (row3_2 (m ((c : Thread nD τ).loc main_arg7))) (row4_3 (m ((c : Thread nD τ).loc main_arg8))) (row4_3 (m ((c : Thread nD τ).loc main_arg9))) (row4_3 (m ((c : Thread nD τ).loc main_arg10))) (X3_eq m c) r3
    (allReal_mat3_2 _ h6) (allReal_row3_2 _ h7) (allReal_row4_3 _ h8) (allReal_row4_3 _ h9) (allReal_row4_3 _ h10)

theorem OUT_eq : OUT m c = readout (H4 m c) (m ((c : Thread nD τ).loc main_arg3)) (m ((c : Thread nD τ).loc main_arg11)) (m ((c : Thread nD τ).loc main_arg12)) := by
  unfold OUT; exact readout_eq _ _ _ _ _

include h0 h4 h5 h6 h7 h8 h9 h10 h11 h12 in
/-- The kernel's result is the reference network of the argument arrays, when every floating-point argument array is
    real-valued. -/
theorem out_eq : OUT m c = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e1 := H1_eq m c h0 h4 h5 h8 h9 h10
  have r1 := real_H1 m c h0 h4 h5 h8 h9 h10
  have e2 := H2_eq m c h6 h7 h8 h9 h10 r1
  have r2 := real_H2 m c h6 h7 h8 h9 h10 r1
  have e3 := H3_eq m c h6 h7 h8 h9 h10 r2
  have r3 := real_H3 m c h6 h7 h8 h9 h10 r2
  have e4 := H4_eq m c h6 h7 h8 h9 h10 r3
  rw [OUT_eq, e4, e3, e2, e1]
  rfl

end Kernel

end Cert.Bridge

end
-- ==== Proof.RefValue.lean ====
/-
  The value of the reference program: after its 370 operations the result buffer holds the network of the stage functions
  applied to the thirteen argument arrays, and the arguments are unchanged.

  The operation list is the concatenation of 21 pieces. For each piece and an ARBITRARY valuation of the buffers, one lemma
  says what the piece leaves in the buffers later pieces read, as a stage function of the buffers it reads; a buffer a
  piece does not write keeps its contents. The whole value is the chain of these facts through the pieces in order: no
  step ever opens the composed term, in which every layer's input occurs several times.
-/
import proofs.«107967_j28716151341434_1_alg».proof.Proof.RefRunOps
import proofs.«107967_j28716151341434_1_alg».proof.Proof.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The contents of the TensorCore buffer `r` under the valuation `V`. -/
local notation:max V "⟦" r "⟧" => V (Proc.devRef (τ := τ) Proc.tc r)

/-! ## Lines of operations -/

/-- Running two lines one after the other is running their concatenation. -/
theorem after_append (l₁ l₂ : List (HloOp τ sig (Elt Ideal))) :
    ∀ V : Valuation τ sig (Elt Ideal), after (l₁ ++ l₂) V = after l₂ (after l₁ V) := by
  induction l₁ with
  | nil => intro V; rfl
  | cons op l ih => intro V; exact ih _

/-- An operation whose one written buffer is among the listed references writes inside the list. -/
theorem writes_sub_of_mem {op : HloOp τ sig (Elt Ideal)} {W : List (Ref sig .tc)} (y : Ref sig .tc)
    (hw : op.writes = {Proc.devRef .tc y}) (hy : y ∈ W) : op.writes ⊆ (W.map (Proc.devRef (τ := τ) .tc)).toFinset := by
  rw [hw, Finset.singleton_subset_iff, List.mem_toFinset]; exact List.mem_map.2 ⟨y, hy, rfl⟩

/-- A buffer a line does not write holds afterwards what it held before. -/
theorem keep1 {seg : List (HloOp τ sig (Elt Ideal))} {W : List (Ref sig .tc)} {r : Ref sig .tc} {V : Valuation τ sig (Elt Ideal)}
    {t : (Proc.devRef (τ := τ) Proc.tc r).ty.Contents (Elt Ideal)}
    (hW : seg.Forall fun op => op.writes ⊆ (W.map (Proc.devRef (τ := τ) .tc)).toFinset) (hr : r ∉ W) (h : V⟦r⟧ = t) :
    (after seg V)⟦r⟧ = t :=
  (after_of_writes_sub seg V hW hr).trans h

/-! ## What each piece writes -/

/-- The buffers opsP writes, in order. -/
abbrev WP : List (Ref sig .tc) := [main_cst, main_v0, main_cst_0, main_v1, main_v2, main_v3, main_cst_1, main_v4, main_v5, main_cst_2, main_v6, main_v7, main_v8, main_cst_3, main_v9, main_v10, main_v11, main_v12, main_cst_4, main_v13, main_cst_5, main_v14, main_v15, main_v16, main_cst_6, main_v17, main_v18]
set_option maxRecDepth 16384 in
theorem opsP_writes : (opsP (F := Ideal)).Forall fun op => op.writes ⊆ (WP.map (Proc.devRef (τ := τ) .tc)).toFinset :=
  ⟨writes_sub_of_mem main_cst rfl (by decide), writes_sub_of_mem main_v0 rfl (by decide), writes_sub_of_mem main_cst_0 rfl (by decide), writes_sub_of_mem main_v1 rfl (by decide), writes_sub_of_mem main_v2 rfl (by decide), writes_sub_of_mem main_v3 rfl (by decide), writes_sub_of_mem main_cst_1 rfl (by decide), writes_sub_of_mem main_v4 rfl (by decide), writes_sub_of_mem main_v5 rfl (by decide), writes_sub_of_mem main_cst_2 rfl (by decide), writes_sub_of_mem main_v6 rfl (by decide), writes_sub_of_mem main_v7 rfl (by decide), writes_sub_of_mem main_v8 rfl (by decide), writes_sub_of_mem main_cst_3 rfl (by decide), writes_sub_of_mem main_v9 rfl (by decide), writes_sub_of_mem main_v10 rfl (by decide), writes_sub_of_mem main_v11 rfl (by decide), writes_sub_of_mem main_v12 rfl (by decide), writes_sub_of_mem main_cst_4 rfl (by decide), writes_sub_of_mem main_v13 rfl (by decide), writes_sub_of_mem main_cst_5 rfl (by decide), writes_sub_of_mem main_v14 rfl (by decide), writes_sub_of_mem main_v15 rfl (by decide), writes_sub_of_mem main_v16 rfl (by decide), writes_sub_of_mem main_cst_6 rfl (by decide), writes_sub_of_mem main_v17 rfl (by decide), writes_sub_of_mem main_v18 rfl (by decide)⟩

/-- The buffers opsA0 writes, in order. -/
abbrev WA0 : List (Ref sig .tc) := [main_v19, main_v20, main_v21, main_c, main_v22, main_v23, main_c_7, main_v24, main_v25, main_v26, main_v27, main_v28, main_cst_8, main_v29, main_v30, main_v31, main_v32, main_v33, main_v34, main_v35, main_v36, main_v37, main_v38]
set_option maxRecDepth 16384 in
theorem opsA0_writes : (opsA0 (F := Ideal)).Forall fun op => op.writes ⊆ (WA0.map (Proc.devRef (τ := τ) .tc)).toFinset :=
  ⟨writes_sub_of_mem main_v19 rfl (by decide), writes_sub_of_mem main_v20 rfl (by decide), writes_sub_of_mem main_v21 rfl (by decide), writes_sub_of_mem main_c rfl (by decide), writes_sub_of_mem main_v22 rfl (by decide), writes_sub_of_mem main_v23 rfl (by decide), writes_sub_of_mem main_c_7 rfl (by decide), writes_sub_of_mem main_v24 rfl (by decide), writes_sub_of_mem main_v25 rfl (by decide), writes_sub_of_mem main_v26 rfl (by decide), writes_sub_of_mem main_v27 rfl (by decide), writes_sub_of_mem main_v28 rfl (by decide), writes_sub_of_mem main_cst_8 rfl (by decide), writes_sub_of_mem main_v29 rfl (by decide), writes_sub_of_mem main_v30 rfl (by decide), writes_sub_of_mem main_v31 rfl (by decide), writes_sub_of_mem main_v32 rfl (by decide), writes_sub_of_mem main_v33 rfl (by decide), writes_sub_of_mem main_v34 rfl (by decide), writes_sub_of_mem main_v35 rfl (by decide), writes_sub_of_mem main_v36 rfl (by decide), writes_sub_of_mem main_v37 rfl (by decide), writes_sub_of_mem main_v38 rfl (by decide)⟩

/-- The buffers opsR0 writes, in order. -/
abbrev WR0 : List (Ref sig .tc) := [main_v39, main_v40, main_v41, main_v42, main_v43, main_v44]
set_option maxRecDepth 16384 in
theorem opsR0_writes : (opsR0 (F := Ideal)).Forall fun op => op.writes ⊆ (WR0.map (Proc.devRef (τ := τ) .tc)).toFinset :=
  ⟨writes_sub_of_mem main_v39 rfl (by decide), writes_sub_of_mem main_v40 rfl (by decide), writes_sub_of_mem main_v41 rfl (by decide), writes_sub_of_mem main_v42 rfl (by decide), writes_sub_of_mem main_v43 rfl (by decide), writes_sub_of_mem main_v44 rfl (by decide)⟩

/-- The buffers opsN0 writes, in order. -/
abbrev WN0 : List (Ref sig .tc) := [main_cst_9, main_v45, main_v46, main_v47, main_v48, main_v49, main_v50, main_c_10, main_v51, main_v52, main_c_11, main_v53, main_v54, main_v55, main_v56, main_v57, main_v58, main_v59, main_v60, main_v61, main_v62, main_cst_12, main_v63, main_v64, main_v65, main_v66, main_v67, main_v68, main_cst_13, main_v69, main_v70, main_v71, main_v72, main_v73, main_v74, main_c_14, main_v75, main_v76, main_c_15, main_v77, main_v78, main_v79, main_v80, main_v81, main_v82, main_v83, main_v84, main_v85]
set_option maxRecDepth 16384 in
theorem opsN0_writes : (opsN0 (F := Ideal)).Forall fun op => op.writes ⊆ (WN0.map (Proc.devRef (τ := τ) .tc)).toFinset :=
  ⟨writes_sub_of_mem main_cst_9 rfl (by decide), writes_sub_of_mem main_v45 rfl (by decide), writes_sub_of_mem main_v46 rfl (by decide), writes_sub_of_mem main_v47 rfl (by decide), writes_sub_of_mem main_v48 rfl (by decide), writes_sub_of_mem main_v49 rfl (by decide), writes_sub_of_mem main_v50 rfl (by decide), writes_sub_of_mem main_c_10 rfl (by decide), writes_sub_of_mem main_v51 rfl (by decide), writes_sub_of_mem main_v52 rfl (by decide), writes_sub_of_mem main_c_11 rfl (by decide), writes_sub_of_mem main_v53 rfl (by decide), writes_sub_of_mem main_v54 rfl (by decide), writes_sub_of_mem main_v55 rfl (by decide), writes_sub_of_mem main_v56 rfl (by decide), writes_sub_of_mem main_v57 rfl (by decide), writes_sub_of_mem main_v58 rfl (by decide), writes_sub_of_mem main_v59 rfl (by decide), writes_sub_of_mem main_v60 rfl (by decide), writes_sub_of_mem main_v61 rfl (by decide), writes_sub_of_mem main_v62 rfl (by decide), writes_sub_of_mem main_cst_12 rfl (by decide), writes_sub_of_mem main_v63 rfl (by decide), writes_sub_of_mem main_v64 rfl (by decide), writes_sub_of_mem main_v65 rfl (by decide), writes_sub_of_mem main_v66 rfl (by decide), writes_sub_of_mem main_v67 rfl (by decide), writes_sub_of_mem main_v68 rfl (by decide), writes_sub_of_mem main_cst_13 rfl (by decide), writes_sub_of_mem main_v69 rfl (by decide), writes_sub_of_mem main_v70 rfl (by decide), writes_sub_of_mem main_v71 rfl (by decide), writes_sub_of_mem main_v72 rfl (by decide), writes_sub_of_mem main_v73 rfl (by decide), writes_sub_of_mem main_v74 rfl (by decide), writes_sub_of_mem main_c_14 rfl (by decide), writes_sub_of_mem main_v75 rfl (by decide), writes_sub_of_mem main_v76 rfl (by decide), writes_sub_of_mem main_c_15 rfl (by decide), writes_sub_of_mem main_v77 rfl (by decide), writes_sub_of_mem main_v78 rfl (by decide), writes_sub_of_mem main_v79 rfl (by decide), writes_sub_of_mem main_v80 rfl (by decide), writes_sub_of_mem main_v81 rfl (by decide), writes_sub_of_mem main_v82 rfl (by decide), writes_sub_of_mem main_v83 rfl (by decide), writes_sub_of_mem main_v84 rfl (by decide), writes_sub_of_mem main_v85 rfl (by decide)⟩

/-- The buffers opsU0 writes, in order. -/
abbrev WU0 : List (Ref sig .tc) := [main_call0_cst, main_call0_v0, main_v86]
set_option maxRecDepth 16384 in
theorem opsU0_writes : (opsU0 (F := Ideal)).Forall fun op => op.writes ⊆ (WU0.map (Proc.devRef (τ := τ) .tc)).toFinset :=
  ⟨writes_sub_of_mem main_call0_cst rfl (by decide), writes_sub_of_mem main_call0_v0 rfl (by decide), writes_sub_of_mem main_v86 rfl (by decide)⟩

/-- The buffers opsM1 writes, in order. -/
abbrev WM1 : List (Ref sig .tc) := [main_v87, main_v88, main_v89, main_v90]
set_option maxRecDepth 16384 in
theorem opsM1_writes : (opsM1 (F := Ideal)).Forall fun op => op.writes ⊆ (WM1.map (Proc.devRef (τ := τ) .tc)).toFinset :=
  ⟨writes_sub_of_mem main_v87 rfl (by decide), writes_sub_of_mem main_v88 rfl (by decide), writes_sub_of_mem main_v89 rfl (by decide), writes_sub_of_mem main_v90 rfl (by decide)⟩

/-- The buffers opsA1 writes, in order. -/
abbrev WA1 : List (Ref sig .tc) := [main_v91, main_v92, main_v93, main_c_16, main_v94, main_v95, main_c_17, main_v96, main_v97, main_v98, main_v99, main_v100, main_cst_18, main_v101, main_v102, main_v103, main_v104, main_v105, main_v106, main_v107, main_v108, main_v109, main_v110]
set_option maxRecDepth 16384 in
theorem opsA1_writes : (opsA1 (F := Ideal)).Forall fun op => op.writes ⊆ (WA1.map (Proc.devRef (τ := τ) .tc)).toFinset :=
  ⟨writes_sub_of_mem main_v91 rfl (by decide), writes_sub_of_mem main_v92 rfl (by decide), writes_sub_of_mem main_v93 rfl (by decide), writes_sub_of_mem main_c_16 rfl (by decide), writes_sub_of_mem main_v94 rfl (by decide), writes_sub_of_mem main_v95 rfl (by decide), writes_sub_of_mem main_c_17 rfl (by decide), writes_sub_of_mem main_v96 rfl (by decide), writes_sub_of_mem main_v97 rfl (by decide), writes_sub_of_mem main_v98 rfl (by decide), writes_sub_of_mem main_v99 rfl (by decide), writes_sub_of_mem main_v100 rfl (by decide), writes_sub_of_mem main_cst_18 rfl (by decide), writes_sub_of_mem main_v101 rfl (by decide), writes_sub_of_mem main_v102 rfl (by decide), writes_sub_of_mem main_v103 rfl (by decide), writes_sub_of_mem main_v104 rfl (by decide), writes_sub_of_mem main_v105 rfl (by decide), writes_sub_of_mem main_v106 rfl (by decide), writes_sub_of_mem main_v107 rfl (by decide), writes_sub_of_mem main_v108 rfl (by decide), writes_sub_of_mem main_v109 rfl (by decide), writes_sub_of_mem main_v110 rfl (by decide)⟩

/-- The buffers opsR1 writes, in order. -/
abbrev WR1 : List (Ref sig .tc) := [main_v111, main_v112, main_v113, main_v114, main_v115, main_v116]
set_option maxRecDepth 16384 in
theorem opsR1_writes : (opsR1 (F := Ideal)).Forall fun op => op.writes ⊆ (WR1.map (Proc.devRef (τ := τ) .tc)).toFinset :=
  ⟨writes_sub_of_mem main_v111 rfl (by decide), writes_sub_of_mem main_v112 rfl (by decide), writes_sub_of_mem main_v113 rfl (by decide), writes_sub_of_mem main_v114 rfl (by decide), writes_sub_of_mem main_v115 rfl (by decide), writes_sub_of_mem main_v116 rfl (by decide)⟩

/-- The buffers opsN1 writes, in order. -/
abbrev WN1 : List (Ref sig .tc) := [main_cst_19, main_v117, main_v118, main_v119, main_v120, main_v121, main_v122, main_c_20, main_v123, main_v124, main_c_21, main_v125, main_v126, main_v127, main_v128, main_v129, main_v130, main_v131, main_v132, main_v133, main_v134, main_cst_22, main_v135, main_v136, main_v137, main_v138, main_v139, main_v140, main_cst_23, main_v141, main_v142, main_v143, main_v144, main_v145, main_v146, main_c_24, main_v147, main_v148, main_c_25, main_v149, main_v150, main_v151, main_v152, main_v153, main_v154, main_v155, main_v156, main_v157]
set_option maxRecDepth 16384 in
theorem opsN1_writes : (opsN1 (F := Ideal)).Forall fun op => op.writes ⊆ (WN1.map (Proc.devRef (τ := τ) .tc)).toFinset :=
  ⟨writes_sub_of_mem main_cst_19 rfl (by decide), writes_sub_of_mem main_v117 rfl (by decide), writes_sub_of_mem main_v118 rfl (by decide), writes_sub_of_mem main_v119 rfl (by decide), writes_sub_of_mem main_v120 rfl (by decide), writes_sub_of_mem main_v121 rfl (by decide), writes_sub_of_mem main_v122 rfl (by decide), writes_sub_of_mem main_c_20 rfl (by decide), writes_sub_of_mem main_v123 rfl (by decide), writes_sub_of_mem main_v124 rfl (by decide), writes_sub_of_mem main_c_21 rfl (by decide), writes_sub_of_mem main_v125 rfl (by decide), writes_sub_of_mem main_v126 rfl (by decide), writes_sub_of_mem main_v127 rfl (by decide), writes_sub_of_mem main_v128 rfl (by decide), writes_sub_of_mem main_v129 rfl (by decide), writes_sub_of_mem main_v130 rfl (by decide), writes_sub_of_mem main_v131 rfl (by decide), writes_sub_of_mem main_v132 rfl (by decide), writes_sub_of_mem main_v133 rfl (by decide), writes_sub_of_mem main_v134 rfl (by decide), writes_sub_of_mem main_cst_22 rfl (by decide), writes_sub_of_mem main_v135 rfl (by decide), writes_sub_of_mem main_v136 rfl (by decide), writes_sub_of_mem main_v137 rfl (by decide), writes_sub_of_mem main_v138 rfl (by decide), writes_sub_of_mem main_v139 rfl (by decide), writes_sub_of_mem main_v140 rfl (by decide), writes_sub_of_mem main_cst_23 rfl (by decide), writes_sub_of_mem main_v141 rfl (by decide), writes_sub_of_mem main_v142 rfl (by decide), writes_sub_of_mem main_v143 rfl (by decide), writes_sub_of_mem main_v144 rfl (by decide), writes_sub_of_mem main_v145 rfl (by decide), writes_sub_of_mem main_v146 rfl (by decide), writes_sub_of_mem main_c_24 rfl (by decide), writes_sub_of_mem main_v147 rfl (by decide), writes_sub_of_mem main_v148 rfl (by decide), writes_sub_of_mem main_c_25 rfl (by decide), writes_sub_of_mem main_v149 rfl (by decide), writes_sub_of_mem main_v150 rfl (by decide), writes_sub_of_mem main_v151 rfl (by decide), writes_sub_of_mem main_v152 rfl (by decide), writes_sub_of_mem main_v153 rfl (by decide), writes_sub_of_mem main_v154 rfl (by decide), writes_sub_of_mem main_v155 rfl (by decide), writes_sub_of_mem main_v156 rfl (by decide), writes_sub_of_mem main_v157 rfl (by decide)⟩

/-- The buffers opsU1 writes, in order. -/
abbrev WU1 : List (Ref sig .tc) := [main_call1_cst, main_call1_v0, main_v158, main_v159]
set_option maxRecDepth 16384 in
theorem opsU1_writes : (opsU1 (F := Ideal)).Forall fun op => op.writes ⊆ (WU1.map (Proc.devRef (τ := τ) .tc)).toFinset :=
  ⟨writes_sub_of_mem main_call1_cst rfl (by decide), writes_sub_of_mem main_call1_v0 rfl (by decide), writes_sub_of_mem main_v158 rfl (by decide), writes_sub_of_mem main_v159 rfl (by decide)⟩

/-- The buffers opsM2 writes, in order. -/
abbrev WM2 : List (Ref sig .tc) := [main_v160, main_v161, main_v162, main_v163]
set_option maxRecDepth 16384 in
theorem opsM2_writes : (opsM2 (F := Ideal)).Forall fun op => op.writes ⊆ (WM2.map (Proc.devRef (τ := τ) .tc)).toFinset :=
  ⟨writes_sub_of_mem main_v160 rfl (by decide), writes_sub_of_mem main_v161 rfl (by decide), writes_sub_of_mem main_v162 rfl (by decide), writes_sub_of_mem main_v163 rfl (by decide)⟩

/-- The buffers opsA2 writes, in order. -/
abbrev WA2 : List (Ref sig .tc) := [main_v164, main_v165, main_v166, main_c_26, main_v167, main_v168, main_c_27, main_v169, main_v170, main_v171, main_v172, main_v173, main_cst_28, main_v174, main_v175, main_v176, main_v177, main_v178, main_v179, main_v180, main_v181, main_v182, main_v183]
set_option maxRecDepth 16384 in
theorem opsA2_writes : (opsA2 (F := Ideal)).Forall fun op => op.writes ⊆ (WA2.map (Proc.devRef (τ := τ) .tc)).toFinset :=
  ⟨writes_sub_of_mem main_v164 rfl (by decide), writes_sub_of_mem main_v165 rfl (by decide), writes_sub_of_mem main_v166 rfl (by decide), writes_sub_of_mem main_c_26 rfl (by decide), writes_sub_of_mem main_v167 rfl (by decide), writes_sub_of_mem main_v168 rfl (by decide), writes_sub_of_mem main_c_27 rfl (by decide), writes_sub_of_mem main_v169 rfl (by decide), writes_sub_of_mem main_v170 rfl (by decide), writes_sub_of_mem main_v171 rfl (by decide), writes_sub_of_mem main_v172 rfl (by decide), writes_sub_of_mem main_v173 rfl (by decide), writes_sub_of_mem main_cst_28 rfl (by decide), writes_sub_of_mem main_v174 rfl (by decide), writes_sub_of_mem main_v175 rfl (by decide), writes_sub_of_mem main_v176 rfl (by decide), writes_sub_of_mem main_v177 rfl (by decide), writes_sub_of_mem main_v178 rfl (by decide), writes_sub_of_mem main_v179 rfl (by decide), writes_sub_of_mem main_v180 rfl (by decide), writes_sub_of_mem main_v181 rfl (by decide), writes_sub_of_mem main_v182 rfl (by decide), writes_sub_of_mem main_v183 rfl (by decide)⟩

/-- The buffers opsR2 writes, in order. -/
abbrev WR2 : List (Ref sig .tc) := [main_v184, main_v185, main_v186, main_v187, main_v188, main_v189]
set_option maxRecDepth 16384 in
theorem opsR2_writes : (opsR2 (F := Ideal)).Forall fun op => op.writes ⊆ (WR2.map (Proc.devRef (τ := τ) .tc)).toFinset :=
  ⟨writes_sub_of_mem main_v184 rfl (by decide), writes_sub_of_mem main_v185 rfl (by decide), writes_sub_of_mem main_v186 rfl (by decide), writes_sub_of_mem main_v187 rfl (by decide), writes_sub_of_mem main_v188 rfl (by decide), writes_sub_of_mem main_v189 rfl (by decide)⟩

/-- The buffers opsN2 writes, in order. -/
abbrev WN2 : List (Ref sig .tc) := [main_cst_29, main_v190, main_v191, main_v192, main_v193, main_v194, main_v195, main_c_30, main_v196, main_v197, main_c_31, main_v198, main_v199, main_v200, main_v201, main_v202, main_v203, main_v204, main_v205, main_v206, main_v207, main_cst_32, main_v208, main_v209, main_v210, main_v211, main_v212, main_v213, main_cst_33, main_v214, main_v215, main_v216, main_v217, main_v218, main_v219, main_c_34, main_v220, main_v221, main_c_35, main_v222, main_v223, main_v224, main_v225, main_v226, main_v227, main_v228, main_v229, main_v230]
set_option maxRecDepth 16384 in
theorem opsN2_writes : (opsN2 (F := Ideal)).Forall fun op => op.writes ⊆ (WN2.map (Proc.devRef (τ := τ) .tc)).toFinset :=
  ⟨writes_sub_of_mem main_cst_29 rfl (by decide), writes_sub_of_mem main_v190 rfl (by decide), writes_sub_of_mem main_v191 rfl (by decide), writes_sub_of_mem main_v192 rfl (by decide), writes_sub_of_mem main_v193 rfl (by decide), writes_sub_of_mem main_v194 rfl (by decide), writes_sub_of_mem main_v195 rfl (by decide), writes_sub_of_mem main_c_30 rfl (by decide), writes_sub_of_mem main_v196 rfl (by decide), writes_sub_of_mem main_v197 rfl (by decide), writes_sub_of_mem main_c_31 rfl (by decide), writes_sub_of_mem main_v198 rfl (by decide), writes_sub_of_mem main_v199 rfl (by decide), writes_sub_of_mem main_v200 rfl (by decide), writes_sub_of_mem main_v201 rfl (by decide), writes_sub_of_mem main_v202 rfl (by decide), writes_sub_of_mem main_v203 rfl (by decide), writes_sub_of_mem main_v204 rfl (by decide), writes_sub_of_mem main_v205 rfl (by decide), writes_sub_of_mem main_v206 rfl (by decide), writes_sub_of_mem main_v207 rfl (by decide), writes_sub_of_mem main_cst_32 rfl (by decide), writes_sub_of_mem main_v208 rfl (by decide), writes_sub_of_mem main_v209 rfl (by decide), writes_sub_of_mem main_v210 rfl (by decide), writes_sub_of_mem main_v211 rfl (by decide), writes_sub_of_mem main_v212 rfl (by decide), writes_sub_of_mem main_v213 rfl (by decide), writes_sub_of_mem main_cst_33 rfl (by decide), writes_sub_of_mem main_v214 rfl (by decide), writes_sub_of_mem main_v215 rfl (by decide), writes_sub_of_mem main_v216 rfl (by decide), writes_sub_of_mem main_v217 rfl (by decide), writes_sub_of_mem main_v218 rfl (by decide), writes_sub_of_mem main_v219 rfl (by decide), writes_sub_of_mem main_c_34 rfl (by decide), writes_sub_of_mem main_v220 rfl (by decide), writes_sub_of_mem main_v221 rfl (by decide), writes_sub_of_mem main_c_35 rfl (by decide), writes_sub_of_mem main_v222 rfl (by decide), writes_sub_of_mem main_v223 rfl (by decide), writes_sub_of_mem main_v224 rfl (by decide), writes_sub_of_mem main_v225 rfl (by decide), writes_sub_of_mem main_v226 rfl (by decide), writes_sub_of_mem main_v227 rfl (by decide), writes_sub_of_mem main_v228 rfl (by decide), writes_sub_of_mem main_v229 rfl (by decide), writes_sub_of_mem main_v230 rfl (by decide)⟩

/-- The buffers opsU2 writes, in order. -/
abbrev WU2 : List (Ref sig .tc) := [main_call2_cst, main_call2_v0, main_v231, main_v232]
set_option maxRecDepth 16384 in
theorem opsU2_writes : (opsU2 (F := Ideal)).Forall fun op => op.writes ⊆ (WU2.map (Proc.devRef (τ := τ) .tc)).toFinset :=
  ⟨writes_sub_of_mem main_call2_cst rfl (by decide), writes_sub_of_mem main_call2_v0 rfl (by decide), writes_sub_of_mem main_v231 rfl (by decide), writes_sub_of_mem main_v232 rfl (by decide)⟩

/-- The buffers opsM3 writes, in order. -/
abbrev WM3 : List (Ref sig .tc) := [main_v233, main_v234, main_v235, main_v236]
set_option maxRecDepth 16384 in
theorem opsM3_writes : (opsM3 (F := Ideal)).Forall fun op => op.writes ⊆ (WM3.map (Proc.devRef (τ := τ) .tc)).toFinset :=
  ⟨writes_sub_of_mem main_v233 rfl (by decide), writes_sub_of_mem main_v234 rfl (by decide), writes_sub_of_mem main_v235 rfl (by decide), writes_sub_of_mem main_v236 rfl (by decide)⟩

/-- The buffers opsA3 writes, in order. -/
abbrev WA3 : List (Ref sig .tc) := [main_v237, main_v238, main_v239, main_c_36, main_v240, main_v241, main_c_37, main_v242, main_v243, main_v244, main_v245, main_v246, main_cst_38, main_v247, main_v248, main_v249, main_v250, main_v251, main_v252, main_v253, main_v254, main_v255, main_v256]
set_option maxRecDepth 16384 in
theorem opsA3_writes : (opsA3 (F := Ideal)).Forall fun op => op.writes ⊆ (WA3.map (Proc.devRef (τ := τ) .tc)).toFinset :=
  ⟨writes_sub_of_mem main_v237 rfl (by decide), writes_sub_of_mem main_v238 rfl (by decide), writes_sub_of_mem main_v239 rfl (by decide), writes_sub_of_mem main_c_36 rfl (by decide), writes_sub_of_mem main_v240 rfl (by decide), writes_sub_of_mem main_v241 rfl (by decide), writes_sub_of_mem main_c_37 rfl (by decide), writes_sub_of_mem main_v242 rfl (by decide), writes_sub_of_mem main_v243 rfl (by decide), writes_sub_of_mem main_v244 rfl (by decide), writes_sub_of_mem main_v245 rfl (by decide), writes_sub_of_mem main_v246 rfl (by decide), writes_sub_of_mem main_cst_38 rfl (by decide), writes_sub_of_mem main_v247 rfl (by decide), writes_sub_of_mem main_v248 rfl (by decide), writes_sub_of_mem main_v249 rfl (by decide), writes_sub_of_mem main_v250 rfl (by decide), writes_sub_of_mem main_v251 rfl (by decide), writes_sub_of_mem main_v252 rfl (by decide), writes_sub_of_mem main_v253 rfl (by decide), writes_sub_of_mem main_v254 rfl (by decide), writes_sub_of_mem main_v255 rfl (by decide), writes_sub_of_mem main_v256 rfl (by decide)⟩

/-- The buffers opsR3 writes, in order. -/
abbrev WR3 : List (Ref sig .tc) := [main_v257, main_v258, main_v259, main_v260, main_v261, main_v262]
set_option maxRecDepth 16384 in
theorem opsR3_writes : (opsR3 (F := Ideal)).Forall fun op => op.writes ⊆ (WR3.map (Proc.devRef (τ := τ) .tc)).toFinset :=
  ⟨writes_sub_of_mem main_v257 rfl (by decide), writes_sub_of_mem main_v258 rfl (by decide), writes_sub_of_mem main_v259 rfl (by decide), writes_sub_of_mem main_v260 rfl (by decide), writes_sub_of_mem main_v261 rfl (by decide), writes_sub_of_mem main_v262 rfl (by decide)⟩

/-- The buffers opsN3 writes, in order. -/
abbrev WN3 : List (Ref sig .tc) := [main_cst_39, main_v263, main_v264, main_v265, main_v266, main_v267, main_v268, main_c_40, main_v269, main_v270, main_c_41, main_v271, main_v272, main_v273, main_v274, main_v275, main_v276, main_v277, main_v278, main_v279, main_v280, main_cst_42, main_v281, main_v282, main_v283, main_v284, main_v285, main_v286, main_cst_43, main_v287, main_v288, main_v289, main_v290, main_v291, main_v292, main_c_44, main_v293, main_v294, main_c_45, main_v295, main_v296, main_v297, main_v298, main_v299, main_v300, main_v301, main_v302, main_v303]
set_option maxRecDepth 16384 in
theorem opsN3_writes : (opsN3 (F := Ideal)).Forall fun op => op.writes ⊆ (WN3.map (Proc.devRef (τ := τ) .tc)).toFinset :=
  ⟨writes_sub_of_mem main_cst_39 rfl (by decide), writes_sub_of_mem main_v263 rfl (by decide), writes_sub_of_mem main_v264 rfl (by decide), writes_sub_of_mem main_v265 rfl (by decide), writes_sub_of_mem main_v266 rfl (by decide), writes_sub_of_mem main_v267 rfl (by decide), writes_sub_of_mem main_v268 rfl (by decide), writes_sub_of_mem main_c_40 rfl (by decide), writes_sub_of_mem main_v269 rfl (by decide), writes_sub_of_mem main_v270 rfl (by decide), writes_sub_of_mem main_c_41 rfl (by decide), writes_sub_of_mem main_v271 rfl (by decide), writes_sub_of_mem main_v272 rfl (by decide), writes_sub_of_mem main_v273 rfl (by decide), writes_sub_of_mem main_v274 rfl (by decide), writes_sub_of_mem main_v275 rfl (by decide), writes_sub_of_mem main_v276 rfl (by decide), writes_sub_of_mem main_v277 rfl (by decide), writes_sub_of_mem main_v278 rfl (by decide), writes_sub_of_mem main_v279 rfl (by decide), writes_sub_of_mem main_v280 rfl (by decide), writes_sub_of_mem main_cst_42 rfl (by decide), writes_sub_of_mem main_v281 rfl (by decide), writes_sub_of_mem main_v282 rfl (by decide), writes_sub_of_mem main_v283 rfl (by decide), writes_sub_of_mem main_v284 rfl (by decide), writes_sub_of_mem main_v285 rfl (by decide), writes_sub_of_mem main_v286 rfl (by decide), writes_sub_of_mem main_cst_43 rfl (by decide), writes_sub_of_mem main_v287 rfl (by decide), writes_sub_of_mem main_v288 rfl (by decide), writes_sub_of_mem main_v289 rfl (by decide), writes_sub_of_mem main_v290 rfl (by decide), writes_sub_of_mem main_v291 rfl (by decide), writes_sub_of_mem main_v292 rfl (by decide), writes_sub_of_mem main_c_44 rfl (by decide), writes_sub_of_mem main_v293 rfl (by decide), writes_sub_of_mem main_v294 rfl (by decide), writes_sub_of_mem main_c_45 rfl (by decide), writes_sub_of_mem main_v295 rfl (by decide), writes_sub_of_mem main_v296 rfl (by decide), writes_sub_of_mem main_v297 rfl (by decide), writes_sub_of_mem main_v298 rfl (by decide), writes_sub_of_mem main_v299 rfl (by decide), writes_sub_of_mem main_v300 rfl (by decide), writes_sub_of_mem main_v301 rfl (by decide), writes_sub_of_mem main_v302 rfl (by decide), writes_sub_of_mem main_v303 rfl (by decide)⟩

/-- The buffers opsU3 writes, in order. -/
abbrev WU3 : List (Ref sig .tc) := [main_call3_cst, main_call3_v0, main_v304, main_v305]
set_option maxRecDepth 16384 in
theorem opsU3_writes : (opsU3 (F := Ideal)).Forall fun op => op.writes ⊆ (WU3.map (Proc.devRef (τ := τ) .tc)).toFinset :=
  ⟨writes_sub_of_mem main_call3_cst rfl (by decide), writes_sub_of_mem main_call3_v0 rfl (by decide), writes_sub_of_mem main_v304 rfl (by decide), writes_sub_of_mem main_v305 rfl (by decide)⟩

/-- The buffers opsO writes, in order. -/
abbrev WO : List (Ref sig .tc) := [main_cst_46, main_v306, main_v307, main_v308, main_v309, main_v310, main_v311, main_v312]
set_option maxRecDepth 16384 in
theorem opsO_writes : (opsO (F := Ideal)).Forall fun op => op.writes ⊆ (WO.map (Proc.devRef (τ := τ) .tc)).toFinset :=
  ⟨writes_sub_of_mem main_cst_46 rfl (by decide), writes_sub_of_mem main_v306 rfl (by decide), writes_sub_of_mem main_v307 rfl (by decide), writes_sub_of_mem main_v308 rfl (by decide), writes_sub_of_mem main_v309 rfl (by decide), writes_sub_of_mem main_v310 rfl (by decide), writes_sub_of_mem main_v311 rfl (by decide), writes_sub_of_mem main_v312 rfl (by decide)⟩

/-! ## The facts carried through the pieces -/

/-- The thirteen argument buffers. -/
abbrev argRefs : List (Ref sig .tc) := [main_arg0, main_arg1, main_arg2, main_arg3, main_arg4, main_arg5, main_arg6, main_arg7, main_arg8, main_arg9, main_arg10, main_arg11, main_arg12]
/-- The buffers of the two degree normalisations and of the graph sizes. -/
abbrev degRefs : List (Ref sig .tc) := [main_v11, main_v12, main_v18]

/-- The argument buffers hold the arrays `x0 … x12`. -/
structure Args (x0 : FVec Ideal S100000x128 .f32) (x1 : IVec S320000 32) (x2 : IVec S320000 32) (x3 : IVec S100000 32) (x4 : FVec Ideal S128x256 .f32) (x5 : FVec Ideal S256 .f32) (x6 : FVec Ideal S3x256x256 .f32) (x7 : FVec Ideal S3x256 .f32) (x8 : FVec Ideal S4x256 .f32) (x9 : FVec Ideal S4x256 .f32) (x10 : FVec Ideal S4x256 .f32) (x11 : FVec Ideal S256x10 .f32) (x12 : FVec Ideal S10 .f32) (V : Valuation τ sig (Elt Ideal)) : Prop where
  a0 : V⟦main_arg0⟧ = x0
  a1 : V⟦main_arg1⟧ = x1
  a2 : V⟦main_arg2⟧ = x2
  a3 : V⟦main_arg3⟧ = x3
  a4 : V⟦main_arg4⟧ = x4
  a5 : V⟦main_arg5⟧ = x5
  a6 : V⟦main_arg6⟧ = x6
  a7 : V⟦main_arg7⟧ = x7
  a8 : V⟦main_arg8⟧ = x8
  a9 : V⟦main_arg9⟧ = x9
  a10 : V⟦main_arg10⟧ = x10
  a11 : V⟦main_arg11⟧ = x11
  a12 : V⟦main_arg12⟧ = x12

/-- The degree normalisations of the two endpoint arrays and the graph sizes are in their buffers. -/
structure Deg (x1 x2 : IVec S320000 32) (x3 : IVec S100000 32) (V : Valuation τ sig (Elt Ideal)) : Prop where
  d11 : V⟦main_v11⟧ = Stage.dinv x1
  d12 : V⟦main_v12⟧ = Stage.dinv x2
  d18 : V⟦main_v18⟧ = Stage.counts x3

variable {x0 : FVec Ideal S100000x128 .f32} {x1 : IVec S320000 32} {x2 : IVec S320000 32} {x3 : IVec S100000 32} {x4 : FVec Ideal S128x256 .f32} {x5 : FVec Ideal S256 .f32} {x6 : FVec Ideal S3x256x256 .f32} {x7 : FVec Ideal S3x256 .f32} {x8 : FVec Ideal S4x256 .f32} {x9 : FVec Ideal S4x256 .f32} {x10 : FVec Ideal S4x256 .f32} {x11 : FVec Ideal S256x10 .f32} {x12 : FVec Ideal S10 .f32} {V : Valuation τ sig (Elt Ideal)}

/-- A line that writes no argument buffer keeps the arguments. -/
theorem Args.keep (h : Args x0 x1 x2 x3 x4 x5 x6 x7 x8 x9 x10 x11 x12 V) {seg : List (HloOp τ sig (Elt Ideal))} {W : List (Ref sig .tc)}
    (hW : seg.Forall fun op => op.writes ⊆ (W.map (Proc.devRef (τ := τ) .tc)).toFinset) (hd : ∀ r ∈ argRefs, r ∉ W) :
    Args x0 x1 x2 x3 x4 x5 x6 x7 x8 x9 x10 x11 x12 (after seg V) where
  a0 := keep1 hW (hd _ (by decide)) h.a0
  a1 := keep1 hW (hd _ (by decide)) h.a1
  a2 := keep1 hW (hd _ (by decide)) h.a2
  a3 := keep1 hW (hd _ (by decide)) h.a3
  a4 := keep1 hW (hd _ (by decide)) h.a4
  a5 := keep1 hW (hd _ (by decide)) h.a5
  a6 := keep1 hW (hd _ (by decide)) h.a6
  a7 := keep1 hW (hd _ (by decide)) h.a7
  a8 := keep1 hW (hd _ (by decide)) h.a8
  a9 := keep1 hW (hd _ (by decide)) h.a9
  a10 := keep1 hW (hd _ (by decide)) h.a10
  a11 := keep1 hW (hd _ (by decide)) h.a11
  a12 := keep1 hW (hd _ (by decide)) h.a12

/-- A line that writes none of the three buffers keeps the degree normalisations and the graph sizes. -/
theorem Deg.keep (h : Deg x1 x2 x3 V) {seg : List (HloOp τ sig (Elt Ideal))} {W : List (Ref sig .tc)}
    (hW : seg.Forall fun op => op.writes ⊆ (W.map (Proc.devRef (τ := τ) .tc)).toFinset) (hd : ∀ r ∈ degRefs, r ∉ W) :
    Deg x1 x2 x3 (after seg V) where
  d11 := keep1 hW (hd _ (by decide)) h.d11
  d12 := keep1 hW (hd _ (by decide)) h.d12
  d18 := keep1 hW (hd _ (by decide)) h.d18

/-! ## What each piece computes -/

theorem opsP_v11 {i : IVec S320000 32} (h : V⟦main_arg1⟧ = i) :
    (after opsP V)⟦main_v11⟧ = Stage.dinv i := by
  subst_vars; after_results_simp <;> rfl

theorem opsP_v12 {i : IVec S320000 32} (h : V⟦main_arg2⟧ = i) :
    (after opsP V)⟦main_v12⟧ = Stage.dinv i := by
  subst_vars; after_results_simp <;> rfl

theorem opsP_v18 {i : IVec S100000 32} (h : V⟦main_arg3⟧ = i) :
    (after opsP V)⟦main_v18⟧ = Stage.counts i := by
  subst_vars; after_results_simp <;> rfl

set_option maxRecDepth 16384 in
set_option maxHeartbeats 4000000 in
theorem opsA0_val {h : FVec Ideal S100000x128 .f32} {ds dd : FVec Ideal S100000 .f32} {src dst : IVec S320000 32} {W : FVec Ideal S128x256 .f32} {b : FVec Ideal S256 .f32} (hh : V⟦main_arg0⟧ = h) (hds : V⟦main_v11⟧ = ds) (hdd : V⟦main_v12⟧ = dd) (hsrc : V⟦main_arg1⟧ = src) (hdst : V⟦main_arg2⟧ = dst) (hW : V⟦main_arg4⟧ = W) (hb : V⟦main_arg5⟧ = b) :
    (after opsA0 V)⟦main_v38⟧ = Stage.lin128 (Stage.agg128 h ds dd src dst) W b := by
  subst_vars; after_results_simp <;> rfl

theorem opsR0_gam {a : FVec Ideal S4x256 .f32} (h : V⟦main_arg8⟧ = a) :
    (after opsR0 V)⟦main_v40⟧ = Stage.row4_0 a := by
  subst_vars; after_results_simp <;> rfl

theorem opsR0_bet {a : FVec Ideal S4x256 .f32} (h : V⟦main_arg9⟧ = a) :
    (after opsR0 V)⟦main_v42⟧ = Stage.row4_0 a := by
  subst_vars; after_results_simp <;> rfl

theorem opsR0_ms {a : FVec Ideal S4x256 .f32} (h : V⟦main_arg10⟧ = a) :
    (after opsR0 V)⟦main_v44⟧ = Stage.row4_0 a := by
  subst_vars; after_results_simp <;> rfl

theorem opsR1_gam {a : FVec Ideal S4x256 .f32} (h : V⟦main_arg8⟧ = a) :
    (after opsR1 V)⟦main_v112⟧ = Stage.row4_1 a := by
  subst_vars; after_results_simp <;> rfl

theorem opsR1_bet {a : FVec Ideal S4x256 .f32} (h : V⟦main_arg9⟧ = a) :
    (after opsR1 V)⟦main_v114⟧ = Stage.row4_1 a := by
  subst_vars; after_results_simp <;> rfl

theorem opsR1_ms {a : FVec Ideal S4x256 .f32} (h : V⟦main_arg10⟧ = a) :
    (after opsR1 V)⟦main_v116⟧ = Stage.row4_1 a := by
  subst_vars; after_results_simp <;> rfl

theorem opsR2_gam {a : FVec Ideal S4x256 .f32} (h : V⟦main_arg8⟧ = a) :
    (after opsR2 V)⟦main_v185⟧ = Stage.row4_2 a := by
  subst_vars; after_results_simp <;> rfl

theorem opsR2_bet {a : FVec Ideal S4x256 .f32} (h : V⟦main_arg9⟧ = a) :
    (after opsR2 V)⟦main_v187⟧ = Stage.row4_2 a := by
  subst_vars; after_results_simp <;> rfl

theorem opsR2_ms {a : FVec Ideal S4x256 .f32} (h : V⟦main_arg10⟧ = a) :
    (after opsR2 V)⟦main_v189⟧ = Stage.row4_2 a := by
  subst_vars; after_results_simp <;> rfl

theorem opsR3_gam {a : FVec Ideal S4x256 .f32} (h : V⟦main_arg8⟧ = a) :
    (after opsR3 V)⟦main_v258⟧ = Stage.row4_3 a := by
  subst_vars; after_results_simp <;> rfl

theorem opsR3_bet {a : FVec Ideal S4x256 .f32} (h : V⟦main_arg9⟧ = a) :
    (after opsR3 V)⟦main_v260⟧ = Stage.row4_3 a := by
  subst_vars; after_results_simp <;> rfl

theorem opsR3_ms {a : FVec Ideal S4x256 .f32} (h : V⟦main_arg10⟧ = a) :
    (after opsR3 V)⟦main_v262⟧ = Stage.row4_3 a := by
  subst_vars; after_results_simp <;> rfl

set_option maxRecDepth 16384 in
set_option maxHeartbeats 4000000 in
theorem opsN0_val {x : FVec Ideal S100000x256 .f32} {cnt : FVec Ideal S128 .f32} {b : IVec S100000 32} {gam bet ms : FVec Ideal S256 .f32} (hx : V⟦main_v38⟧ = x) (hc : V⟦main_v18⟧ = cnt) (hb : V⟦main_arg3⟧ = b) (hg : V⟦main_v40⟧ = gam) (hbe : V⟦main_v42⟧ = bet) (hm : V⟦main_v44⟧ = ms) :
    (after opsN0 V)⟦main_v85⟧ = Stage.normed x cnt b gam bet ms := by
  subst_vars; after_results_simp <;> rfl

set_option maxRecDepth 16384 in
set_option maxHeartbeats 4000000 in
theorem opsN1_val {x : FVec Ideal S100000x256 .f32} {cnt : FVec Ideal S128 .f32} {b : IVec S100000 32} {gam bet ms : FVec Ideal S256 .f32} (hx : V⟦main_v110⟧ = x) (hc : V⟦main_v18⟧ = cnt) (hb : V⟦main_arg3⟧ = b) (hg : V⟦main_v112⟧ = gam) (hbe : V⟦main_v114⟧ = bet) (hm : V⟦main_v116⟧ = ms) :
    (after opsN1 V)⟦main_v157⟧ = Stage.normed x cnt b gam bet ms := by
  subst_vars; after_results_simp <;> rfl

set_option maxRecDepth 16384 in
set_option maxHeartbeats 4000000 in
theorem opsN2_val {x : FVec Ideal S100000x256 .f32} {cnt : FVec Ideal S128 .f32} {b : IVec S100000 32} {gam bet ms : FVec Ideal S256 .f32} (hx : V⟦main_v183⟧ = x) (hc : V⟦main_v18⟧ = cnt) (hb : V⟦main_arg3⟧ = b) (hg : V⟦main_v185⟧ = gam) (hbe : V⟦main_v187⟧ = bet) (hm : V⟦main_v189⟧ = ms) :
    (after opsN2 V)⟦main_v230⟧ = Stage.normed x cnt b gam bet ms := by
  subst_vars; after_results_simp <;> rfl

set_option maxRecDepth 16384 in
set_option maxHeartbeats 4000000 in
theorem opsN3_val {x : FVec Ideal S100000x256 .f32} {cnt : FVec Ideal S128 .f32} {b : IVec S100000 32} {gam bet ms : FVec Ideal S256 .f32} (hx : V⟦main_v256⟧ = x) (hc : V⟦main_v18⟧ = cnt) (hb : V⟦main_arg3⟧ = b) (hg : V⟦main_v258⟧ = gam) (hbe : V⟦main_v260⟧ = bet) (hm : V⟦main_v262⟧ = ms) :
    (after opsN3 V)⟦main_v303⟧ = Stage.normed x cnt b gam bet ms := by
  subst_vars; after_results_simp <;> rfl

theorem opsU0_val {n : FVec Ideal S100000x256 .f32} (hn : V⟦main_v85⟧ = n) :
    (after opsU0 V)⟦main_v86⟧ = Stage.relu n := by
  subst_vars; after_results_simp <;> rfl

theorem opsM1_mat {a : FVec Ideal S3x256x256 .f32} (h : V⟦main_arg6⟧ = a) :
    (after opsM1 V)⟦main_v88⟧ = Stage.mat3_0 a := by
  subst_vars; after_results_simp <;> rfl

theorem opsM1_row {a : FVec Ideal S3x256 .f32} (h : V⟦main_arg7⟧ = a) :
    (after opsM1 V)⟦main_v90⟧ = Stage.row3_0 a := by
  subst_vars; after_results_simp <;> rfl

set_option maxRecDepth 16384 in
set_option maxHeartbeats 4000000 in
theorem opsA1_val {h : FVec Ideal S100000x256 .f32} {ds dd : FVec Ideal S100000 .f32} {src dst : IVec S320000 32} {W : FVec Ideal S256x256 .f32} {b : FVec Ideal S256 .f32} (hh : V⟦main_v86⟧ = h) (hds : V⟦main_v11⟧ = ds) (hdd : V⟦main_v12⟧ = dd) (hsrc : V⟦main_arg1⟧ = src) (hdst : V⟦main_arg2⟧ = dst) (hW : V⟦main_v88⟧ = W) (hb : V⟦main_v90⟧ = b) :
    (after opsA1 V)⟦main_v110⟧ = Stage.lin256 (Stage.agg256 h ds dd src dst) W b := by
  subst_vars; after_results_simp <;> rfl

theorem opsU1_val {n h : FVec Ideal S100000x256 .f32} (hn : V⟦main_v157⟧ = n) (hh : V⟦main_v86⟧ = h) :
    (after opsU1 V)⟦main_v159⟧ = addf (Stage.relu n) h := by
  subst_vars; after_results_simp <;> rfl

theorem opsM2_mat {a : FVec Ideal S3x256x256 .f32} (h : V⟦main_arg6⟧ = a) :
    (after opsM2 V)⟦main_v161⟧ = Stage.mat3_1 a := by
  subst_vars; after_results_simp <;> rfl

theorem opsM2_row {a : FVec Ideal S3x256 .f32} (h : V⟦main_arg7⟧ = a) :
    (after opsM2 V)⟦main_v163⟧ = Stage.row3_1 a := by
  subst_vars; after_results_simp <;> rfl

set_option maxRecDepth 16384 in
set_option maxHeartbeats 4000000 in
theorem opsA2_val {h : FVec Ideal S100000x256 .f32} {ds dd : FVec Ideal S100000 .f32} {src dst : IVec S320000 32} {W : FVec Ideal S256x256 .f32} {b : FVec Ideal S256 .f32} (hh : V⟦main_v159⟧ = h) (hds : V⟦main_v11⟧ = ds) (hdd : V⟦main_v12⟧ = dd) (hsrc : V⟦main_arg1⟧ = src) (hdst : V⟦main_arg2⟧ = dst) (hW : V⟦main_v161⟧ = W) (hb : V⟦main_v163⟧ = b) :
    (after opsA2 V)⟦main_v183⟧ = Stage.lin256 (Stage.agg256 h ds dd src dst) W b := by
  subst_vars; after_results_simp <;> rfl

theorem opsU2_val {n h : FVec Ideal S100000x256 .f32} (hn : V⟦main_v230⟧ = n) (hh : V⟦main_v159⟧ = h) :
    (after opsU2 V)⟦main_v232⟧ = addf (Stage.relu n) h := by
  subst_vars; after_results_simp <;> rfl

theorem opsM3_mat {a : FVec Ideal S3x256x256 .f32} (h : V⟦main_arg6⟧ = a) :
    (after opsM3 V)⟦main_v234⟧ = Stage.mat3_2 a := by
  subst_vars; after_results_simp <;> rfl

theorem opsM3_row {a : FVec Ideal S3x256 .f32} (h : V⟦main_arg7⟧ = a) :
    (after opsM3 V)⟦main_v236⟧ = Stage.row3_2 a := by
  subst_vars; after_results_simp <;> rfl

set_option maxRecDepth 16384 in
set_option maxHeartbeats 4000000 in
theorem opsA3_val {h : FVec Ideal S100000x256 .f32} {ds dd : FVec Ideal S100000 .f32} {src dst : IVec S320000 32} {W : FVec Ideal S256x256 .f32} {b : FVec Ideal S256 .f32} (hh : V⟦main_v232⟧ = h) (hds : V⟦main_v11⟧ = ds) (hdd : V⟦main_v12⟧ = dd) (hsrc : V⟦main_arg1⟧ = src) (hdst : V⟦main_arg2⟧ = dst) (hW : V⟦main_v234⟧ = W) (hb : V⟦main_v236⟧ = b) :
    (after opsA3 V)⟦main_v256⟧ = Stage.lin256 (Stage.agg256 h ds dd src dst) W b := by
  subst_vars; after_results_simp <;> rfl

theorem opsU3_val {n h : FVec Ideal S100000x256 .f32} (hn : V⟦main_v303⟧ = n) (hh : V⟦main_v232⟧ = h) :
    (after opsU3 V)⟦main_v305⟧ = addf (Stage.relu n) h := by
  subst_vars; after_results_simp <;> rfl

theorem opsO_val {h : FVec Ideal S100000x256 .f32} {b : IVec S100000 32} {W : FVec Ideal S256x10 .f32} {bias : FVec Ideal S10 .f32} (hh : V⟦main_v305⟧ = h) (hb : V⟦main_arg3⟧ = b) (hW : V⟦main_arg11⟧ = W) (hbias : V⟦main_arg12⟧ = bias) :
    (after opsO V)⟦main_v312⟧ = Stage.readout h b W bias := by
  subst_vars; after_results_simp <;> rfl

/-! ## The chain -/

/-- The whole line is its pieces run in order. -/
theorem after_ops (V : Valuation τ sig (Elt Ideal)) :
    after (ops (F := Ideal)) V = after opsO (after opsU3 (after opsN3 (after opsR3 (after opsA3 (after opsM3 (after opsU2 (after opsN2 (after opsR2 (after opsA2 (after opsM2 (after opsU1 (after opsN1 (after opsR1 (after opsA1 (after opsM1 (after opsU0 (after opsN0 (after opsR0 (after opsA0 (after opsP (V))))))))))))))))))))) := by
  simp only [ops, after_append]

set_option maxRecDepth 16384 in
set_option maxHeartbeats 4000000 in
/-- From any valuation whose argument buffers hold `x0 … x12`, the whole line leaves the network's value in the result
    buffer and the arguments where they were. -/
theorem value (A0 : Args x0 x1 x2 x3 x4 x5 x6 x7 x8 x9 x10 x11 x12 V) :
    (after (ops (F := Ideal)) V)⟦main_v312⟧ = Stage.network x0 x1 x2 x3 x4 x5 x6 x7 x8 x9 x10 x11 x12 ∧ Args x0 x1 x2 x3 x4 x5 x6 x7 x8 x9 x10 x11 x12 (after (ops (F := Ideal)) V) := by
  rw [after_ops]
  -- opsP
  have A1 := A0.keep opsP_writes (by decide)
  have D1 : Deg x1 x2 x3 _ := ⟨opsP_v11 A0.a1, opsP_v12 A0.a2, opsP_v18 A0.a3⟩
  -- opsA0
  have A2 := A1.keep opsA0_writes (by decide)
  have D2 := D1.keep opsA0_writes (by decide)
  have X0 := opsA0_val A1.a0 D1.d11 D1.d12 A1.a1 A1.a2 A1.a4 A1.a5
  -- opsR0
  have A3 := A2.keep opsR0_writes (by decide)
  have D3 := D2.keep opsR0_writes (by decide)
  have X0' := keep1 opsR0_writes (by decide) X0
  have g0 := opsR0_gam A2.a8
  have be0 := opsR0_bet A2.a9
  have ms0 := opsR0_ms A2.a10
  -- opsN0
  have A4 := A3.keep opsN0_writes (by decide)
  have D4 := D3.keep opsN0_writes (by decide)
  have N0 := opsN0_val X0' D3.d18 A3.a3 g0 be0 ms0
  -- opsU0
  have A5 := A4.keep opsU0_writes (by decide)
  have D5 := D4.keep opsU0_writes (by decide)
  have H1 : (_ : Valuation τ sig (Elt Ideal))⟦main_v86⟧ = (Stage.layer0 x0 x1 x2 x3 x4 x5 (Stage.row4_0 x8) (Stage.row4_0 x9) (Stage.row4_0 x10)) := opsU0_val N0
  -- opsM1
  have A6 := A5.keep opsM1_writes (by decide)
  have D6 := D5.keep opsM1_writes (by decide)
  have H1m := keep1 opsM1_writes (by decide) H1
  have W1 := opsM1_mat A5.a6
  have b1 := opsM1_row A5.a7
  -- opsA1
  have A7 := A6.keep opsA1_writes (by decide)
  have D7 := D6.keep opsA1_writes (by decide)
  have H1a := keep1 opsA1_writes (by decide) H1m
  have X1 := opsA1_val H1m D6.d11 D6.d12 A6.a1 A6.a2 W1 b1
  -- opsR1
  have A8 := A7.keep opsR1_writes (by decide)
  have D8 := D7.keep opsR1_writes (by decide)
  have H1r := keep1 opsR1_writes (by decide) H1a
  have X1' := keep1 opsR1_writes (by decide) X1
  have g1 := opsR1_gam A7.a8
  have be1 := opsR1_bet A7.a9
  have ms1 := opsR1_ms A7.a10
  -- opsN1
  have A9 := A8.keep opsN1_writes (by decide)
  have D9 := D8.keep opsN1_writes (by decide)
  have H1n := keep1 opsN1_writes (by decide) H1r
  have N1 := opsN1_val X1' D8.d18 A8.a3 g1 be1 ms1
  -- opsU1
  have A10 := A9.keep opsU1_writes (by decide)
  have D10 := D9.keep opsU1_writes (by decide)
  have H2 : (_ : Valuation τ sig (Elt Ideal))⟦main_v159⟧ = (Stage.layerR (Stage.layer0 x0 x1 x2 x3 x4 x5 (Stage.row4_0 x8) (Stage.row4_0 x9) (Stage.row4_0 x10)) x1 x2 x3 (Stage.mat3_0 x6) (Stage.row3_0 x7) (Stage.row4_1 x8) (Stage.row4_1 x9) (Stage.row4_1 x10)) := opsU1_val N1 H1n
  -- opsM2
  have A11 := A10.keep opsM2_writes (by decide)
  have D11 := D10.keep opsM2_writes (by decide)
  have H2m := keep1 opsM2_writes (by decide) H2
  have W2 := opsM2_mat A10.a6
  have b2 := opsM2_row A10.a7
  -- opsA2
  have A12 := A11.keep opsA2_writes (by decide)
  have D12 := D11.keep opsA2_writes (by decide)
  have H2a := keep1 opsA2_writes (by decide) H2m
  have X2 := opsA2_val H2m D11.d11 D11.d12 A11.a1 A11.a2 W2 b2
  -- opsR2
  have A13 := A12.keep opsR2_writes (by decide)
  have D13 := D12.keep opsR2_writes (by decide)
  have H2r := keep1 opsR2_writes (by decide) H2a
  have X2' := keep1 opsR2_writes (by decide) X2
  have g2 := opsR2_gam A12.a8
  have be2 := opsR2_bet A12.a9
  have ms2 := opsR2_ms A12.a10
  -- opsN2
  have A14 := A13.keep opsN2_writes (by decide)
  have D14 := D13.keep opsN2_writes (by decide)
  have H2n := keep1 opsN2_writes (by decide) H2r
  have N2 := opsN2_val X2' D13.d18 A13.a3 g2 be2 ms2
  -- opsU2
  have A15 := A14.keep opsU2_writes (by decide)
  have D15 := D14.keep opsU2_writes (by decide)
  have H3 : (_ : Valuation τ sig (Elt Ideal))⟦main_v232⟧ = (Stage.layerR (Stage.layerR (Stage.layer0 x0 x1 x2 x3 x4 x5 (Stage.row4_0 x8) (Stage.row4_0 x9) (Stage.row4_0 x10)) x1 x2 x3 (Stage.mat3_0 x6) (Stage.row3_0 x7) (Stage.row4_1 x8) (Stage.row4_1 x9) (Stage.row4_1 x10)) x1 x2 x3 (Stage.mat3_1 x6) (Stage.row3_1 x7) (Stage.row4_2 x8) (Stage.row4_2 x9) (Stage.row4_2 x10)) := opsU2_val N2 H2n
  -- opsM3
  have A16 := A15.keep opsM3_writes (by decide)
  have D16 := D15.keep opsM3_writes (by decide)
  have H3m := keep1 opsM3_writes (by decide) H3
  have W3 := opsM3_mat A15.a6
  have b3 := opsM3_row A15.a7
  -- opsA3
  have A17 := A16.keep opsA3_writes (by decide)
  have D17 := D16.keep opsA3_writes (by decide)
  have H3a := keep1 opsA3_writes (by decide) H3m
  have X3 := opsA3_val H3m D16.d11 D16.d12 A16.a1 A16.a2 W3 b3
  -- opsR3
  have A18 := A17.keep opsR3_writes (by decide)
  have D18 := D17.keep opsR3_writes (by decide)
  have H3r := keep1 opsR3_writes (by decide) H3a
  have X3' := keep1 opsR3_writes (by decide) X3
  have g3 := opsR3_gam A17.a8
  have be3 := opsR3_bet A17.a9
  have ms3 := opsR3_ms A17.a10
  -- opsN3
  have A19 := A18.keep opsN3_writes (by decide)
  have D19 := D18.keep opsN3_writes (by decide)
  have H3n := keep1 opsN3_writes (by decide) H3r
  have N3 := opsN3_val X3' D18.d18 A18.a3 g3 be3 ms3
  -- opsU3
  have A20 := A19.keep opsU3_writes (by decide)
  have D20 := D19.keep opsU3_writes (by decide)
  have H4 : (_ : Valuation τ sig (Elt Ideal))⟦main_v305⟧ = (Stage.layerR (Stage.layerR (Stage.layerR (Stage.layer0 x0 x1 x2 x3 x4 x5 (Stage.row4_0 x8) (Stage.row4_0 x9) (Stage.row4_0 x10)) x1 x2 x3 (Stage.mat3_0 x6) (Stage.row3_0 x7) (Stage.row4_1 x8) (Stage.row4_1 x9) (Stage.row4_1 x10)) x1 x2 x3 (Stage.mat3_1 x6) (Stage.row3_1 x7) (Stage.row4_2 x8) (Stage.row4_2 x9) (Stage.row4_2 x10)) x1 x2 x3 (Stage.mat3_2 x6) (Stage.row3_2 x7) (Stage.row4_3 x8) (Stage.row4_3 x9) (Stage.row4_3 x10)) := opsU3_val N3 H3n
  -- opsO
  have A21 := A20.keep opsO_writes (by decide)
  have D21 := D20.keep opsO_writes (by decide)
  have out := opsO_val H4 A20.a3 A20.a11 A20.a12
  exact ⟨out, A21⟩

/-! ## The run -/

/-- On every device, from any memory with zero counters: every weakly fair execution of the reference program terminates
    with the network's value of the launch contents of the arguments in the result buffer, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v312) = Stage.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      obtain ⟨hv, hA⟩ := value (V := launchContents m c) ⟨rfl, rfl, rfl, rfl, rfl, rfl, rfl, rfl, rfl, rfl, rfl, rfl, rfl⟩
      exact ⟨(h c main_v312).trans hv, (h c main_arg0).trans hA.a0, (h c main_arg1).trans hA.a1, (h c main_arg2).trans hA.a2, (h c main_arg3).trans hA.a3, (h c main_arg4).trans hA.a4, (h c main_arg5).trans hA.a5, (h c main_arg6).trans hA.a6, (h c main_arg7).trans hA.a7, (h c main_arg8).trans hA.a8, (h c main_arg9).trans hA.a9, (h c main_arg10).trans hA.a10, (h c main_arg11).trans hA.a11, (h c main_arg12).trans hA.a12⟩)
    (run_raw m ρ)

end Cert.ReferenceIdeal.RefRun

end
-- ==== Proof.PreReal.lean ====
/-
  From "every float input is finite" to "every entry of each float argument array is a real number".

  The printed precondition compares, entry by entry, the absolute value of each float array with the f32 word of
  plus infinity, folds each array of outcomes by "and" into one bit, and combines the ten bits by "and". Over the
  extended reals the word of plus infinity is the top element, the absolute value of x is max x (-x), and the
  comparison is the strict order. So the precondition says max x (-x) < ⊤ at every entry of every float array; the
  two infinities fail it (max ⊤ (-⊤) = ⊤ and max ⊥ (-⊥) = ⊤), hence every entry is the image of a real number.
-/
import proofs.«107967_j28716151341434_1_alg».proof.Pre_finite_inputs
import proofs.«107967_j28716151341434_1_alg».proof.Proof.Spec
import Idealize.ShloMosaic.Lib.ReduceAll
import Idealize.ShloMosaic.Lib.ValueIdx

noncomputable section

namespace Cert.Pre_finite_inputs.Real

open Idealize.ShloMosaic Cert.Pre_finite_inputs

/-- The rank-0 shape has one index. -/
instance subsingleton_scalar_idx : Subsingleton S_.Idx := ⟨fun a b => funext fun d => d.elim0⟩

/-- The f32 word with all exponent bits set, sign and fraction clear, denotes the top element. -/
theorem ofBits_inf : Ideal.ofBits .f32 0x7F800000#32 = (⊤ : EReal) := by
  simp [Ideal.ofBits, Ideal.ieee]

/-- An extended real whose absolute value lies strictly below the top element is a real number. -/
theorem exists_real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A one-bit word made from a Boolean is 1 exactly when the Boolean is true. -/
theorem ofBool_eq_one (b : Bool) : BitVec.ofBool b = 1#1 ↔ b = true := by cases b <;> decide

/-- One array: if the "and" over all entries of the comparison "absolute value below plus infinity" is 1,
    every entry of the array is a real number. -/
theorem allReal_of_all {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
          (cmpf .olt (Host.absf x) (broadcastInDim s ![] hb (constant (F := Ideal) S_ .f32 0x7F800000#32)))
          (constantI S_ 1 1#1) hr hu ValueIdx.ix0 = 1#1) :
    Cert.Spec.AllReal x := by
  intro i
  have hi := Host.reduce_andi_all _ _ hr hu ValueIdx.ix0 e i
  have hc : Ideal.cmp .olt (max (x i) (-(x i))) (Ideal.ofBits .f32 0x7F800000#32) = 1#1 := hi
  rw [ofBits_inf] at hc
  unfold Ideal.cmp at hc
  rw [ofBool_eq_one] at hc
  exact exists_real_of_abs_lt_top (x i) (of_decide_eq_true hc)

/-- The precondition decoded: each of the ten float argument arrays holds real numbers only. -/
theorem allReal_of_pre [Cert.Pre_finite_inputs.Facts]
    (a0 : FVec Ideal S100000x128 .f32) (a1 : IVec S320000 32) (a2 : IVec S320000 32) (a3 : IVec S100000 32)
    (a4 : FVec Ideal S128x256 .f32) (a5 : FVec Ideal S256 .f32) (a6 : FVec Ideal S3x256x256 .f32)
    (a7 : FVec Ideal S3x256 .f32) (a8 : FVec Ideal S4x256 .f32) (a9 : FVec Ideal S4x256 .f32)
    (a10 : FVec Ideal S4x256 .f32) (a11 : FVec Ideal S256x10 .f32) (a12 : FVec Ideal S10 .f32)
    (h : Cert.Pre_finite_inputs.fn (F := Ideal) a0 a1 a2 a3 a4 a5 a6 a7 a8 a9 a10 a11 a12 = fun _ => 1#1) :
    Cert.Spec.AllReal a0 ∧ Cert.Spec.AllReal a4 ∧ Cert.Spec.AllReal a5 ∧ Cert.Spec.AllReal a6 ∧ Cert.Spec.AllReal a7 ∧
      Cert.Spec.AllReal a8 ∧ Cert.Spec.AllReal a9 ∧ Cert.Spec.AllReal a10 ∧ Cert.Spec.AllReal a11 ∧ Cert.Spec.AllReal a12 := by
  have e := congrFun h ValueIdx.ix0
  dsimp only [fn, fn_part1, fn_part2, andi] at e
  simp only [IntOp.andi_eq_one] at e
  obtain ⟨⟨⟨⟨⟨⟨⟨⟨⟨e0, e4⟩, e5⟩, e6⟩, e7⟩, e8⟩, e9⟩, e10⟩, e11⟩, e12⟩ := e
  exact ⟨allReal_of_all _ _ _ a0 e0, allReal_of_all _ _ _ a4 e4, allReal_of_all _ _ _ a5 e5, allReal_of_all _ _ _ a6 e6,
    allReal_of_all _ _ _ a7 e7, allReal_of_all _ _ _ a8 e8, allReal_of_all _ _ _ a9 e9, allReal_of_all _ _ _ a10 e10,
    allReal_of_all _ _ _ a11 e11, allReal_of_all _ _ _ a12 e12⟩

end Cert.Pre_finite_inputs.Real

end
-- ==== Proof.lean ====
/-
  The certificate's proof. The kernel runs a four-layer graph network (normalised neighbourhood aggregation, a
  linear map, a per-graph normalisation, the positive part and a residual) followed by a per-graph sum and a final
  linear map; nine kernel regions do the linear maps and the fused affine-normalise steps, the host operations do
  the gathers, scatter-adds and statistics. The reference does everything on the host.

  * The three frame claims: the two kernel programs by their region-by-region frame proofs; the reference by its
    run over its list of host operations.
  * `preserves`: the idealisation pass rewrote nothing, the conjunct is `True`.
  * `algebraic`: both programs end at ONE function of the argument arrays. The kernel's result is read off its run
    segment by segment (`Chain`); the reference's off its operation list (`RefRun`); the two are equal (`Bridge`)
    because (i) a tiled matrix product plus bias row is the whole matrix product plus the broadcast bias, a
    rearrangement of one finite sum per entry, and (ii) the kernel's `x · (γ s) + (β − (γ s) μ k)` is the reference's
    `γ (x − μ k) s + β` by distributivity, valid because every intermediate value is a real number when the float
    inputs are finite — which is the precondition.
-/
import proofs.«107967_j28716151341434_1_alg».proof.Defs
import proofs.«107967_j28716151341434_1_alg».proof.Proof.Gen.Kernel
import proofs.«107967_j28716151341434_1_alg».proof.Proof.Gen.Kernel.Skeleton
import proofs.«107967_j28716151341434_1_alg».proof.Proof.Gen.Kernel.Launch
import proofs.«107967_j28716151341434_1_alg».proof.Proof.Gen.Kernel.Points
import proofs.«107967_j28716151341434_1_alg».proof.Proof.Gen.Kernel.Frame
import proofs.«107967_j28716151341434_1_alg».proof.Proof.Gen.KernelIdeal
import proofs.«107967_j28716151341434_1_alg».proof.Proof.Gen.KernelIdeal.Skeleton
import proofs.«107967_j28716151341434_1_alg».proof.Proof.Gen.KernelIdeal.Launch
import proofs.«107967_j28716151341434_1_alg».proof.Proof.Gen.KernelIdeal.Points
import proofs.«107967_j28716151341434_1_alg».proof.Proof.Gen.KernelIdeal.Frame
import proofs.«107967_j28716151341434_1_alg».proof.Proof.Gen.ReferenceIdeal
import proofs.«107967_j28716151341434_1_alg».proof.Proof.Gen.Pre_finite_inputs
import proofs.«107967_j28716151341434_1_alg».proof.Proof.KernelRun
import proofs.«107967_j28716151341434_1_alg».proof.Proof.KChain
import proofs.«107967_j28716151341434_1_alg».proof.Proof.Bridge
import proofs.«107967_j28716151341434_1_alg».proof.Proof.RefValue
import proofs.«107967_j28716151341434_1_alg».proof.Proof.PreReal
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.RefRun.run m ρ)

/-- Both idealized programs end at the kernel's layer-by-layer value `OUT` of the argument arrays, which under
    the precondition is the reference network of the same arrays. -/
theorem algebraic : Cert.algebraic_KernelIdeal_ReferenceIdeal := by
  intro m ρ m' ρ' hpre hagree
  refine ⟨fun c => Cert.KernelIdeal.Chain.OUT m c, ?_, ?_⟩
  · exact (θ_run (Cert.KernelIdeal.defs (F := Ideal)) _ _).mono
      (fun r h c => ⟨(h c).1.trans (Cert.KernelIdeal.Chain.W18_v311 m ρ c), (h c).2⟩)
      (Cert.KernelIdeal.RunValue.run (F := Ideal) m ρ)
  · refine (θ_run (Cert.ReferenceIdeal.defs (F := Ideal)) _ _).mono (fun r h c => ⟨(h c).1.trans ?_, (h c).2⟩)
      (Cert.ReferenceIdeal.RefRun.run m' ρ')
    obtain ⟨e0, e1, e2, e3, e4, e5, e6, e7, e8, e9, e10, e11, e12⟩ := hagree c
    obtain ⟨h0, h4, h5, h6, h7, h8, h9, h10, h11, h12⟩ :=
      Cert.Pre_finite_inputs.Real.allReal_of_pre _ _ _ _ _ _ _ _ _ _ _ _ _ (hpre c)
    rw [e0, e1, e2, e3, e4, e5, e6, e7, e8, e9, e10, e11, e12]
    exact (Cert.Bridge.out_eq m c h0 h4 h5 h6 h7 h8 h9 h10 h11 h12).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
